-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S1600000 : Shape := ⟨1, ![1600000]⟩
abbrev S4x128 : Shape := ⟨2, ![4, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_v48 : IVec S_ 1) (main_v49 : FVec F S3 .f32) (main_v50 : FVec F S3 .f32) : IVec S_ 1 :=
  let main_v51 : IVec S3 1 := cmpf .olt main_v49 main_v50
  let main_c_19 : IVec S_ 1 := constantI S_ 1 1#1
  let main_v52 : IVec S_ 1 := (fun x v => Host.reduce IntOp.andi x v reducesTo_S3_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128x3 .f32) (main_arg12 : FVec F S3 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x3 .f32 := Host.absf main_arg11
  let main_cst_16 : FVec F S_ .f32 := constant S_ .f32 0x7F800000#32
  let main_v45 : FVec F S128x3 .f32 := broadcastInDim S128x3 ![] bcast_S_S128x3 main_cst_16
  let main_v46 : IVec S128x3 1 := cmpf .olt main_v44 main_v45
  let main_c_17 : IVec S_ 1 := constantI S_ 1 1#1
  let main_v47 : IVec S_ 1 := (fun x v => Host.reduce IntOp.andi x v reducesTo_S128x3_S_d0_1 h_S_) main_v46 main_c_17
  let main_v48 : IVec S_ 1 := andi main_v43 main_v47
  let main_v49 : FVec F S3 .f32 := Host.absf main_arg12
  let main_cst_18 : FVec F S_ .f32 := constant S_ .f32 0x7F800000#32
  let main_v50 : FVec F S3 .f32 := broadcastInDim S3 ![] bcast_S_S3 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x3 .f32) (main_arg12 : FVec F S3 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x4 .f32) (main_arg1 : IVec S1600000 32) (main_arg2 : IVec S1600000 32) (main_arg3 : FVec F S4x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x3 .f32) (main_arg12 : FVec F S3 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S4x128 .f32 := Host.absf main_arg3
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S100000x4 : Shape := ⟨2, ![100000, 4]⟩
abbrev S1600000 : Shape := ⟨1, ![1600000]⟩
abbrev S4x128 : Shape := ⟨2, ![4, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S2000x4 : Shape := ⟨2, ![2000, 4]⟩
abbrev S2000x1 : Shape := ⟨2, ![2000, 1]⟩
abbrev S2000x128 : Shape := ⟨2, ![2000, 128]⟩
abbrev S1600000x128 : Shape := ⟨2, ![1600000, 128]⟩
abbrev S1x128 : Shape := ⟨2, ![1, 128]⟩
abbrev S100000x3 : Shape := ⟨2, ![100000, 3]⟩
abbrev S2000x3 : Shape := ⟨2, ![2000, 3]⟩
abbrev S1600000x3 : Shape := ⟨2, ![1600000, 3]⟩
abbrev S1x3 : Shape := ⟨2, ![1, 3]⟩

abbrev nBuf : Space → Nat
  | .hbm => 113
  | .vmem => 70
  | .smem => 0
  | _ => 0

abbrev bufTy : (tb : Table) → Fin (tcTables nBuf tb) → BufTy
  | .hbm, ⟨0, _⟩ => ⟨S100000x4, .f32⟩
  | .hbm, ⟨1, _⟩ => ⟨S1600000, .i32⟩
  | .hbm, ⟨2, _⟩ => ⟨S1600000, .i32⟩
  | .hbm, ⟨3, _⟩ => ⟨S4x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x3, .f32⟩
  | .hbm, ⟨12, _⟩ => ⟨S3, .f32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x1, .f32⟩
  | .hbm, ⟨33, _⟩ => ⟨S100000x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x128, .f32⟩
  | .hbm, ⟨75, _⟩ => ⟨S_, .f32⟩
  | .hbm, ⟨76, _⟩ => ⟨S100000x128, .f32⟩
  | .hbm, ⟨77, _⟩ => ⟨S1600000x1, .i32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000x128, .f32⟩
  | .hbm, ⟨91, _⟩ => ⟨S_, .f32⟩
  | .hbm, ⟨92, _⟩ => ⟨S100000x128, .f32⟩
  | .hbm, ⟨93, _⟩ => ⟨S1600000x1, .i32⟩
  | .hbm, ⟨94, _⟩ => ⟨S100000x128, .f32⟩
  | .hbm, ⟨95, _⟩ => ⟨S1x128, .f32⟩
  | .hbm, ⟨96, _⟩ => ⟨S100000x128, .f32⟩
  | .hbm, ⟨97, _⟩ => ⟨S100000x3, .f32⟩
  | .hbm, ⟨98, _⟩ => ⟨S_, .i32⟩
  | .hbm, ⟨99, _⟩ => ⟨S1600000, .i32⟩
  | .hbm, ⟨100, _⟩ => ⟨S1600000, .i1⟩
  | .hbm, ⟨101, _⟩ => ⟨S_, .i32⟩
  | .hbm, ⟨102, _⟩ => ⟨S1600000, .i32⟩
  | .hbm, ⟨103, _⟩ => ⟨S1600000, .i32⟩
  | .hbm, ⟨104, _⟩ => ⟨S1600000, .i32⟩
  | .hbm, ⟨105, _⟩ => ⟨S1600000x1, .i32⟩
  | .hbm, ⟨106, _⟩ => ⟨S1600000x3, .f32⟩
  | .hbm, ⟨107, _⟩ => ⟨S_, .f32⟩
  | .hbm, ⟨108, _⟩ => ⟨S100000x3, .f32⟩
  | .hbm, ⟨109, _⟩ => ⟨S1600000x1, .i32⟩
  | .hbm, ⟨110, _⟩ => ⟨S100000x3, .f32⟩
  | .hbm, ⟨111, _⟩ => ⟨S1x3, .f32⟩
  | .hbm, ⟨112, _⟩ => ⟨S100000x3, .f32⟩
  | .local _ .vmem, ⟨0, _⟩ => ⟨S2000x4, .f32⟩
  | .local _ .vmem, ⟨1, _⟩ => ⟨S2000x4, .f32⟩
  | .local _ .vmem, ⟨2, _⟩ => ⟨S2000x1, .f32⟩
  | .local _ .vmem, ⟨3, _⟩ => ⟨S2000x1, .f32⟩
  | .local _ .vmem, ⟨4, _⟩ => ⟨S4x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x1, .f32⟩
  | .local _ .vmem, ⟨17, _⟩ => ⟨S2000x1, .f32⟩
  | .local _ .vmem, ⟨18, _⟩ => ⟨S128x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x1, .f32⟩
  | .local _ .vmem, ⟨24, _⟩ => ⟨S2000x1, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x1, .f32⟩
  | .local _ .vmem, ⟨31, _⟩ => ⟨S2000x1, .f32⟩
  | .local _ .vmem, ⟨32, _⟩ => ⟨S128x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x1, .f32⟩
  | .local _ .vmem, ⟨38, _⟩ => ⟨S2000x1, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x1, .f32⟩
  | .local _ .vmem, ⟨45, _⟩ => ⟨S2000x1, .f32⟩
  | .local _ .vmem, ⟨46, _⟩ => ⟨S128x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S2000x1, .f32⟩
  | .local _ .vmem, ⟨52, _⟩ => ⟨S2000x1, .f32⟩
  | .local _ .vmem, ⟨53, _⟩ => ⟨S1x128, .f32⟩
  | .local _ .vmem, ⟨54, _⟩ => ⟨S2000x128, .f32⟩
  | .local _ .vmem, ⟨55, _⟩ => ⟨S2000x128, .f32⟩
  | .local _ .vmem, ⟨56, _⟩ => ⟨S2000x128, .f32⟩
  | .local _ .vmem, ⟨57, _⟩ => ⟨S2000x128, .f32⟩
  | .local _ .vmem, ⟨58, _⟩ => ⟨S2000x1, .f32⟩
  | .local _ .vmem, ⟨59, _⟩ => ⟨S2000x1, .f32⟩
  | .local _ .vmem, ⟨60, _⟩ => ⟨S128x3, .f32⟩
  | .local _ .vmem, ⟨61, _⟩ => ⟨S2000x3, .f32⟩
  | .local _ .vmem, ⟨62, _⟩ => ⟨S2000x3, .f32⟩
  | .local _ .vmem, ⟨63, _⟩ => ⟨S2000x3, .f32⟩
  | .local _ .vmem, ⟨64, _⟩ => ⟨S2000x3, .f32⟩
  | .local _ .vmem, ⟨65, _⟩ => ⟨S2000x1, .f32⟩
  | .local _ .vmem, ⟨66, _⟩ => ⟨S2000x1, .f32⟩
  | .local _ .vmem, ⟨67, _⟩ => ⟨S1x3, .f32⟩
  | .local _ .vmem, ⟨68, _⟩ => ⟨S2000x3, .f32⟩
  | .local _ .vmem, ⟨69, _⟩ => ⟨S2000x3, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_9 : Ref sig .tc := ⟨.hbm, 66, rfl⟩
abbrev main_v42 : Ref sig .tc := ⟨.hbm, 67, rfl⟩
abbrev main_v43 : Ref sig .tc := ⟨.hbm, 68, rfl⟩
abbrev main_c_10 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_11 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_c_12 : Ref sig .tc := ⟨.hbm, 82, rfl⟩
abbrev main_v55 : Ref sig .tc := ⟨.hbm, 83, rfl⟩
abbrev main_v56 : Ref sig .tc := ⟨.hbm, 84, rfl⟩
abbrev main_c_13 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_14 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_15 : Ref sig .tc := ⟨.hbm, 98, rfl⟩
abbrev main_v68 : Ref sig .tc := ⟨.hbm, 99, rfl⟩
abbrev main_v69 : Ref sig .tc := ⟨.hbm, 100, rfl⟩
abbrev main_c_16 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_17 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg3_0 : Ref sig .tc := ⟨.vmem, 47, rfl⟩
abbrev cc6_stg3_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg1_1 : Ref sig .tc := ⟨.vmem, 52, rfl⟩
abbrev cc7_stg2_0 : Ref sig .tc := ⟨.vmem, 53, rfl⟩
abbrev cc7_stg3_0 : Ref sig .tc := ⟨.vmem, 54, rfl⟩
abbrev cc7_stg3_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg1_1 : Ref sig .tc := ⟨.vmem, 59, rfl⟩
abbrev cc8_stg2_0 : Ref sig .tc := ⟨.vmem, 60, rfl⟩
abbrev cc8_stg3_0 : Ref sig .tc := ⟨.vmem, 61, rfl⟩
abbrev cc8_stg3_1 : Ref sig .tc := ⟨.vmem, 62, rfl⟩
abbrev cc9_stg0_0 : Ref sig .tc := ⟨.vmem, 63, rfl⟩
abbrev cc9_stg0_1 : Ref sig .tc := ⟨.vmem, 64, rfl⟩
abbrev cc9_stg1_0 : Ref sig .tc := ⟨.vmem, 65, rfl⟩
abbrev cc9_stg1_1 : Ref sig .tc := ⟨.vmem, 66, rfl⟩
abbrev cc9_stg2_0 : Ref sig .tc := ⟨.vmem, 67, rfl⟩
abbrev cc9_stg3_0 : Ref sig .tc := ⟨.vmem, 68, rfl⟩
abbrev cc9_stg3_1 : Ref sig .tc := ⟨.vmem, 69, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem3_0 : DmaSem sig := 47
abbrev cc6_sem3_1 : DmaSem sig := 48
abbrev cc7_sem0_0 : DmaSem sig := 49
abbrev cc7_sem0_1 : DmaSem sig := 50
abbrev cc7_sem1_0 : DmaSem sig := 51
abbrev cc7_sem1_1 : DmaSem sig := 52
abbrev cc7_sem2_0 : DmaSem sig := 53
abbrev cc7_sem3_0 : DmaSem sig := 54
abbrev cc7_sem3_1 : DmaSem sig := 55
abbrev cc8_sem0_0 : DmaSem sig := 56
abbrev cc8_sem0_1 : DmaSem sig := 57
abbrev cc8_sem1_0 : DmaSem sig := 58
abbrev cc8_sem1_1 : DmaSem sig := 59
abbrev cc8_sem2_0 : DmaSem sig := 60
abbrev cc8_sem3_0 : DmaSem sig := 61
abbrev cc8_sem3_1 : DmaSem sig := 62
abbrev cc9_sem0_0 : DmaSem sig := 63
abbrev cc9_sem0_1 : DmaSem sig := 64
abbrev cc9_sem1_0 : DmaSem sig := 65
abbrev cc9_sem1_1 : DmaSem sig := 66
abbrev cc9_sem2_0 : DmaSem sig := 67
abbrev cc9_sem3_0 : DmaSem sig := 68
abbrev cc9_sem3_1 : DmaSem sig := 69

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x3 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S2000x3 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x3 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x1 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x3 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S2000x3 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S2000x4_S2000x4_0_0 : ∀ a, (![0, 0] : Fin 2 → Nat) a + S2000x4.size a ≤ S2000x4.size a
  h_S2000x4 : 0 < S2000x4.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x4 : S2000x1.Broadcasts S2000x4
  bitsLt_bf16_f32 : FTy.bits .bf16 < FTy.bits .f32
  inb_S4x128_S4x128_0_0 : ∀ a, (![0, 0] : Fin 2 → Nat) a + S4x128.size a ≤ S4x128.size a
  h_S4x128 : 0 < S4x128.numel
  inb_S2000x128_S2000x128_0_0 : ∀ a, (![0, 0] : Fin 2 → Nat) a + S2000x128.size a ≤ S2000x128.size a
  h_S2000x128 : 0 < S2000x128.numel
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S2000x1_S2000x128 : S2000x1.Broadcasts S2000x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  inb_S128x3_S128x3_0_0 : ∀ a, (![0, 0] : Fin 2 → Nat) a + S128x3.size a ≤ S128x3.size a
  h_S128x3 : 0 < S128x3.numel
  inb_S2000x3_S2000x3_0_0 : ∀ a, (![0, 0] : Fin 2 → Nat) a + S2000x3.size a ≤ S2000x3.size a
  h_S2000x3 : 0 < S2000x3.numel
  bcast_S_S100000x3 : S_.BroadcastsInDim S100000x3 (![] : Fin 0 → Fin S100000x3.rank)
  shapeCasts_S3_S1x3 : S3.ShapeCasts S1x3
  shapeCasts_S2000x3_S2000x3 : S2000x3.ShapeCasts S2000x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S2000x1_S2000x3 : S2000x1.Broadcasts S2000x3
  broadcasts_S1x3_S2000x3 : S1x3.Broadcasts S2000x3
  scatter_S100000_S1600000x1_S1600000_n_0_0_1_wf : ScatterDims.WF S100000 S1600000x1 S1600000 [] [0] [0] 1
  dot_S2000x4_S4x128_S2000x128_1_0_0_1_n_n_wf : DotDims.WF S2000x4 S4x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x3_S2000x3_1_0_0_1_n_n_wf : DotDims.WF S2000x128 S128x3 S2000x3 [1] [0] [0] [1] [] []
  gather_S100000x3_S1600000x1_S1600000x3_1_0_n_n_0_1_13_wf : GatherDims.WF S100000x3 S1600000x1 S1600000x3 [1] [0] [] [0] [] 1 ![1, 3]
  scatter_S100000x3_S1600000x1_S1600000x3_1_0_0_1_wf : ScatterDims.WF S100000x3 S1600000x1 S1600000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x4.size a ≤ S100000x4.size a
  hwx0_0 : ∀ i : grid0.Coords, EltTy.bits .f32 = 32 ∨ (Rect.block (s := S100000x4) S2000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x128.size a ≤ S4x128.size a
  hwx0_2 : ∀ i : grid0.Coords, EltTy.bits .f32 = 32 ∨ (Rect.block (s := S4x128) S4x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S100000x128.size a
  hwx3_3 : ∀ i : grid3.Coords, EltTy.bits .f32 = 32 ∨ (Rect.block (s := S100000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S100000x1.size a
  hwx4_1 : ∀ i : grid4.Coords, EltTy.bits .f32 = 32 ∨ (Rect.block (s := S100000x1) S2000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S100000x128.size a
  hwx4_3 : ∀ i : grid4.Coords, EltTy.bits .f32 = 32 ∨ (Rect.block (s := S100000x128) S2000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S100000x1.size a
  hwx5_1 : ∀ i : grid5.Coords, EltTy.bits .f32 = 32 ∨ (Rect.block (s := S100000x1) S2000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S100000x128.size a
  hwx5_3 : ∀ i : grid5.Coords, EltTy.bits .f32 = 32 ∨ (Rect.block (s := S100000x128) S2000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .f32 = 32 ∨ (Rect.block (s := S100000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x1.size a ≤ S100000x1.size a
  hwx6_1 : ∀ i : grid6.Coords, EltTy.bits .f32 = 32 ∨ (Rect.block (s := S100000x1) S2000x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x128.size a ≤ S100000x128.size a
  hwx6_3 : ∀ i : grid6.Coords, EltTy.bits .f32 = 32 ∨ (Rect.block (s := S100000x128) S2000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S100000x128.size a
  hwx7_0 : ∀ i : grid7.Coords, EltTy.bits .f32 = 32 ∨ (Rect.block (s := S100000x128) S2000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x1.size a ≤ S100000x1.size a
  hwx7_1 : ∀ i : grid7.Coords, EltTy.bits .f32 = 32 ∨ (Rect.block (s := S100000x1) S2000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x128.size a ≤ S100000x128.size a
  hwx7_3 : ∀ i : grid7.Coords, EltTy.bits .f32 = 32 ∨ (Rect.block (s := S100000x128) S2000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S100000x128.size a
  hwx8_0 : ∀ i : grid8.Coords, EltTy.bits .f32 = 32 ∨ (Rect.block (s := S100000x128) S2000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x1.size a ≤ S100000x1.size a
  hwx8_1 : ∀ i : grid8.Coords, EltTy.bits .f32 = 32 ∨ (Rect.block (s := S100000x1) S2000x1.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x3.size a ≤ S128x3.size a
  hwx8_2 : ∀ i : grid8.Coords, EltTy.bits .f32 = 32 ∨ (Rect.block (s := S128x3) S128x3.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2000x3.size a ≤ S100000x3.size a
  hwx8_3 : ∀ i : grid8.Coords, EltTy.bits .f32 = 32 ∨ (Rect.block (s := S100000x3) S2000x3.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x3.size a ≤ S100000x3.size a
  hwx9_0 : ∀ i : grid9.Coords, EltTy.bits .f32 = 32 ∨ (Rect.block (s := S100000x3) S2000x3.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x1.size a ≤ S100000x1.size a
  hwx9_1 : ∀ i : grid9.Coords, EltTy.bits .f32 = 32 ∨ (Rect.block (s := S100000x1) S2000x1.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x3.size a ≤ S1x3.size a
  hwx9_2 : ∀ i : grid9.Coords, EltTy.bits .f32 = 32 ∨ (Rect.block (s := S1x3) S1x3.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S2000x3.size a ≤ S100000x3.size a
  hwx9_3 : ∀ i : grid9.Coords, EltTy.bits .f32 = 32 ∨ (Rect.block (s := S100000x3) S2000x3.size (cc9_transform_3 i) (hinb9_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x4_S4x128_S2000x128_1_0_0_1_n_n : DotDims S2000x4 S4x128 S2000x128 where
  lhsContracting := [1]
  rhsContracting := [0]
  lhsNonContracting := [0]
  rhsNonContracting := [1]
  lhsBatch := []
  rhsBatch := []
  wf := dot_S2000x4_S4x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x3_S2000x3_1_0_0_1_n_n : DotDims S2000x128 S128x3 S2000x3 where
  lhsContracting := [1]
  rhsContracting := [0]
  lhsNonContracting := [0]
  rhsNonContracting := [1]
  lhsBatch := []
  rhsBatch := []
  wf := dot_S2000x128_S128x3_S2000x3_1_0_0_1_n_n_wf
def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def scatter_S100000x3_S1600000x1_S1600000x3_1_0_0_1 : ScatterDims S100000x3 S1600000x1 S1600000x3 where
  updateWindowDims := [1]
  insertedWindowDims := [0]
  scatterDimsToOperandDims := [0]
  indexVectorDim := 1
  wf := scatter_S100000x3_S1600000x1_S1600000x3_1_0_0_1_wf

abbrev win0_0 : Pipeline.Window sig grid0 :=
  Pipeline.Window.ofSpec (Memref.whole main_arg0) S2000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v27) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v38) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v39) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v40) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v40) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v13) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v41) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v51) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v14) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v52) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v53) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v53) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v13) S2000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg9) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v54) S2000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v64) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v14) S2000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v65) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v66) S2000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v66) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v13) S2000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_arg11) S128x3.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v67) S2000x3.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v77) S2000x3.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v14) S2000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v78) S1x3.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v79) S2000x3.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S100000x4 : Shape := ⟨2, ![100000, 4]⟩
abbrev S1600000 : Shape := ⟨1, ![1600000]⟩
abbrev S4x128 : Shape := ⟨2, ![4, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S1600000x128 : Shape := ⟨2, ![1600000, 128]⟩
abbrev S1x128 : Shape := ⟨2, ![1, 128]⟩
abbrev S100000x3 : Shape := ⟨2, ![100000, 3]⟩
abbrev S1600000x3 : Shape := ⟨2, ![1600000, 3]⟩
abbrev S1x3 : Shape := ⟨2, ![1, 3]⟩

abbrev nBuf : Space → Nat
  | .hbm => 174
  | .vmem => 0
  | .smem => 0
  | _ => 0

abbrev hbmTy0_0 (i : Nat) : BufTy := match i % 128 with
  | 0 => ⟨S100000x4, .f32⟩
  | 1 => ⟨S1600000, .i32⟩
  | 2 => ⟨S1600000, .i32⟩
  | 3 => ⟨S4x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x3, .f32⟩
  | 12 => ⟨S3, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S_, .f32⟩
  | 28 => ⟨S100000, .f32⟩
  | 29 => ⟨S100000, .f32⟩
  | 30 => ⟨S100000, .f32⟩
  | 31 => ⟨S100000x1, .f32⟩
  | 32 => ⟨S100000x4, .f32⟩
  | 33 => ⟨S100000x4, .f32⟩
  | 34 => ⟨S100000x128, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x128, .f32⟩
  | 44 => ⟨S_, .f32⟩
  | 45 => ⟨S100000x128, .f32⟩
  | 46 => ⟨S1600000x1, .i32⟩
  | 47 => ⟨S100000x128, .f32⟩
  | 48 => ⟨S100000x1, .f32⟩
  | 49 => ⟨S100000x128, .f32⟩
  | 50 => ⟨S100000x128, .f32⟩
  | 51 => ⟨S1x128, .f32⟩
  | 52 => ⟨S100000x128, .f32⟩
  | 53 => ⟨S100000x128, .f32⟩
  | 54 => ⟨S_, .f32⟩
  | 55 => ⟨S100000x128, .f32⟩
  | 56 => ⟨S100000x128, .i1⟩
  | 57 => ⟨S_, .f32⟩
  | 58 => ⟨S100000x128, .f32⟩
  | 59 => ⟨S100000x128, .f32⟩
  | 60 => ⟨S100000x128, .f32⟩
  | 61 => ⟨S100000x1, .f32⟩
  | 62 => ⟨S100000x128, .f32⟩
  | 63 => ⟨S100000x128, .f32⟩
  | 64 => ⟨S100000x128, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000x128, .f32⟩
  | 74 => ⟨S_, .f32⟩
  | 75 => ⟨S100000x128, .f32⟩
  | 76 => ⟨S1600000x1, .i32⟩
  | 77 => ⟨S100000x128, .f32⟩
  | 78 => ⟨S100000x1, .f32⟩
  | 79 => ⟨S100000x128, .f32⟩
  | 80 => ⟨S100000x128, .f32⟩
  | 81 => ⟨S1x128, .f32⟩
  | 82 => ⟨S100000x128, .f32⟩
  | 83 => ⟨S100000x128, .f32⟩
  | 84 => ⟨S_, .f32⟩
  | 85 => ⟨S100000x128, .f32⟩
  | 86 => ⟨S100000x128, .i1⟩
  | 87 => ⟨S_, .f32⟩
  | 88 => ⟨S100000x128, .f32⟩
  | 89 => ⟨S100000x128, .f32⟩
  | 90 => ⟨S100000x128, .f32⟩
  | 91 => ⟨S100000x1, .f32⟩
  | 92 => ⟨S100000x128, .f32⟩
  | 93 => ⟨S100000x128, .f32⟩
  | 94 => ⟨S100000x128, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x128, .f32⟩
  | 104 => ⟨S_, .f32⟩
  | 105 => ⟨S100000x128, .f32⟩
  | 106 => ⟨S1600000x1, .i32⟩
  | 107 => ⟨S100000x128, .f32⟩
  | 108 => ⟨S100000x1, .f32⟩
  | 109 => ⟨S100000x128, .f32⟩
  | 110 => ⟨S100000x128, .f32⟩
  | 111 => ⟨S1x128, .f32⟩
  | 112 => ⟨S100000x128, .f32⟩
  | 113 => ⟨S100000x128, .f32⟩
  | 114 => ⟨S_, .f32⟩
  | 115 => ⟨S100000x128, .f32⟩
  | 116 => ⟨S100000x128, .i1⟩
  | 117 => ⟨S_, .f32⟩
  | 118 => ⟨S100000x128, .f32⟩
  | 119 => ⟨S100000x128, .f32⟩
  | 120 => ⟨S100000x128, .f32⟩
  | 121 => ⟨S100000x1, .f32⟩
  | 122 => ⟨S100000x128, .f32⟩
  | 123 => ⟨S100000x128, .f32⟩
  | 124 => ⟨S100000x128, .f32⟩
  | 125 => ⟨S_, .i32⟩
  | 126 => ⟨S1600000, .i32⟩
  | 127 => ⟨S1600000, .i1⟩
  | _ => ⟨S100000x4, .f32⟩

abbrev hbmTy0_1 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1600000x128, .f32⟩
  | 6 => ⟨S_, .f32⟩
  | 7 => ⟨S100000x128, .f32⟩
  | 8 => ⟨S1600000x1, .i32⟩
  | 9 => ⟨S100000x128, .f32⟩
  | 10 => ⟨S100000x1, .f32⟩
  | 11 => ⟨S100000x128, .f32⟩
  | 12 => ⟨S100000x128, .f32⟩
  | 13 => ⟨S1x128, .f32⟩
  | 14 => ⟨S100000x128, .f32⟩
  | 15 => ⟨S100000x128, .f32⟩
  | 16 => ⟨S_, .f32⟩
  | 17 => ⟨S100000x128, .f32⟩
  | 18 => ⟨S100000x128, .i1⟩
  | 19 => ⟨S_, .f32⟩
  | 20 => ⟨S100000x128, .f32⟩
  | 21 => ⟨S100000x128, .f32⟩
  | 22 => ⟨S100000x128, .f32⟩
  | 23 => ⟨S100000x1, .f32⟩
  | 24 => ⟨S100000x128, .f32⟩
  | 25 => ⟨S100000x128, .f32⟩
  | 26 => ⟨S100000x3, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x3, .f32⟩
  | 36 => ⟨S_, .f32⟩
  | 37 => ⟨S100000x3, .f32⟩
  | 38 => ⟨S1600000x1, .i32⟩
  | 39 => ⟨S100000x3, .f32⟩
  | 40 => ⟨S100000x1, .f32⟩
  | 41 => ⟨S100000x3, .f32⟩
  | 42 => ⟨S100000x3, .f32⟩
  | 43 => ⟨S1x3, .f32⟩
  | 44 => ⟨S100000x3, .f32⟩
  | 45 => ⟨S100000x3, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_8 : Ref sig .tc := ⟨.hbm, 65, rfl⟩
abbrev main_v42 : Ref sig .tc := ⟨.hbm, 66, rfl⟩
abbrev main_v43 : Ref sig .tc := ⟨.hbm, 67, rfl⟩
abbrev main_c_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_cst_12 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_13 : Ref sig .tc := ⟨.hbm, 95, rfl⟩
abbrev main_v67 : Ref sig .tc := ⟨.hbm, 96, rfl⟩
abbrev main_v68 : Ref sig .tc := ⟨.hbm, 97, rfl⟩
abbrev main_c_14 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_15 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_16 : Ref sig .tc := ⟨.hbm, 114, rfl⟩
abbrev main_v83 : Ref sig .tc := ⟨.hbm, 115, rfl⟩
abbrev main_v84 : Ref sig .tc := ⟨.hbm, 116, rfl⟩
abbrev main_cst_17 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_c_18 : Ref sig .tc := ⟨.hbm, 125, rfl⟩
abbrev main_v92 : Ref sig .tc := ⟨.hbm, 126, rfl⟩
abbrev main_v93 : Ref sig .tc := ⟨.hbm, 127, rfl⟩
abbrev main_c_19 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_20 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_cst_21 : Ref sig .tc := ⟨.hbm, 144, rfl⟩
abbrev main_v108 : Ref sig .tc := ⟨.hbm, 145, rfl⟩
abbrev main_v109 : Ref sig .tc := ⟨.hbm, 146, rfl⟩
abbrev main_cst_22 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_c_23 : Ref sig .tc := ⟨.hbm, 155, rfl⟩
abbrev main_v117 : Ref sig .tc := ⟨.hbm, 156, rfl⟩
abbrev main_v118 : Ref sig .tc := ⟨.hbm, 157, rfl⟩
abbrev main_c_24 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_cst_25 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x4_0_1 : S100000x1.BroadcastsInDim S100000x4 (![0, 1] : Fin 2 → Fin S100000x4.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x3 : S_.BroadcastsInDim S100000x3 (![] : Fin 0 → Fin S100000x3.rank)
  bcast_S100000x1_S100000x3_0_1 : S100000x1.BroadcastsInDim S100000x3 (![0, 1] : Fin 2 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  scatter_S100000_S1600000x1_S1600000_n_0_0_1_wf : ScatterDims.WF S100000 S1600000x1 S1600000 [] [0] [0] 1
  dot_S100000x4_S4x128_S100000x128_1_0_0_1_n_n_wf : DotDims.WF S100000x4 S4x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x3_S100000x3_1_0_0_1_n_n_wf : DotDims.WF S100000x128 S128x3 S100000x3 [1] [0] [0] [1] [] []
  gather_S100000x3_S1600000x1_S1600000x3_1_0_n_n_0_1_13_wf : GatherDims.WF S100000x3 S1600000x1 S1600000x3 [1] [0] [] [0] [] 1 ![1, 3]
  scatter_S100000x3_S1600000x1_S1600000x3_1_0_0_1_wf : ScatterDims.WF S100000x3 S1600000x1 S1600000x3 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x4_S4x128_S100000x128_1_0_0_1_n_n : DotDims S100000x4 S4x128 S100000x128 where
  lhsContracting := [1]
  rhsContracting := [0]
  lhsNonContracting := [0]
  rhsNonContracting := [1]
  lhsBatch := []
  rhsBatch := []
  wf := dot_S100000x4_S4x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x3_S100000x3_1_0_0_1_n_n : DotDims S100000x128 S128x3 S100000x3 where
  lhsContracting := [1]
  rhsContracting := [0]
  lhsNonContracting := [0]
  rhsNonContracting := [1]
  lhsBatch := []
  rhsBatch := []
  wf := dot_S100000x128_S128x3_S100000x3_1_0_0_1_n_n_wf
def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def scatter_S100000x3_S1600000x1_S1600000x3_1_0_0_1 : ScatterDims S100000x3 S1600000x1 S1600000x3 where
  updateWindowDims := [1]
  insertedWindowDims := [0]
  scatterDimsToOperandDims := [0]
  indexVectorDim := 1
  wf := scatter_S100000x3_S1600000x1_S1600000x3_1_0_0_1_wf

class Facts : Prop extends Facts₀ where

variable [Facts]
-- ==== Proof.RunBuffers.lean ====
/-
  The idealized kernel's run, with its final memory read.

  The program is sixteen segments: six stretches of host operations and ten kernel launches.  The launch theorem for
  such a list of segments gives more than the arguments' preservation: at the end, every buffer that outlives a launch
  holds the last entry of the fold of contents through the segments — a host stretch applies its operations, a launch
  leaves each of its arrays at what its write-backs made of it and every other buffer as it was.  Stated here: that
  fact for all buffers at once, and from it the run with the result buffer named as that fold's value and the thirteen
  arguments unchanged.
-/
import proofs.«118214_j76390288327751_1_alg».proof.Proof.Gen.KernelIdeal.Frame

set_option maxRecDepth 16384

noncomputable section

namespace Cert.KernelIdeal.RunBuffers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, and at its end every buffer that outlives a launch holds
    the fold's last contents. -/
theorem run_buffers : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h => h)

/-- The run with the result buffer named: it ends at the fold's value there, and the arguments end as launched. -/
theorem run_result : θ_run defs (onTc (τ := τ) (main (F := F))) ⟨m, fun _ => 0, ρ⟩ (fun r => ∀ c : Dev nD,
      r.2.mem ((c.tc : Thread nD τ).loc main_v79) = W16 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun s h c =>
    ⟨h c _ (mem_uc main_v79 (by decide)),
     (h c _ (mem_uc main_arg0 (by decide))).trans (W16_main_arg0 m ρ c),
     (h c _ (mem_uc main_arg1 (by decide))).trans (W16_main_arg1 m ρ c),
     (h c _ (mem_uc main_arg2 (by decide))).trans (W16_main_arg2 m ρ c),
     (h c _ (mem_uc main_arg3 (by decide))).trans (W16_main_arg3 m ρ c),
     (h c _ (mem_uc main_arg4 (by decide))).trans (W16_main_arg4 m ρ c),
     (h c _ (mem_uc main_arg5 (by decide))).trans (W16_main_arg5 m ρ c),
     (h c _ (mem_uc main_arg6 (by decide))).trans (W16_main_arg6 m ρ c),
     (h c _ (mem_uc main_arg7 (by decide))).trans (W16_main_arg7 m ρ c),
     (h c _ (mem_uc main_arg8 (by decide))).trans (W16_main_arg8 m ρ c),
     (h c _ (mem_uc main_arg9 (by decide))).trans (W16_main_arg9 m ρ c),
     (h c _ (mem_uc main_arg10 (by decide))).trans (W16_main_arg10 m ρ c),
     (h c _ (mem_uc main_arg11 (by decide))).trans (W16_main_arg11 m ρ c),
     (h c _ (mem_uc main_arg12 (by decide))).trans (W16_main_arg12 m ρ c)⟩)
    (run_buffers m ρ)

end Cert.KernelIdeal.RunBuffers

end
-- ==== Proof.Kept.lean ====
/-
  Which buffers each of the sixteen segments leaves alone.

  A stretch of host operations rewrites the references its operations write and no other; a kernel launch changes its
  result array and no other buffer (its three operands are read, and read back unchanged).  Since every reference is
  written once in the whole program, a buffer that no segment after the first launch's entry writes — the thirteen
  arguments and the two degree columns — holds at every later boundary what it held at that entry.
-/
import proofs.«118214_j76390288327751_1_alg».proof.Proof.Gen.KernelIdeal.Frame
import Idealize.ShloMosaic.Lib.StableHlo.Run

set_option maxRecDepth 16384

noncomputable section

namespace Cert.KernelIdeal.Kept

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The references host stretch 0 writes. -/
def written0 : List (Ref sig .tc) := [main_cst, main_v0, main_cst_0, main_v1, main_v2, main_v3, main_cst_1, main_v4, main_v5, main_v6, main_cst_2, main_v7, main_v8, main_v9, main_cst_3, main_v10, main_v11, main_v12, main_v13, main_v14]

theorem writes_sub0 : (hostOps0 : List (HloOp τ sig (Elt F))).Forall fun op =>
    op.writes ⊆ (written0.map (Proc.devRef (τ := τ) .tc)).toFinset := by
  simp only [hostOps0, written0, List.Forall, StableHlo.nullary_writes, StableHlo.unary_writes, StableHlo.binary_writes,
    StableHlo.ternary_writes, StableHlo.reshape_writes, Finset.singleton_subset_iff, List.mem_toFinset, List.map_cons, List.map_nil,
    List.mem_cons, true_or, or_true, and_self]

/-- The references host stretch 1 writes. -/
def written1 : List (Ref sig .tc) := [main_c, main_v16, main_v17, main_c_4, main_v18, main_v19, main_v20, main_v21, main_v22, main_cst_5, main_v23, main_v24, main_v25, main_v26]

theorem writes_sub1 : (hostOps1 : List (HloOp τ sig (Elt F))).Forall fun op =>
    op.writes ⊆ (written1.map (Proc.devRef (τ := τ) .tc)).toFinset := by
  simp only [hostOps1, written1, List.Forall, StableHlo.nullary_writes, StableHlo.unary_writes, StableHlo.binary_writes,
    StableHlo.ternary_writes, StableHlo.reshape_writes, Finset.singleton_subset_iff, List.mem_toFinset, List.map_cons, List.map_nil,
    List.mem_cons, true_or, or_true, and_self]

/-- The references host stretch 3 writes. -/
def written3 : List (Ref sig .tc) := [main_c_6, main_v29, main_v30, main_c_7, main_v31, main_v32, main_v33, main_v34, main_v35, main_cst_8, main_v36, main_v37, main_v38, main_v39]

theorem writes_sub3 : (hostOps3 : List (HloOp τ sig (Elt F))).Forall fun op =>
    op.writes ⊆ (written3.map (Proc.devRef (τ := τ) .tc)).toFinset := by
  simp only [hostOps3, written3, List.Forall, StableHlo.nullary_writes, StableHlo.unary_writes, StableHlo.binary_writes,
    StableHlo.ternary_writes, StableHlo.reshape_writes, Finset.singleton_subset_iff, List.mem_toFinset, List.map_cons, List.map_nil,
    List.mem_cons, true_or, or_true, and_self]

/-- The references host stretch 5 writes. -/
def written5 : List (Ref sig .tc) := [main_c_9, main_v42, main_v43, main_c_10, main_v44, main_v45, main_v46, main_v47, main_v48, main_cst_11, main_v49, main_v50, main_v51, main_v52]

theorem writes_sub5 : (hostOps5 : List (HloOp τ sig (Elt F))).Forall fun op =>
    op.writes ⊆ (written5.map (Proc.devRef (τ := τ) .tc)).toFinset := by
  simp only [hostOps5, written5, List.Forall, StableHlo.nullary_writes, StableHlo.unary_writes, StableHlo.binary_writes,
    StableHlo.ternary_writes, StableHlo.reshape_writes, Finset.singleton_subset_iff, List.mem_toFinset, List.map_cons, List.map_nil,
    List.mem_cons, true_or, or_true, and_self]

/-- The references host stretch 7 writes. -/
def written7 : List (Ref sig .tc) := [main_c_12, main_v55, main_v56, main_c_13, main_v57, main_v58, main_v59, main_v60, main_v61, main_cst_14, main_v62, main_v63, main_v64, main_v65]

theorem writes_sub7 : (hostOps7 : List (HloOp τ sig (Elt F))).Forall fun op =>
    op.writes ⊆ (written7.map (Proc.devRef (τ := τ) .tc)).toFinset := by
  simp only [hostOps7, written7, List.Forall, StableHlo.nullary_writes, StableHlo.unary_writes, StableHlo.binary_writes,
    StableHlo.ternary_writes, StableHlo.reshape_writes, Finset.singleton_subset_iff, List.mem_toFinset, List.map_cons, List.map_nil,
    List.mem_cons, true_or, or_true, and_self]

/-- The references host stretch 9 writes. -/
def written9 : List (Ref sig .tc) := [main_c_15, main_v68, main_v69, main_c_16, main_v70, main_v71, main_v72, main_v73, main_v74, main_cst_17, main_v75, main_v76, main_v77, main_v78]

theorem writes_sub9 : (hostOps9 : List (HloOp τ sig (Elt F))).Forall fun op =>
    op.writes ⊆ (written9.map (Proc.devRef (τ := τ) .tc)).toFinset := by
  simp only [hostOps9, written9, List.Forall, StableHlo.nullary_writes, StableHlo.unary_writes, StableHlo.binary_writes,
    StableHlo.ternary_writes, StableHlo.reshape_writes, Finset.singleton_subset_iff, List.mem_toFinset, List.map_cons, List.map_nil,
    List.mem_cons, true_or, or_true, and_self]

/-- Host stretch 0 leaves alone every reference it does not write. -/
theorem kept_host0 (c : Dev nD) (r : Ref sig .tc) (hr : r ∉ written0) :
    W1 m ρ c (Proc.devRef .tc r) = W0 m ρ c (Proc.devRef .tc r) :=
  StableHlo.after_of_writes_sub hostOps0 (W0 m ρ c) writes_sub0 hr

/-- Launch 0 leaves alone every buffer but its result array. -/
theorem kept_launch0 (c : Dev nD) (r : Ref sig .tc) (hr : r ≠ main_v15) :
    W2 m ρ c (Proc.devRef .tc r) = W1 m ρ c (Proc.devRef .tc r) := by
  by_cases h0 : r = main_arg0
  · subst h0; exact (W2_arr m ρ c 0).trans (((dat0 (V1 m ρ) c).arrAt_in 0 rfl _).trans (A_eq0 (V1 m ρ) c 0))
  by_cases h1 : r = main_v13
  · subst h1; exact (W2_arr m ρ c 1).trans (((dat0 (V1 m ρ) c).arrAt_in 1 rfl _).trans (A_eq0 (V1 m ρ) c 1))
  by_cases h2 : r = main_arg3
  · subst h2; exact (W2_arr m ρ c 2).trans (((dat0 (V1 m ρ) c).arrAt_in 2 rfl _).trans (A_eq0 (V1 m ρ) c 2))
  exact W2_of_ne m ρ c r fun
    | ⟨0, _⟩ => Ne.symm h0 | ⟨1, _⟩ => Ne.symm h1 | ⟨2, _⟩ => Ne.symm h2 | ⟨3, _⟩ => Ne.symm hr
    | ⟨_ + 4, h⟩ => absurd h (Nat.not_lt.2 (Nat.le_add_left _ _))

/-- Host stretch 1 leaves alone every reference it does not write. -/
theorem kept_host1 (c : Dev nD) (r : Ref sig .tc) (hr : r ∉ written1) :
    W3 m ρ c (Proc.devRef .tc r) = W2 m ρ c (Proc.devRef .tc r) :=
  StableHlo.after_of_writes_sub hostOps1 (W2 m ρ c) writes_sub1 hr

/-- Launch 1 leaves alone every buffer but its result array. -/
theorem kept_launch1 (c : Dev nD) (r : Ref sig .tc) (hr : r ≠ main_v27) :
    W4 m ρ c (Proc.devRef .tc r) = W3 m ρ c (Proc.devRef .tc r) := by
  by_cases h0 : r = main_v25
  · subst h0; exact (W4_arr m ρ c 0).trans (((dat1 (V3 m ρ) c).arrAt_in 0 rfl _).trans (A_eq1 (V3 m ρ) c 0))
  by_cases h1 : r = main_v14
  · subst h1; exact (W4_arr m ρ c 1).trans (((dat1 (V3 m ρ) c).arrAt_in 1 rfl _).trans (A_eq1 (V3 m ρ) c 1))
  by_cases h2 : r = main_v26
  · subst h2; exact (W4_arr m ρ c 2).trans (((dat1 (V3 m ρ) c).arrAt_in 2 rfl _).trans (A_eq1 (V3 m ρ) c 2))
  exact W4_of_ne m ρ c r fun
    | ⟨0, _⟩ => Ne.symm h0 | ⟨1, _⟩ => Ne.symm h1 | ⟨2, _⟩ => Ne.symm h2 | ⟨3, _⟩ => Ne.symm hr
    | ⟨_ + 4, h⟩ => absurd h (Nat.not_lt.2 (Nat.le_add_left _ _))

/-- Launch 2 leaves alone every buffer but its result array. -/
theorem kept_launch2 (c : Dev nD) (r : Ref sig .tc) (hr : r ≠ main_v28) :
    W5 m ρ c (Proc.devRef .tc r) = W4 m ρ c (Proc.devRef .tc r) := by
  by_cases h0 : r = main_v27
  · subst h0; exact (W5_arr m ρ c 0).trans (((dat2 (V4 m ρ) c).arrAt_in 0 rfl _).trans (A_eq2 (V4 m ρ) c 0))
  by_cases h1 : r = main_v13
  · subst h1; exact (W5_arr m ρ c 1).trans (((dat2 (V4 m ρ) c).arrAt_in 1 rfl _).trans (A_eq2 (V4 m ρ) c 1))
  by_cases h2 : r = main_arg5
  · subst h2; exact (W5_arr m ρ c 2).trans (((dat2 (V4 m ρ) c).arrAt_in 2 rfl _).trans (A_eq2 (V4 m ρ) c 2))
  exact W5_of_ne m ρ c r fun
    | ⟨0, _⟩ => Ne.symm h0 | ⟨1, _⟩ => Ne.symm h1 | ⟨2, _⟩ => Ne.symm h2 | ⟨3, _⟩ => Ne.symm hr
    | ⟨_ + 4, h⟩ => absurd h (Nat.not_lt.2 (Nat.le_add_left _ _))

/-- Host stretch 3 leaves alone every reference it does not write. -/
theorem kept_host3 (c : Dev nD) (r : Ref sig .tc) (hr : r ∉ written3) :
    W6 m ρ c (Proc.devRef .tc r) = W5 m ρ c (Proc.devRef .tc r) :=
  StableHlo.after_of_writes_sub hostOps3 (W5 m ρ c) writes_sub3 hr

/-- Launch 3 leaves alone every buffer but its result array. -/
theorem kept_launch3 (c : Dev nD) (r : Ref sig .tc) (hr : r ≠ main_v40) :
    W7 m ρ c (Proc.devRef .tc r) = W6 m ρ c (Proc.devRef .tc r) := by
  by_cases h0 : r = main_v38
  · subst h0; exact (W7_arr m ρ c 0).trans (((dat3 (V6 m ρ) c).arrAt_in 0 rfl _).trans (A_eq3 (V6 m ρ) c 0))
  by_cases h1 : r = main_v14
  · subst h1; exact (W7_arr m ρ c 1).trans (((dat3 (V6 m ρ) c).arrAt_in 1 rfl _).trans (A_eq3 (V6 m ρ) c 1))
  by_cases h2 : r = main_v39
  · subst h2; exact (W7_arr m ρ c 2).trans (((dat3 (V6 m ρ) c).arrAt_in 2 rfl _).trans (A_eq3 (V6 m ρ) c 2))
  exact W7_of_ne m ρ c r fun
    | ⟨0, _⟩ => Ne.symm h0 | ⟨1, _⟩ => Ne.symm h1 | ⟨2, _⟩ => Ne.symm h2 | ⟨3, _⟩ => Ne.symm hr
    | ⟨_ + 4, h⟩ => absurd h (Nat.not_lt.2 (Nat.le_add_left _ _))

/-- Launch 4 leaves alone every buffer but its result array. -/
theorem kept_launch4 (c : Dev nD) (r : Ref sig .tc) (hr : r ≠ main_v41) :
    W8 m ρ c (Proc.devRef .tc r) = W7 m ρ c (Proc.devRef .tc r) := by
  by_cases h0 : r = main_v40
  · subst h0; exact (W8_arr m ρ c 0).trans (((dat4 (V7 m ρ) c).arrAt_in 0 rfl _).trans (A_eq4 (V7 m ρ) c 0))
  by_cases h1 : r = main_v13
  · subst h1; exact (W8_arr m ρ c 1).trans (((dat4 (V7 m ρ) c).arrAt_in 1 rfl _).trans (A_eq4 (V7 m ρ) c 1))
  by_cases h2 : r = main_arg7
  · subst h2; exact (W8_arr m ρ c 2).trans (((dat4 (V7 m ρ) c).arrAt_in 2 rfl _).trans (A_eq4 (V7 m ρ) c 2))
  exact W8_of_ne m ρ c r fun
    | ⟨0, _⟩ => Ne.symm h0 | ⟨1, _⟩ => Ne.symm h1 | ⟨2, _⟩ => Ne.symm h2 | ⟨3, _⟩ => Ne.symm hr
    | ⟨_ + 4, h⟩ => absurd h (Nat.not_lt.2 (Nat.le_add_left _ _))

/-- Host stretch 5 leaves alone every reference it does not write. -/
theorem kept_host5 (c : Dev nD) (r : Ref sig .tc) (hr : r ∉ written5) :
    W9 m ρ c (Proc.devRef .tc r) = W8 m ρ c (Proc.devRef .tc r) :=
  StableHlo.after_of_writes_sub hostOps5 (W8 m ρ c) writes_sub5 hr

/-- Launch 5 leaves alone every buffer but its result array. -/
theorem kept_launch5 (c : Dev nD) (r : Ref sig .tc) (hr : r ≠ main_v53) :
    W10 m ρ c (Proc.devRef .tc r) = W9 m ρ c (Proc.devRef .tc r) := by
  by_cases h0 : r = main_v51
  · subst h0; exact (W10_arr m ρ c 0).trans (((dat5 (V9 m ρ) c).arrAt_in 0 rfl _).trans (A_eq5 (V9 m ρ) c 0))
  by_cases h1 : r = main_v14
  · subst h1; exact (W10_arr m ρ c 1).trans (((dat5 (V9 m ρ) c).arrAt_in 1 rfl _).trans (A_eq5 (V9 m ρ) c 1))
  by_cases h2 : r = main_v52
  · subst h2; exact (W10_arr m ρ c 2).trans (((dat5 (V9 m ρ) c).arrAt_in 2 rfl _).trans (A_eq5 (V9 m ρ) c 2))
  exact W10_of_ne m ρ c r fun
    | ⟨0, _⟩ => Ne.symm h0 | ⟨1, _⟩ => Ne.symm h1 | ⟨2, _⟩ => Ne.symm h2 | ⟨3, _⟩ => Ne.symm hr
    | ⟨_ + 4, h⟩ => absurd h (Nat.not_lt.2 (Nat.le_add_left _ _))

/-- Launch 6 leaves alone every buffer but its result array. -/
theorem kept_launch6 (c : Dev nD) (r : Ref sig .tc) (hr : r ≠ main_v54) :
    W11 m ρ c (Proc.devRef .tc r) = W10 m ρ c (Proc.devRef .tc r) := by
  by_cases h0 : r = main_v53
  · subst h0; exact (W11_arr m ρ c 0).trans (((dat6 (V10 m ρ) c).arrAt_in 0 rfl _).trans (A_eq6 (V10 m ρ) c 0))
  by_cases h1 : r = main_v13
  · subst h1; exact (W11_arr m ρ c 1).trans (((dat6 (V10 m ρ) c).arrAt_in 1 rfl _).trans (A_eq6 (V10 m ρ) c 1))
  by_cases h2 : r = main_arg9
  · subst h2; exact (W11_arr m ρ c 2).trans (((dat6 (V10 m ρ) c).arrAt_in 2 rfl _).trans (A_eq6 (V10 m ρ) c 2))
  exact W11_of_ne m ρ c r fun
    | ⟨0, _⟩ => Ne.symm h0 | ⟨1, _⟩ => Ne.symm h1 | ⟨2, _⟩ => Ne.symm h2 | ⟨3, _⟩ => Ne.symm hr
    | ⟨_ + 4, h⟩ => absurd h (Nat.not_lt.2 (Nat.le_add_left _ _))

/-- Host stretch 7 leaves alone every reference it does not write. -/
theorem kept_host7 (c : Dev nD) (r : Ref sig .tc) (hr : r ∉ written7) :
    W12 m ρ c (Proc.devRef .tc r) = W11 m ρ c (Proc.devRef .tc r) :=
  StableHlo.after_of_writes_sub hostOps7 (W11 m ρ c) writes_sub7 hr

/-- Launch 7 leaves alone every buffer but its result array. -/
theorem kept_launch7 (c : Dev nD) (r : Ref sig .tc) (hr : r ≠ main_v66) :
    W13 m ρ c (Proc.devRef .tc r) = W12 m ρ c (Proc.devRef .tc r) := by
  by_cases h0 : r = main_v64
  · subst h0; exact (W13_arr m ρ c 0).trans (((dat7 (V12 m ρ) c).arrAt_in 0 rfl _).trans (A_eq7 (V12 m ρ) c 0))
  by_cases h1 : r = main_v14
  · subst h1; exact (W13_arr m ρ c 1).trans (((dat7 (V12 m ρ) c).arrAt_in 1 rfl _).trans (A_eq7 (V12 m ρ) c 1))
  by_cases h2 : r = main_v65
  · subst h2; exact (W13_arr m ρ c 2).trans (((dat7 (V12 m ρ) c).arrAt_in 2 rfl _).trans (A_eq7 (V12 m ρ) c 2))
  exact W13_of_ne m ρ c r fun
    | ⟨0, _⟩ => Ne.symm h0 | ⟨1, _⟩ => Ne.symm h1 | ⟨2, _⟩ => Ne.symm h2 | ⟨3, _⟩ => Ne.symm hr
    | ⟨_ + 4, h⟩ => absurd h (Nat.not_lt.2 (Nat.le_add_left _ _))

/-- Launch 8 leaves alone every buffer but its result array. -/
theorem kept_launch8 (c : Dev nD) (r : Ref sig .tc) (hr : r ≠ main_v67) :
    W14 m ρ c (Proc.devRef .tc r) = W13 m ρ c (Proc.devRef .tc r) := by
  by_cases h0 : r = main_v66
  · subst h0; exact (W14_arr m ρ c 0).trans (((dat8 (V13 m ρ) c).arrAt_in 0 rfl _).trans (A_eq8 (V13 m ρ) c 0))
  by_cases h1 : r = main_v13
  · subst h1; exact (W14_arr m ρ c 1).trans (((dat8 (V13 m ρ) c).arrAt_in 1 rfl _).trans (A_eq8 (V13 m ρ) c 1))
  by_cases h2 : r = main_arg11
  · subst h2; exact (W14_arr m ρ c 2).trans (((dat8 (V13 m ρ) c).arrAt_in 2 rfl _).trans (A_eq8 (V13 m ρ) c 2))
  exact W14_of_ne m ρ c r fun
    | ⟨0, _⟩ => Ne.symm h0 | ⟨1, _⟩ => Ne.symm h1 | ⟨2, _⟩ => Ne.symm h2 | ⟨3, _⟩ => Ne.symm hr
    | ⟨_ + 4, h⟩ => absurd h (Nat.not_lt.2 (Nat.le_add_left _ _))

/-- Host stretch 9 leaves alone every reference it does not write. -/
theorem kept_host9 (c : Dev nD) (r : Ref sig .tc) (hr : r ∉ written9) :
    W15 m ρ c (Proc.devRef .tc r) = W14 m ρ c (Proc.devRef .tc r) :=
  StableHlo.after_of_writes_sub hostOps9 (W14 m ρ c) writes_sub9 hr

/-- Launch 9 leaves alone every buffer but its result array. -/
theorem kept_launch9 (c : Dev nD) (r : Ref sig .tc) (hr : r ≠ main_v79) :
    W16 m ρ c (Proc.devRef .tc r) = W15 m ρ c (Proc.devRef .tc r) := by
  by_cases h0 : r = main_v77
  · subst h0; exact (W16_arr m ρ c 0).trans (((dat9 (V15 m ρ) c).arrAt_in 0 rfl _).trans (A_eq9 (V15 m ρ) c 0))
  by_cases h1 : r = main_v14
  · subst h1; exact (W16_arr m ρ c 1).trans (((dat9 (V15 m ρ) c).arrAt_in 1 rfl _).trans (A_eq9 (V15 m ρ) c 1))
  by_cases h2 : r = main_v78
  · subst h2; exact (W16_arr m ρ c 2).trans (((dat9 (V15 m ρ) c).arrAt_in 2 rfl _).trans (A_eq9 (V15 m ρ) c 2))
  exact W16_of_ne m ρ c r fun
    | ⟨0, _⟩ => Ne.symm h0 | ⟨1, _⟩ => Ne.symm h1 | ⟨2, _⟩ => Ne.symm h2 | ⟨3, _⟩ => Ne.symm hr
    | ⟨_ + 4, h⟩ => absurd h (Nat.not_lt.2 (Nat.le_add_left _ _))

/-- Every reference written after the first launch's entry: the later host stretches' results and the ten launches'
    result arrays. -/
def late : List (Ref sig .tc) := [main_c, main_v16, main_v17, main_c_4, main_v18, main_v19, main_v20, main_v21, main_v22, main_cst_5, main_v23, main_v24, main_v25, main_v26, main_c_6, main_v29, main_v30, main_c_7, main_v31, main_v32, main_v33, main_v34, main_v35, main_cst_8, main_v36, main_v37, main_v38, main_v39, main_c_9, main_v42, main_v43, main_c_10, main_v44, main_v45, main_v46, main_v47, main_v48, main_cst_11, main_v49, main_v50, main_v51, main_v52, main_c_12, main_v55, main_v56, main_c_13, main_v57, main_v58, main_v59, main_v60, main_v61, main_cst_14, main_v62, main_v63, main_v64, main_v65, main_c_15, main_v68, main_v69, main_c_16, main_v70, main_v71, main_v72, main_v73, main_v74, main_cst_17, main_v75, main_v76, main_v77, main_v78, main_v15, main_v27, main_v28, main_v40, main_v41, main_v53, main_v54, main_v66, main_v67, main_v79]

theorem written1_late : ∀ x ∈ written1, x ∈ late := by decide
theorem written3_late : ∀ x ∈ written3, x ∈ late := by decide
theorem written5_late : ∀ x ∈ written5, x ∈ late := by decide
theorem written7_late : ∀ x ∈ written7, x ∈ late := by decide
theorem written9_late : ∀ x ∈ written9, x ∈ late := by decide

/-- A reference never written after the first launch's entry holds at boundary 2 what it held there. -/
theorem stable2 (c : Dev nD) (r : Ref sig .tc) (hr : r ∉ late) :
    W2 m ρ c (Proc.devRef .tc r) = W1 m ρ c (Proc.devRef .tc r) :=
  kept_launch0 m ρ c r (fun e => hr (by rw [e]; decide))

/-- A reference never written after the first launch's entry holds at boundary 3 what it held there. -/
theorem stable3 (c : Dev nD) (r : Ref sig .tc) (hr : r ∉ late) :
    W3 m ρ c (Proc.devRef .tc r) = W1 m ρ c (Proc.devRef .tc r) :=
  (kept_host1 m ρ c r (fun h => hr (written1_late r h))).trans (stable2 m ρ c r hr)

/-- A reference never written after the first launch's entry holds at boundary 4 what it held there. -/
theorem stable4 (c : Dev nD) (r : Ref sig .tc) (hr : r ∉ late) :
    W4 m ρ c (Proc.devRef .tc r) = W1 m ρ c (Proc.devRef .tc r) :=
  (kept_launch1 m ρ c r (fun e => hr (by rw [e]; decide))).trans (stable3 m ρ c r hr)

/-- A reference never written after the first launch's entry holds at boundary 5 what it held there. -/
theorem stable5 (c : Dev nD) (r : Ref sig .tc) (hr : r ∉ late) :
    W5 m ρ c (Proc.devRef .tc r) = W1 m ρ c (Proc.devRef .tc r) :=
  (kept_launch2 m ρ c r (fun e => hr (by rw [e]; decide))).trans (stable4 m ρ c r hr)

/-- A reference never written after the first launch's entry holds at boundary 6 what it held there. -/
theorem stable6 (c : Dev nD) (r : Ref sig .tc) (hr : r ∉ late) :
    W6 m ρ c (Proc.devRef .tc r) = W1 m ρ c (Proc.devRef .tc r) :=
  (kept_host3 m ρ c r (fun h => hr (written3_late r h))).trans (stable5 m ρ c r hr)

/-- A reference never written after the first launch's entry holds at boundary 7 what it held there. -/
theorem stable7 (c : Dev nD) (r : Ref sig .tc) (hr : r ∉ late) :
    W7 m ρ c (Proc.devRef .tc r) = W1 m ρ c (Proc.devRef .tc r) :=
  (kept_launch3 m ρ c r (fun e => hr (by rw [e]; decide))).trans (stable6 m ρ c r hr)

/-- A reference never written after the first launch's entry holds at boundary 8 what it held there. -/
theorem stable8 (c : Dev nD) (r : Ref sig .tc) (hr : r ∉ late) :
    W8 m ρ c (Proc.devRef .tc r) = W1 m ρ c (Proc.devRef .tc r) :=
  (kept_launch4 m ρ c r (fun e => hr (by rw [e]; decide))).trans (stable7 m ρ c r hr)

/-- A reference never written after the first launch's entry holds at boundary 9 what it held there. -/
theorem stable9 (c : Dev nD) (r : Ref sig .tc) (hr : r ∉ late) :
    W9 m ρ c (Proc.devRef .tc r) = W1 m ρ c (Proc.devRef .tc r) :=
  (kept_host5 m ρ c r (fun h => hr (written5_late r h))).trans (stable8 m ρ c r hr)

/-- A reference never written after the first launch's entry holds at boundary 10 what it held there. -/
theorem stable10 (c : Dev nD) (r : Ref sig .tc) (hr : r ∉ late) :
    W10 m ρ c (Proc.devRef .tc r) = W1 m ρ c (Proc.devRef .tc r) :=
  (kept_launch5 m ρ c r (fun e => hr (by rw [e]; decide))).trans (stable9 m ρ c r hr)

/-- A reference never written after the first launch's entry holds at boundary 11 what it held there. -/
theorem stable11 (c : Dev nD) (r : Ref sig .tc) (hr : r ∉ late) :
    W11 m ρ c (Proc.devRef .tc r) = W1 m ρ c (Proc.devRef .tc r) :=
  (kept_launch6 m ρ c r (fun e => hr (by rw [e]; decide))).trans (stable10 m ρ c r hr)

/-- A reference never written after the first launch's entry holds at boundary 12 what it held there. -/
theorem stable12 (c : Dev nD) (r : Ref sig .tc) (hr : r ∉ late) :
    W12 m ρ c (Proc.devRef .tc r) = W1 m ρ c (Proc.devRef .tc r) :=
  (kept_host7 m ρ c r (fun h => hr (written7_late r h))).trans (stable11 m ρ c r hr)

/-- A reference never written after the first launch's entry holds at boundary 13 what it held there. -/
theorem stable13 (c : Dev nD) (r : Ref sig .tc) (hr : r ∉ late) :
    W13 m ρ c (Proc.devRef .tc r) = W1 m ρ c (Proc.devRef .tc r) :=
  (kept_launch7 m ρ c r (fun e => hr (by rw [e]; decide))).trans (stable12 m ρ c r hr)

/-- A reference never written after the first launch's entry holds at boundary 14 what it held there. -/
theorem stable14 (c : Dev nD) (r : Ref sig .tc) (hr : r ∉ late) :
    W14 m ρ c (Proc.devRef .tc r) = W1 m ρ c (Proc.devRef .tc r) :=
  (kept_launch8 m ρ c r (fun e => hr (by rw [e]; decide))).trans (stable13 m ρ c r hr)

/-- A reference never written after the first launch's entry holds at boundary 15 what it held there. -/
theorem stable15 (c : Dev nD) (r : Ref sig .tc) (hr : r ∉ late) :
    W15 m ρ c (Proc.devRef .tc r) = W1 m ρ c (Proc.devRef .tc r) :=
  (kept_host9 m ρ c r (fun h => hr (written9_late r h))).trans (stable14 m ρ c r hr)

/-- A reference never written after the first launch's entry holds at boundary 16 what it held there. -/
theorem stable16 (c : Dev nD) (r : Ref sig .tc) (hr : r ∉ late) :
    W16 m ρ c (Proc.devRef .tc r) = W1 m ρ c (Proc.devRef .tc r) :=
  (kept_launch9 m ρ c r (fun e => hr (by rw [e]; decide))).trans (stable15 m ρ c r hr)

end Cert.KernelIdeal.Kept

end
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.LibLayer.lean ====
/-
  One graph-convolution layer, as two whole-array functions over the extended reals.

  With x an N×K array of node features, s an N×1 column of per-node scales, w a K×M weight matrix and b a 1×M
  row of biases:
    scaledDot x s w  at (p, q)  is  Σ_k (x(p,k) · s(p)) · w(k,q)      -- each node's features scaled, then projected
    affine a s b     at (p, q)  is  a(p,q) · s(p) + b(q)              -- the aggregated features rescaled and shifted
    affineLeaky      applies the leaky ramp  v ↦ v if v ≥ 0 else c·v  to the latter (c the slope's stored value).
  Both depend on row p of their first operand only, so a block of rows of the result is the same function of the
  matching block of rows of x (or a) and of s, and of the whole of w (or b): this is what lets a computation done
  block of rows by block of rows be compared with one done on the whole arrays.

  Also here: the two bodies that compute a block — a product of the scaled block with the weights into a zero
  accumulator (the narrowing of the operands is the identity on exact values), and the pointwise epilogue — are these
  functions at the block's extents.
-/
import Idealize.ShloMosaic.Lib.ValueIdx
import Idealize.ShloMosaic.Lib.Pipeline.Value
import Idealize.ShloMosaic.PureOps.Ideal.Laws
import proofs.«118214_j76390288327751_1_alg».proof.Proof.LibRowDot

noncomputable section

open scoped BigOperators

namespace Cert.Layer

open Idealize.ShloMosaic Idealize.ShloMosaic.ValueIdx Cert.RowDot

/-- A vector of N entries as an N×1 column. -/
def col {α : Type} {N : Nat} (v : (⟨1, ![N]⟩ : Shape).Idx → α) : (⟨2, ![N, 1]⟩ : Shape).Idx → α := fun i => v (ix1 (i 0))

/-- A vector of M entries as a 1×M row. -/
def row {α : Type} {M : Nat} (v : (⟨1, ![M]⟩ : Shape).Idx → α) : (⟨2, ![1, M]⟩ : Shape).Idx → α := fun i => v (ix1 (i 1))

/-- Entry (p, q):  Σ_k (x(p,k) · s(p)) · w(k,q). -/
def scaledDot {N K M : Nat} (x : (⟨2, ![N, K]⟩ : Shape).Idx → EReal) (s : (⟨2, ![N, 1]⟩ : Shape).Idx → EReal)
    (w : (⟨2, ![K, M]⟩ : Shape).Idx → EReal) : (⟨2, ![N, M]⟩ : Shape).Idx → EReal :=
  fun j => rowDot (fun k => x (ix2 (j 0) k) * s (ix2 (j 0) 0)) w (j 1)

/-- Entry (p, q):  a(p,q) · s(p) + b(q). -/
def affine {N M : Nat} (a : (⟨2, ![N, M]⟩ : Shape).Idx → EReal) (s : (⟨2, ![N, 1]⟩ : Shape).Idx → EReal)
    (b : (⟨2, ![1, M]⟩ : Shape).Idx → EReal) : (⟨2, ![N, M]⟩ : Shape).Idx → EReal :=
  fun j => a j * s (ix2 (j 0) 0) + b (ix2 0 (j 1))

/-- The leaky ramp on one value: v where v ≥ 0, the stored slope times v elsewhere. -/
def leaky (v : EReal) : EReal :=
  Scalar.select (FloatOps.cmpf (F := Ideal) .oge v (Ideal.ofBits .f32 0x00000000#32)) v (Ideal.ofBits .f32 0x3C23D70A#32 * v)

/-- The affine map followed by the leaky ramp. -/
def affineLeaky {N M : Nat} (a : (⟨2, ![N, M]⟩ : Shape).Idx → EReal) (s : (⟨2, ![N, 1]⟩ : Shape).Idx → EReal)
    (b : (⟨2, ![1, M]⟩ : Shape).Idx → EReal) : (⟨2, ![N, M]⟩ : Shape).Idx → EReal :=
  fun j => leaky (affine a s b j)

/-- A T×1 column spread over T×K columns, read at (p, k): the column's entry p. -/
theorem spreadCol_apply {α : Type} {T K : Nat} (x1 : (⟨2, ![T, 1]⟩ : Shape).Idx → α)
    (hc : (⟨2, ![T, 1]⟩ : Shape).ShapeCasts ⟨2, ![T, 1]⟩) (hb : (⟨2, ![T, 1]⟩ : Shape).Broadcasts ⟨2, ![T, K]⟩)
    (p : Fin T) (k : Fin K) :
    broadcastTo (⟨2, ![T, K]⟩ : Shape) (shapeCast (⟨2, ![T, 1]⟩ : Shape) x1 hc) hb (ix2 p k) = x1 (ix2 p 0) := by
  rw [shapeCast_self]
  refine broadcastTo_apply x1 hb (ix2 p k) (ix2 p 0) fun a => ?_
  match a with
  | ⟨0, _⟩ =>
    show p.val = if T = 1 then 0 else p.val
    split_ifs with h
    · have := p.isLt; omega
    · rfl
  | ⟨1, _⟩ =>
    show 0 = if (1 : Nat) = 1 then 0 else k.val
    rw [if_pos rfl]

/-- A 1×M row spread over T×M rows, read at (p, q): the row's entry q. -/
theorem spreadRow_apply {α : Type} {T M : Nat} (x4 : (⟨2, ![1, M]⟩ : Shape).Idx → α)
    (hc : (⟨2, ![1, M]⟩ : Shape).ShapeCasts ⟨2, ![1, M]⟩) (hb : (⟨2, ![1, M]⟩ : Shape).Broadcasts ⟨2, ![T, M]⟩)
    (p : Fin T) (q : Fin M) :
    broadcastTo (⟨2, ![T, M]⟩ : Shape) (shapeCast (⟨2, ![1, M]⟩ : Shape) x4 hc) hb (ix2 p q) = x4 (ix2 0 q) := by
  rw [shapeCast_self]
  refine broadcastTo_apply x4 hb (ix2 p q) (ix2 0 q) fun a => ?_
  match a with
  | ⟨0, _⟩ =>
    show 0 = if (1 : Nat) = 1 then 0 else p.val
    rw [if_pos rfl]
  | ⟨1, _⟩ =>
    show q.val = if M = 1 then 0 else q.val
    split_ifs with h
    · have := q.isLt; omega
    · rfl

/-- The product body on a block: the block of x scaled by the block of s, both operands narrowed, times w into a zero
    accumulator, is scaledDot at the block's extents. -/
theorem scaledDot_body {T K M : Nat} (x0 : FVec Ideal (⟨2, ![T, K]⟩ : Shape) .f32) (x1 : FVec Ideal (⟨2, ![T, 1]⟩ : Shape) .f32)
    (x6 : FVec Ideal (⟨2, ![K, M]⟩ : Shape) .f32)
    (hc : (⟨2, ![T, 1]⟩ : Shape).ShapeCasts ⟨2, ![T, 1]⟩) (hb : (⟨2, ![T, 1]⟩ : Shape).Broadcasts ⟨2, ![T, K]⟩)
    (h1 : FTy.bf16.bits < FTy.f32.bits) :
    matmul (DotDims.plain T K M) none
        (truncf .bf16 (mulf x0 (broadcastTo (⟨2, ![T, K]⟩ : Shape) (shapeCast (⟨2, ![T, 1]⟩ : Shape) x1 hc) hb)) h1)
        (truncf .bf16 x6 h1) (constant (F := Ideal) (⟨2, ![T, M]⟩ : Shape) .f32 0x00000000#32)
      = scaledDot x0 x1 x6 := by
  funext j
  refine (matmul_plain_zero_apply none _ _ j).trans ?_
  unfold scaledDot rowDot rowOf
  refine Finset.sum_congr rfl fun k _ => ?_
  refine congrArg₂ (fun a b : EReal => a * b) ?_ rfl
  show x0 (ix2 (j 0) k) * _ = _
  exact congrArg (fun a : EReal => x0 (ix2 (j 0) k) * a) (spreadCol_apply x1 hc hb (j 0) k)

/-- The same body with the block of x first passed through a shape cast to its own shape (the identity). -/
theorem scaledDot_body_cast {T K M : Nat} (x0 : FVec Ideal (⟨2, ![T, K]⟩ : Shape) .f32) (x1 : FVec Ideal (⟨2, ![T, 1]⟩ : Shape) .f32)
    (x6 : FVec Ideal (⟨2, ![K, M]⟩ : Shape) .f32)
    (h0 : (⟨2, ![T, K]⟩ : Shape).ShapeCasts ⟨2, ![T, K]⟩)
    (hc : (⟨2, ![T, 1]⟩ : Shape).ShapeCasts ⟨2, ![T, 1]⟩) (hb : (⟨2, ![T, 1]⟩ : Shape).Broadcasts ⟨2, ![T, K]⟩)
    (h1 : FTy.bf16.bits < FTy.f32.bits) :
    matmul (DotDims.plain T K M) none
        (truncf .bf16 (mulf (shapeCast (⟨2, ![T, K]⟩ : Shape) x0 h0)
          (broadcastTo (⟨2, ![T, K]⟩ : Shape) (shapeCast (⟨2, ![T, 1]⟩ : Shape) x1 hc) hb)) h1)
        (truncf .bf16 x6 h1) (constant (F := Ideal) (⟨2, ![T, M]⟩ : Shape) .f32 0x00000000#32)
      = scaledDot x0 x1 x6 := by
  rw [shapeCast_self x0 h0]
  exact scaledDot_body x0 x1 x6 hc hb h1

/-- The affine part of the epilogue body on a block is affine at the block's extents. -/
theorem affine_body {T M : Nat} (x0 : FVec Ideal (⟨2, ![T, M]⟩ : Shape) .f32) (x2 : FVec Ideal (⟨2, ![T, 1]⟩ : Shape) .f32)
    (x4 : FVec Ideal (⟨2, ![1, M]⟩ : Shape) .f32)
    (h0 : (⟨2, ![T, M]⟩ : Shape).ShapeCasts ⟨2, ![T, M]⟩)
    (hc : (⟨2, ![T, 1]⟩ : Shape).ShapeCasts ⟨2, ![T, 1]⟩) (hb : (⟨2, ![T, 1]⟩ : Shape).Broadcasts ⟨2, ![T, M]⟩)
    (hc' : (⟨2, ![1, M]⟩ : Shape).ShapeCasts ⟨2, ![1, M]⟩) (hb' : (⟨2, ![1, M]⟩ : Shape).Broadcasts ⟨2, ![T, M]⟩) :
    addf (mulf (shapeCast (⟨2, ![T, M]⟩ : Shape) x0 h0) (broadcastTo (⟨2, ![T, M]⟩ : Shape) (shapeCast (⟨2, ![T, 1]⟩ : Shape) x2 hc) hb))
        (broadcastTo (⟨2, ![T, M]⟩ : Shape) (shapeCast (⟨2, ![1, M]⟩ : Shape) x4 hc') hb')
      = affine x0 x2 x4 := by
  funext j
  rw [shapeCast_self]
  obtain ⟨p, q, rfl⟩ : ∃ (p : Fin T) (q : Fin M), j = ix2 p q := ⟨j 0, j 1, eq_ix2 j⟩
  show x0 (ix2 p q) * _ + _ = x0 (ix2 p q) * x2 (ix2 p 0) + x4 (ix2 0 q)
  rw [spreadCol_apply x2 hc hb p q, spreadRow_apply x4 hc' hb' p q]

/-! ### The same functions as the host spells them -/

/-- A vector reshaped to a column is its column. -/
theorem reshape_col {α : Type} {N : Nat} (v : (⟨1, ![N]⟩ : Shape).Idx → α) (h : (⟨1, ![N]⟩ : Shape).ShapeCasts ⟨2, ![N, 1]⟩) :
    shapeCast (⟨2, ![N, 1]⟩ : Shape) v h = col v := by
  funext i
  refine shapeCast_apply v h i (ix1 (i 0)) ?_
  rw [Shape.rowMajor_val_one, Shape.rowMajor_val_two]
  show (i 0).val = (i 0).val * 1 + (i 1).val
  have h1 : (i 1).val < 1 := (i 1).isLt
  omega

/-- A vector reshaped to a row is its row. -/
theorem reshape_row {α : Type} {M : Nat} (v : (⟨1, ![M]⟩ : Shape).Idx → α) (h : (⟨1, ![M]⟩ : Shape).ShapeCasts ⟨2, ![1, M]⟩) :
    shapeCast (⟨2, ![1, M]⟩ : Shape) v h = row v := by
  funext i
  refine shapeCast_apply v h i (ix1 (i 1)) ?_
  rw [Shape.rowMajor_val_one, Shape.rowMajor_val_two]
  show (i 1).val = (i 0).val * M + (i 1).val
  have h0 : (i 0).val < 1 := (i 0).isLt
  have : (i 0).val = 0 := by omega
  rw [this]; omega

/-- A vector broadcast along a new trailing unit axis is its column. -/
theorem bcast_col {α : Type} {N : Nat} (v : (⟨1, ![N]⟩ : Shape).Idx → α)
    (h : (⟨1, ![N]⟩ : Shape).BroadcastsInDim (⟨2, ![N, 1]⟩ : Shape) ![0]) :
    broadcastInDim (⟨2, ![N, 1]⟩ : Shape) ![0] h v = col v := by
  funext i
  refine broadcastInDim_apply _ h v i (ix1 (i 0)) fun a => ?_
  match a with
  | ⟨0, _⟩ =>
    show (i 0).val = if N = 1 then 0 else (i 0).val
    have hlt : (i 0).val < N := (i 0).isLt
    split_ifs with hN
    · omega
    · rfl

/-- A vector broadcast along a new leading unit axis is its row. -/
theorem bcast_row {α : Type} {M : Nat} (v : (⟨1, ![M]⟩ : Shape).Idx → α)
    (h : (⟨1, ![M]⟩ : Shape).BroadcastsInDim (⟨2, ![1, M]⟩ : Shape) ![1]) :
    broadcastInDim (⟨2, ![1, M]⟩ : Shape) ![1] h v = row v := by
  funext i
  refine broadcastInDim_apply _ h v i (ix1 (i 1)) fun a => ?_
  match a with
  | ⟨0, _⟩ =>
    show (i 1).val = if M = 1 then 0 else (i 1).val
    have hlt : (i 1).val < M := (i 1).isLt
    split_ifs with hM
    · omega
    · rfl

/-- An N×1 column broadcast over N×K, read at (p, k): the column's entry p. -/
theorem bcastCols_apply {α : Type} {N K : Nat} (s : (⟨2, ![N, 1]⟩ : Shape).Idx → α)
    (h : (⟨2, ![N, 1]⟩ : Shape).BroadcastsInDim (⟨2, ![N, K]⟩ : Shape) ![0, 1]) (p : Fin N) (k : Fin K) :
    broadcastInDim (⟨2, ![N, K]⟩ : Shape) ![0, 1] h s (ix2 p k) = s (ix2 p 0) := by
  refine broadcastInDim_apply _ h s (ix2 p k) (ix2 p 0) fun a => ?_
  match a with
  | ⟨0, _⟩ =>
    show p.val = if N = 1 then 0 else p.val
    split_ifs with hN
    · have := p.isLt; omega
    · rfl
  | ⟨1, _⟩ =>
    show 0 = if (1 : Nat) = 1 then 0 else k.val
    rw [if_pos rfl]

/-- A 1×M row broadcast over N×M, read at (p, q): the row's entry q. -/
theorem bcastRows_apply {α : Type} {N M : Nat} (b : (⟨2, ![1, M]⟩ : Shape).Idx → α)
    (h : (⟨2, ![1, M]⟩ : Shape).BroadcastsInDim (⟨2, ![N, M]⟩ : Shape) ![0, 1]) (p : Fin N) (q : Fin M) :
    broadcastInDim (⟨2, ![N, M]⟩ : Shape) ![0, 1] h b (ix2 p q) = b (ix2 0 q) := by
  refine broadcastInDim_apply _ h b (ix2 p q) (ix2 0 q) fun a => ?_
  match a with
  | ⟨0, _⟩ =>
    show 0 = if (1 : Nat) = 1 then 0 else p.val
    rw [if_pos rfl]
  | ⟨1, _⟩ =>
    show q.val = if M = 1 then 0 else q.val
    split_ifs with hM
    · have := q.isLt; omega
    · rfl

/-- The host's product of the features scaled by a broadcast column with the weights is scaledDot. -/
theorem scaledDot_host {N K M : Nat} (x : FVec Ideal (⟨2, ![N, K]⟩ : Shape) .f32) (s : FVec Ideal (⟨2, ![N, 1]⟩ : Shape) .f32)
    (w : FVec Ideal (⟨2, ![K, M]⟩ : Shape) .f32)
    (h : (⟨2, ![N, 1]⟩ : Shape).BroadcastsInDim (⟨2, ![N, K]⟩ : Shape) ![0, 1]) :
    Host.dotGeneral (DotDims.plain N K M) none (mulf x (broadcastInDim (⟨2, ![N, K]⟩ : Shape) ![0, 1] h s)) w
      = scaledDot x s w := by
  funext j
  refine (dotGeneral_plain_apply none .single _ _ j).trans ?_
  unfold scaledDot rowDot rowOf
  refine Finset.sum_congr rfl fun k _ => ?_
  refine congrArg₂ (fun a b : EReal => a * b) ?_ rfl
  show x (ix2 (j 0) k) * _ = _
  exact congrArg (fun a : EReal => x (ix2 (j 0) k) * a) (bcastCols_apply s h (j 0) k)

/-- The host's rescale-and-shift with a broadcast column and a broadcast row is affine. -/
theorem affine_host {N M : Nat} (a : FVec Ideal (⟨2, ![N, M]⟩ : Shape) .f32) (s : FVec Ideal (⟨2, ![N, 1]⟩ : Shape) .f32)
    (b : FVec Ideal (⟨2, ![1, M]⟩ : Shape) .f32)
    (h : (⟨2, ![N, 1]⟩ : Shape).BroadcastsInDim (⟨2, ![N, M]⟩ : Shape) ![0, 1])
    (h' : (⟨2, ![1, M]⟩ : Shape).BroadcastsInDim (⟨2, ![N, M]⟩ : Shape) ![0, 1]) :
    addf (mulf a (broadcastInDim (⟨2, ![N, M]⟩ : Shape) ![0, 1] h s)) (broadcastInDim (⟨2, ![N, M]⟩ : Shape) ![0, 1] h' b)
      = affine a s b := by
  funext j
  obtain ⟨p, q, rfl⟩ : ∃ (p : Fin N) (q : Fin M), j = ix2 p q := ⟨j 0, j 1, eq_ix2 j⟩
  show a (ix2 p q) * _ + _ = a (ix2 p q) * s (ix2 p 0) + b (ix2 0 q)
  rw [bcastCols_apply s h p q, bcastRows_apply b h' p q]

/-- The leaky ramp as the host spells it — compare with a broadcast zero, select between the value and the broadcast
    slope times the value — is leaky, entry by entry. -/
theorem leaky_host {S : Shape} (v : FVec Ideal S .f32)
    (h : (⟨0, ![]⟩ : Shape).BroadcastsInDim S ![]) :
    select (cmpf .oge v (broadcastInDim S ![] h (constant (F := Ideal) (⟨0, ![]⟩ : Shape) .f32 0x00000000#32))) v
        (mulf (broadcastInDim S ![] h (constant (F := Ideal) (⟨0, ![]⟩ : Shape) .f32 0x3C23D70A#32)) v)
      = fun j => leaky (v j) := rfl

/-- scaledDot at an entry of a block equals scaledDot of the whole arrays at the matching entry, when the block's row
    of x and entry of s are the whole arrays' at that row and the block's column of w is the whole w's at that column. -/
theorem scaledDot_rows {N K M T M' : Nat} (X : (⟨2, ![N, K]⟩ : Shape).Idx → EReal) (S : (⟨2, ![N, 1]⟩ : Shape).Idx → EReal)
    (W : (⟨2, ![K, M]⟩ : Shape).Idx → EReal) (xb : (⟨2, ![T, K]⟩ : Shape).Idx → EReal) (sb : (⟨2, ![T, 1]⟩ : Shape).Idx → EReal)
    (wb : (⟨2, ![K, M']⟩ : Shape).Idx → EReal) (y : (⟨2, ![T, M']⟩ : Shape).Idx) (i : (⟨2, ![N, M]⟩ : Shape).Idx)
    (hx : ∀ k : Fin K, xb (ix2 (y 0) k) = X (ix2 (i 0) k)) (hs : sb (ix2 (y 0) 0) = S (ix2 (i 0) 0))
    (hw : ∀ k : Fin K, wb (ix2 k (y 1)) = W (ix2 k (i 1))) :
    scaledDot xb sb wb y = scaledDot X S W i := by
  unfold scaledDot rowDot
  refine Finset.sum_congr rfl fun k _ => ?_
  exact congrArg₂ (fun a b : EReal => a * b) (congrArg₂ (fun a b : EReal => a * b) (hx k) hs) (hw k)

/-- The same for the affine map: an entry of a block is the whole arrays' at the matching entry. -/
theorem affine_rows {N M T M' : Nat} (A : (⟨2, ![N, M]⟩ : Shape).Idx → EReal) (S : (⟨2, ![N, 1]⟩ : Shape).Idx → EReal)
    (B : (⟨2, ![1, M]⟩ : Shape).Idx → EReal) (ab : (⟨2, ![T, M']⟩ : Shape).Idx → EReal) (sb : (⟨2, ![T, 1]⟩ : Shape).Idx → EReal)
    (bb : (⟨2, ![1, M']⟩ : Shape).Idx → EReal) (y : (⟨2, ![T, M']⟩ : Shape).Idx) (i : (⟨2, ![N, M]⟩ : Shape).Idx)
    (ha : ab y = A i) (hs : sb (ix2 (y 0) 0) = S (ix2 (i 0) 0)) (hb : bb (ix2 0 (y 1)) = B (ix2 0 (i 1))) :
    affine ab sb bb y = affine A S B i := by
  unfold affine
  rw [ha, hs, hb]

/-- The leaky ramp as the body spells it — compare with a spread zero, select between the value and the spread slope
    times the value — is leaky, entry by entry. -/
theorem leaky_body {S : Shape} (v : FVec Ideal S .f32) :
    select (cmpf .oge v (broadcast S (Scalar.ofBits (F := Ideal) .f32 0x00000000#32))) v
        (mulf (broadcast S (Scalar.ofBits (F := Ideal) .f32 0x3C23D70A#32)) v)
      = fun j => leaky (v j) := rfl

end Cert.Layer

end
-- ==== Proof.Network.lean ====
/-
  The five-layer graph network as one function of the thirteen arguments, over the extended reals.

  With e₁, e₂ the edges' source and destination words (1600000 each) and 100000 nodes:
    invSqrtDeg e   at node n   is  1/√max(d(n), 1),  d(n) the number of edges whose word e is n   (a scatter-add of ones);
    aggregate h    at node n   is  the sum of the rows h[src(j)] over the edges j with destination n   — src(j) is e₁(j),
                               with 100000 added where the word is negative; the host's gather, then its scatter-add
                               into zeros, whatever those do with words out of range;
    a layer        x ↦ leaky( aggregate( (x · col dout) @ W ) · col din + row b ),   the last layer without the ramp.
  The host operations are kept as the program spells them: both programs apply the same ones to the same operands, so
  nothing about a gather or a scatter-add has to be known beyond that it is a function.
-/
import proofs.«118214_j76390288327751_1_alg».proof.Proof.Gen.KernelIdeal
import proofs.«118214_j76390288327751_1_alg».proof.Proof.LibLayer

noncomputable section

namespace Cert.KernelIdeal.Network

open Cert.KernelIdeal Cert.KernelIdeal.Gen Cert.Layer
open Idealize.ShloMosaic Idealize.ShloMosaic.TcCoe

/-- 1/√max(d, 1) of the count d of edges per node, for the edge words e. -/
def invSqrtDeg (e : (⟨S1600000, .i32⟩ : BufTy).Contents (Elt Ideal)) : (⟨S100000, .f32⟩ : BufTy).Contents (Elt Ideal) :=
  Host.rsqrt (F := Ideal) (maximumf (F := Ideal)
    (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 e)
      (broadcastInDim S1600000 ![] bcast_S_S1600000 (constant (F := Ideal) S_ .f32 0x3F800000#32)))
    (broadcastInDim S100000 ![] bcast_S_S100000 (constant (F := Ideal) S_ .f32 0x3F800000#32)))

/-- The gather's start column: the source word, plus 100000 where it is negative. -/
def srcCol (e1 : (⟨S1600000, .i32⟩ : BufTy).Contents (Elt Ideal)) : (⟨S1600000x1, .i32⟩ : BufTy).Contents (Elt Ideal) :=
  broadcastInDim S1600000x1 ![0] bcast_S1600000_S1600000x1_0
    (select (cmpi .slt e1 (broadcastInDim S1600000 ![] bcast_S_S1600000 (constantI S_ 32 0#32)))
      (addi e1 (broadcastInDim S1600000 ![] bcast_S_S1600000 (constantI S_ 32 100000#32))) e1)

/-- The scatter's start column: the destination word. -/
def dstCol (e2 : (⟨S1600000, .i32⟩ : BufTy).Contents (Elt Ideal)) : (⟨S1600000x1, .i32⟩ : BufTy).Contents (Elt Ideal) :=
  broadcastInDim S1600000x1 ![0] bcast_S1600000_S1600000x1_0 e2

/-- Rows of a 128-wide table gathered along the edges' sources and summed into the edges' destinations. -/
def aggregate128 (e1 e2 : (⟨S1600000, .i32⟩ : BufTy).Contents (Elt Ideal)) (h : (⟨S100000x128, .f32⟩ : BufTy).Contents (Elt Ideal)) : (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (dstCol e2)
    (Host.gather gather_S100000x128_S1600000x1_S1600000x128_1_0_n_n_0_1_1128 h (srcCol e1))

/-- The same for a 3-wide table. -/
def aggregate3 (e1 e2 : (⟨S1600000, .i32⟩ : BufTy).Contents (Elt Ideal)) (h : (⟨S100000x3, .f32⟩ : BufTy).Contents (Elt Ideal)) : (⟨S100000x3, .f32⟩ : BufTy).Contents (Elt Ideal) :=
  Host.scatterAdd (F := Ideal) scatter_S100000x3_S1600000x1_S1600000x3_1_0_0_1
    (broadcastInDim S100000x3 ![] bcast_S_S100000x3 (constant (F := Ideal) S_ .f32 0x00000000#32))
    (dstCol e2)
    (Host.gather gather_S100000x3_S1600000x1_S1600000x3_1_0_n_n_0_1_13 h (srcCol e1))

/-- A middle layer on 128-wide features: project, aggregate, rescale, shift, ramp. -/
def layer128 (e1 e2 : (⟨S1600000, .i32⟩ : BufTy).Contents (Elt Ideal)) (x : (⟨S100000x128, .f32⟩ : BufTy).Contents (Elt Ideal)) (w : (⟨S128x128, .f32⟩ : BufTy).Contents (Elt Ideal)) (b : (⟨S128, .f32⟩ : BufTy).Contents (Elt Ideal)) :
    (⟨S100000x128, .f32⟩ : BufTy).Contents (Elt Ideal) :=
  affineLeaky (aggregate128 e1 e2 (scaledDot x (col (invSqrtDeg e1)) w)) (col (invSqrtDeg e2)) (row b)

/-- The network: 4 → 128 → 128 → 128 → 128 → 3. -/
def network (x0 : (⟨S100000x4, .f32⟩ : BufTy).Contents (Elt Ideal)) (e1 e2 : (⟨S1600000, .i32⟩ : BufTy).Contents (Elt Ideal))
    (w1 : (⟨S4x128, .f32⟩ : BufTy).Contents (Elt Ideal)) (b1 : (⟨S128, .f32⟩ : BufTy).Contents (Elt Ideal)) (w2 : (⟨S128x128, .f32⟩ : BufTy).Contents (Elt Ideal)) (b2 : (⟨S128, .f32⟩ : BufTy).Contents (Elt Ideal))
    (w3 : (⟨S128x128, .f32⟩ : BufTy).Contents (Elt Ideal)) (b3 : (⟨S128, .f32⟩ : BufTy).Contents (Elt Ideal)) (w4 : (⟨S128x128, .f32⟩ : BufTy).Contents (Elt Ideal)) (b4 : (⟨S128, .f32⟩ : BufTy).Contents (Elt Ideal))
    (w5 : (⟨S128x3, .f32⟩ : BufTy).Contents (Elt Ideal)) (b5 : (⟨S3, .f32⟩ : BufTy).Contents (Elt Ideal)) : (⟨S100000x3, .f32⟩ : BufTy).Contents (Elt Ideal) :=
  let x1 : (⟨S100000x128, .f32⟩ : BufTy).Contents (Elt Ideal) :=
    affineLeaky (aggregate128 e1 e2 (scaledDot x0 (col (invSqrtDeg e1)) w1)) (col (invSqrtDeg e2)) (row b1)
  let x4 := layer128 e1 e2 (layer128 e1 e2 (layer128 e1 e2 x1 w2 b2) w3 b3) w4 b4
  affine (aggregate3 e1 e2 (scaledDot x4 (col (invSqrtDeg e1)) w5)) (col (invSqrtDeg e2)) (row b5)

end Cert.KernelIdeal.Network

end
-- ==== Proof.Launch0.lean ====
/-
  Kernel launch 0: the degree-scaled product: rows of main_arg0 scaled by the column main_v13, times the weights main_arg3.

  The launch walks 50 blocks of 2000 rows.  At block t the body reads rows 2000·t … 2000·t + 1999 of its first two
  operands and the whole of its third, and writes the same rows of the result.  Its arithmetic on a block is the
  layer's function at the block's extents, and that function reads one row of its first two operands per row of the
  result, so block t of the result is block t of the function of the whole arrays; the 50 blocks tile the 100000 rows
  (row r lies in block r / 2000), so the result array ends as that function of the arrays the launch found.
-/
import proofs.«118214_j76390288327751_1_alg».proof.Proof.Gen.KernelIdeal.Frame
import proofs.«118214_j76390288327751_1_alg».proof.Proof.LibLayer
import Idealize.ShloMosaic.Lib.Pipeline.Value

set_option maxRecDepth 16384

noncomputable section

namespace Cert.KernelIdeal.Launches

open Cert.KernelIdeal Cert.KernelIdeal.Gen Cert.Layer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOff0 : (![0, 0] : Fin 2 → Nat) = fun _ => 0 := funext fun a => by fin_cases a <;> rfl

/-- The block index maps over the grid: the row-blocked windows sit at block row t, column block 0; the third operand
    is one block. -/
theorem blockIdx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The body's arithmetic on a block is the layer's function at the block's extents. -/
theorem body0 (x0 : Vec Ideal S2000x4 .f32) (x1 : Vec Ideal S2000x1 .f32) (x2 : Vec Ideal S4x128 .f32) :
    k0_pay1 x0 x1 x2 = scaledDot x0 x1 x2 := by
  unfold k0_pay1
  exact scaledDot_body (T := 2000) (K := 4) (M := 128) x0 x1 x2 shapeCasts_S2000x1_S2000x1 broadcasts_S2000x1_S2000x4 bitsLt_bf16_f32

/-- What block t writes back is block t of the layer's function of the arrays the launch found. -/
theorem written0 (c : Dev nD) (t : Fin cfg0.N) :
    (dat0 V c).flushed 3 t = ((cfg0.win 3).blk t).view.read (Elt Ideal) (scaledDot (V c main_arg0 : S100000x4.Idx → EReal) (V c main_v13 : S100000x1.Idx → EReal) (V c main_arg3 : S4x128.Idx → EReal)) := by
  show (cfg0.win 3).cut (grid0.coords t) ((dat0 V c).after 3 t) = _
  rw [after0_3]
  unfold out0_3
  rw [View.canon_unit_zero zeroOff0]
  simp only [View.ld_unit_zero (S := S2000x4) zeroOff0, View.ld_unit_zero (S := S2000x1) zeroOff0, View.ld_unit_zero (S := S4x128) zeroOff0]
  rw [body0]
  obtain ⟨e00, e01, e10, e11, e20, e21, e30, e31⟩ := blockIdx0 t
  funext y
  show scaledDot (iblk0 V c 0 t : S2000x4.Idx → EReal) (iblk0 V c 1 t : S2000x1.Idx → EReal) (iblk0 V c 2 t : S4x128.Idx → EReal) y
    = (scaledDot (V c main_arg0 : S100000x4.Idx → EReal) (V c main_v13 : S100000x1.Idx → EReal) (V c main_arg3 : S4x128.Idx → EReal)) (((cfg0.win 3).blk t).view.emb y)
  -- the block of main_arg0 at row y₀, column k, is the array's entry at the block's row, column k
  have hx : ∀ k : Fin 4, (iblk0 V c 0 t : S2000x4.Idx → EReal) (ix2 (y 0) k) = (V c main_arg0 : S100000x4.Idx → EReal) (ix2 ((((cfg0.win 3).blk t).view.emb y) 0) k) := fun k => by
    show (V c main_arg0 : S100000x4.Idx → EReal) (((cfg0.win 0).blk t).view.emb (ix2 (y 0) k)) = _
    refine congrArg _ (funext fun a => Fin.ext ?_)
    match a with
    | ⟨0, _⟩ => show win0_0.index t (0 : Fin 2) * 2000 + 1 * (y 0).val = win0_3.index t (0 : Fin 2) * 2000 + 1 * (y 0).val; omega
    | ⟨1, _⟩ => show win0_0.index t (1 : Fin 2) * 4 + 1 * k.val = k.val; omega
  have hs : (iblk0 V c 1 t : S2000x1.Idx → EReal) (ix2 (y 0) 0) = (V c main_v13 : S100000x1.Idx → EReal) (ix2 ((((cfg0.win 3).blk t).view.emb y) 0) 0) := by
    show (V c main_v13 : S100000x1.Idx → EReal) (((cfg0.win 1).blk t).view.emb (ix2 (y 0) 0)) = _
    refine congrArg _ (funext fun a => Fin.ext ?_)
    match a with
    | ⟨0, _⟩ => show win0_1.index t (0 : Fin 2) * 2000 + 1 * (y 0).val = win0_3.index t (0 : Fin 2) * 2000 + 1 * (y 0).val; omega
    | ⟨1, _⟩ => show win0_1.index t (1 : Fin 2) * 1 + 1 * 0 = 0; omega
  have hw : ∀ k : Fin 4, (iblk0 V c 2 t : S4x128.Idx → EReal) (ix2 k (y 1)) = (V c main_arg3 : S4x128.Idx → EReal) (ix2 k ((((cfg0.win 3).blk t).view.emb y) 1)) := fun k => by
    show (V c main_arg3 : S4x128.Idx → EReal) (((cfg0.win 2).blk t).view.emb (ix2 k (y 1))) = _
    refine congrArg _ (funext fun a => Fin.ext ?_)
    match a with
    | ⟨0, _⟩ => show win0_2.index t (0 : Fin 2) * 4 + 1 * k.val = k.val; omega
    | ⟨1, _⟩ => show win0_2.index t (1 : Fin 2) * 128 + 1 * (y 1).val = win0_3.index t (1 : Fin 2) * 128 + 1 * (y 1).val; omega
  exact scaledDot_rows _ _ _ _ _ _ y _ hx hs hw

/-- Every row of the result lies in the block of its quotient by 2000. -/
theorem tiled0 (i : S100000x128.Idx) : ∃ t : Fin cfg0.N, (cfg0.win 3).flush t = true ∧ i ∈ ((cfg0.win 3).blk t).view.set := by
  have h0 : (i 0).val < 100000 := (i 0).isLt
  have h1 : (i 1).val < 128 := (i 1).isLt
  have hN : cfg0.N = 50 := N_0
  have ht : (i 0).val / 2000 < cfg0.N := by rw [hN]; omega
  obtain ⟨-, -, -, -, -, -, e30, e31⟩ := blockIdx0 ⟨(i 0).val / 2000, ht⟩
  refine ⟨⟨(i 0).val / 2000, ht⟩, flush0_3 _, ?_⟩
  show i ∈ ((View.whole main_v15).slice (win0_3.rect ⟨(i 0).val / 2000, ht⟩)).set
  rw [View.set_slice_whole, Rect.mem_set_unit]
  intro a
  match a with
  | ⟨0, _⟩ =>
    show win0_3.index ⟨(i 0).val / 2000, ht⟩ (0 : Fin 2) * 2000 ≤ (i 0).val ∧ (i 0).val < win0_3.index ⟨(i 0).val / 2000, ht⟩ (0 : Fin 2) * 2000 + 2000
    rw [e30]; show (i 0).val / 2000 * 2000 ≤ (i 0).val ∧ (i 0).val < (i 0).val / 2000 * 2000 + 2000; omega
  | ⟨1, _⟩ =>
    show win0_3.index ⟨(i 0).val / 2000, ht⟩ (1 : Fin 2) * 128 ≤ (i 1).val ∧ (i 1).val < win0_3.index ⟨(i 0).val / 2000, ht⟩ (1 : Fin 2) * 128 + 128
    rw [e31]; omega

/-- The result array after the launch: the layer's function of the arrays the launch found. -/
theorem array0 (c : Dev nD) : (dat0 V c).arrAt 3 cfg0.N = (scaledDot (V c main_arg0 : S100000x4.Idx → EReal) (V c main_v13 : S100000x1.Idx → EReal) (V c main_arg3 : S4x128.Idx → EReal)) :=
  (dat0 V c).arrAt_eq_of_cover 3 _ (fun t _ => written0 V c t) (tiled0)

end Cert.KernelIdeal.Launches

end
-- ==== Proof.Launch1.lean ====
/-
  Kernel launch 1: the epilogue: main_v25 rescaled by the column main_v14, shifted by the row main_v26, then the leaky ramp.

  The launch walks 50 blocks of 2000 rows.  At block t the body reads rows 2000·t … 2000·t + 1999 of its first two
  operands and the whole of its third, and writes the same rows of the result.  Its arithmetic on a block is the
  layer's function at the block's extents, and that function reads one row of its first two operands per row of the
  result, so block t of the result is block t of the function of the whole arrays; the 50 blocks tile the 100000 rows
  (row r lies in block r / 2000), so the result array ends as that function of the arrays the launch found.
-/
import proofs.«118214_j76390288327751_1_alg».proof.Proof.Gen.KernelIdeal.Frame
import proofs.«118214_j76390288327751_1_alg».proof.Proof.LibLayer
import Idealize.ShloMosaic.Lib.Pipeline.Value

set_option maxRecDepth 16384

noncomputable section

namespace Cert.KernelIdeal.Launches

open Cert.KernelIdeal Cert.KernelIdeal.Gen Cert.Layer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOff1 : (![0, 0] : Fin 2 → Nat) = fun _ => 0 := funext fun a => by fin_cases a <;> rfl

/-- The block index maps over the grid: the row-blocked windows sit at block row t, column block 0; the third operand
    is one block. -/
theorem blockIdx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The body's arithmetic on a block is the layer's function at the block's extents. -/
theorem body1 (x0 : Vec Ideal S2000x128 .f32) (x1 : Vec Ideal S2000x1 .f32) (x2 : Vec Ideal S1x128 .f32) :
    k1_pay1 x0 x1 x2 = affineLeaky x0 x1 x2 := by
  unfold k1_pay1
  exact (leaky_body _).trans (funext fun j => congrArg leaky (congrFun (affine_body x0 x1 x2 _ _ _ _ _) j))

/-- What block t writes back is block t of the layer's function of the arrays the launch found. -/
theorem written1 (c : Dev nD) (t : Fin cfg1.N) :
    (dat1 V c).flushed 3 t = ((cfg1.win 3).blk t).view.read (Elt Ideal) (affineLeaky (V c main_v25 : S100000x128.Idx → EReal) (V c main_v14 : S100000x1.Idx → EReal) (V c main_v26 : S1x128.Idx → EReal)) := by
  show (cfg1.win 3).cut (grid1.coords t) ((dat1 V c).after 3 t) = _
  rw [after1_3]
  unfold out1_3
  rw [View.canon_unit_zero zeroOff1]
  simp only [View.ld_unit_zero (S := S2000x128) zeroOff1, View.ld_unit_zero (S := S2000x1) zeroOff1, View.ld_unit_zero (S := S1x128) zeroOff1]
  rw [body1]
  obtain ⟨e00, e01, e10, e11, e20, e21, e30, e31⟩ := blockIdx1 t
  funext y
  show affineLeaky (iblk1 V c 0 t : S2000x128.Idx → EReal) (iblk1 V c 1 t : S2000x1.Idx → EReal) (iblk1 V c 2 t : S1x128.Idx → EReal) y
    = (affineLeaky (V c main_v25 : S100000x128.Idx → EReal) (V c main_v14 : S100000x1.Idx → EReal) (V c main_v26 : S1x128.Idx → EReal)) (((cfg1.win 3).blk t).view.emb y)
  -- the block of main_v25 at y is the array's entry at the block's position
  have hx : (iblk1 V c 0 t : S2000x128.Idx → EReal) y = (V c main_v25 : S100000x128.Idx → EReal) (((cfg1.win 3).blk t).view.emb y) := by
    show (V c main_v25 : S100000x128.Idx → EReal) (((cfg1.win 0).blk t).view.emb y) = _
    refine congrArg _ (funext fun a => Fin.ext ?_)
    match a with
    | ⟨0, _⟩ => show win1_0.index t (0 : Fin 2) * 2000 + 1 * (y 0).val = win1_3.index t (0 : Fin 2) * 2000 + 1 * (y 0).val; omega
    | ⟨1, _⟩ => show win1_0.index t (1 : Fin 2) * 128 + 1 * (y 1).val = win1_3.index t (1 : Fin 2) * 128 + 1 * (y 1).val; omega
  have hs : (iblk1 V c 1 t : S2000x1.Idx → EReal) (ix2 (y 0) 0) = (V c main_v14 : S100000x1.Idx → EReal) (ix2 ((((cfg1.win 3).blk t).view.emb y) 0) 0) := by
    show (V c main_v14 : S100000x1.Idx → EReal) (((cfg1.win 1).blk t).view.emb (ix2 (y 0) 0)) = _
    refine congrArg _ (funext fun a => Fin.ext ?_)
    match a with
    | ⟨0, _⟩ => show win1_1.index t (0 : Fin 2) * 2000 + 1 * (y 0).val = win1_3.index t (0 : Fin 2) * 2000 + 1 * (y 0).val; omega
    | ⟨1, _⟩ => show win1_1.index t (1 : Fin 2) * 1 + 1 * 0 = 0; omega
  have hw : (iblk1 V c 2 t : S1x128.Idx → EReal) (ix2 0 (y 1)) = (V c main_v26 : S1x128.Idx → EReal) (ix2 0 ((((cfg1.win 3).blk t).view.emb y) 1)) := by
    show (V c main_v26 : S1x128.Idx → EReal) (((cfg1.win 2).blk t).view.emb (ix2 0 (y 1))) = _
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * (y 1).val = win1_3.index t (1 : Fin 2) * 128 + 1 * (y 1).val; omega
  exact congrArg leaky (affine_rows _ _ _ _ _ _ y _ hx hs hw)

/-- Every row of the result lies in the block of its quotient by 2000. -/
theorem tiled1 (i : S100000x128.Idx) : ∃ t : Fin cfg1.N, (cfg1.win 3).flush t = true ∧ i ∈ ((cfg1.win 3).blk t).view.set := by
  have h0 : (i 0).val < 100000 := (i 0).isLt
  have h1 : (i 1).val < 128 := (i 1).isLt
  have hN : cfg1.N = 50 := N_1
  have ht : (i 0).val / 2000 < cfg1.N := by rw [hN]; omega
  obtain ⟨-, -, -, -, -, -, e30, e31⟩ := blockIdx1 ⟨(i 0).val / 2000, ht⟩
  refine ⟨⟨(i 0).val / 2000, ht⟩, flush1_3 _, ?_⟩
  show i ∈ ((View.whole main_v27).slice (win1_3.rect ⟨(i 0).val / 2000, ht⟩)).set
  rw [View.set_slice_whole, Rect.mem_set_unit]
  intro a
  match a with
  | ⟨0, _⟩ =>
    show win1_3.index ⟨(i 0).val / 2000, ht⟩ (0 : Fin 2) * 2000 ≤ (i 0).val ∧ (i 0).val < win1_3.index ⟨(i 0).val / 2000, ht⟩ (0 : Fin 2) * 2000 + 2000
    rw [e30]; show (i 0).val / 2000 * 2000 ≤ (i 0).val ∧ (i 0).val < (i 0).val / 2000 * 2000 + 2000; omega
  | ⟨1, _⟩ =>
    show win1_3.index ⟨(i 0).val / 2000, ht⟩ (1 : Fin 2) * 128 ≤ (i 1).val ∧ (i 1).val < win1_3.index ⟨(i 0).val / 2000, ht⟩ (1 : Fin 2) * 128 + 128
    rw [e31]; omega

/-- The result array after the launch: the layer's function of the arrays the launch found. -/
theorem array1 (c : Dev nD) : (dat1 V c).arrAt 3 cfg1.N = (affineLeaky (V c main_v25 : S100000x128.Idx → EReal) (V c main_v14 : S100000x1.Idx → EReal) (V c main_v26 : S1x128.Idx → EReal)) :=
  (dat1 V c).arrAt_eq_of_cover 3 _ (fun t _ => written1 V c t) (tiled1)

end Cert.KernelIdeal.Launches

end
-- ==== Proof.Launch2.lean ====
/-
  Kernel launch 2: the degree-scaled product: rows of main_v27 scaled by the column main_v13, times the weights main_arg5.

  The launch walks 50 blocks of 2000 rows.  At block t the body reads rows 2000·t … 2000·t + 1999 of its first two
  operands and the whole of its third, and writes the same rows of the result.  Its arithmetic on a block is the
  layer's function at the block's extents, and that function reads one row of its first two operands per row of the
  result, so block t of the result is block t of the function of the whole arrays; the 50 blocks tile the 100000 rows
  (row r lies in block r / 2000), so the result array ends as that function of the arrays the launch found.
-/
import proofs.«118214_j76390288327751_1_alg».proof.Proof.Gen.KernelIdeal.Frame
import proofs.«118214_j76390288327751_1_alg».proof.Proof.LibLayer
import Idealize.ShloMosaic.Lib.Pipeline.Value

set_option maxRecDepth 16384

noncomputable section

namespace Cert.KernelIdeal.Launches

open Cert.KernelIdeal Cert.KernelIdeal.Gen Cert.Layer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOff2 : (![0, 0] : Fin 2 → Nat) = fun _ => 0 := funext fun a => by fin_cases a <;> rfl

/-- The block index maps over the grid: the row-blocked windows sit at block row t, column block 0; the third operand
    is one block. -/
theorem blockIdx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The body's arithmetic on a block is the layer's function at the block's extents. -/
theorem body2 (x0 : Vec Ideal S2000x128 .f32) (x1 : Vec Ideal S2000x1 .f32) (x2 : Vec Ideal S128x128 .f32) :
    k2_pay1 x0 x1 x2 = scaledDot x0 x1 x2 := by
  unfold k2_pay1
  exact scaledDot_body_cast (T := 2000) (K := 128) (M := 128) x0 x1 x2 shapeCasts_S2000x128_S2000x128 shapeCasts_S2000x1_S2000x1 broadcasts_S2000x1_S2000x128 bitsLt_bf16_f32

/-- What block t writes back is block t of the layer's function of the arrays the launch found. -/
theorem written2 (c : Dev nD) (t : Fin cfg2.N) :
    (dat2 V c).flushed 3 t = ((cfg2.win 3).blk t).view.read (Elt Ideal) (scaledDot (V c main_v27 : S100000x128.Idx → EReal) (V c main_v13 : S100000x1.Idx → EReal) (V c main_arg5 : S128x128.Idx → EReal)) := by
  show (cfg2.win 3).cut (grid2.coords t) ((dat2 V c).after 3 t) = _
  rw [after2_3]
  unfold out2_3
  rw [View.canon_unit_zero zeroOff2]
  simp only [View.ld_unit_zero (S := S2000x128) zeroOff2, View.ld_unit_zero (S := S2000x1) zeroOff2, View.ld_unit_zero (S := S128x128) zeroOff2]
  rw [body2]
  obtain ⟨e00, e01, e10, e11, e20, e21, e30, e31⟩ := blockIdx2 t
  funext y
  show scaledDot (iblk2 V c 0 t : S2000x128.Idx → EReal) (iblk2 V c 1 t : S2000x1.Idx → EReal) (iblk2 V c 2 t : S128x128.Idx → EReal) y
    = (scaledDot (V c main_v27 : S100000x128.Idx → EReal) (V c main_v13 : S100000x1.Idx → EReal) (V c main_arg5 : S128x128.Idx → EReal)) (((cfg2.win 3).blk t).view.emb y)
  -- the block of main_v27 at row y₀, column k, is the array's entry at the block's row, column k
  have hx : ∀ k : Fin 128, (iblk2 V c 0 t : S2000x128.Idx → EReal) (ix2 (y 0) k) = (V c main_v27 : S100000x128.Idx → EReal) (ix2 ((((cfg2.win 3).blk t).view.emb y) 0) k) := fun k => by
    show (V c main_v27 : S100000x128.Idx → EReal) (((cfg2.win 0).blk t).view.emb (ix2 (y 0) k)) = _
    refine congrArg _ (funext fun a => Fin.ext ?_)
    match a with
    | ⟨0, _⟩ => show win2_0.index t (0 : Fin 2) * 2000 + 1 * (y 0).val = win2_3.index t (0 : Fin 2) * 2000 + 1 * (y 0).val; omega
    | ⟨1, _⟩ => show win2_0.index t (1 : Fin 2) * 128 + 1 * k.val = k.val; omega
  have hs : (iblk2 V c 1 t : S2000x1.Idx → EReal) (ix2 (y 0) 0) = (V c main_v13 : S100000x1.Idx → EReal) (ix2 ((((cfg2.win 3).blk t).view.emb y) 0) 0) := by
    show (V c main_v13 : S100000x1.Idx → EReal) (((cfg2.win 1).blk t).view.emb (ix2 (y 0) 0)) = _
    refine congrArg _ (funext fun a => Fin.ext ?_)
    match a with
    | ⟨0, _⟩ => show win2_1.index t (0 : Fin 2) * 2000 + 1 * (y 0).val = win2_3.index t (0 : Fin 2) * 2000 + 1 * (y 0).val; omega
    | ⟨1, _⟩ => show win2_1.index t (1 : Fin 2) * 1 + 1 * 0 = 0; omega
  have hw : ∀ k : Fin 128, (iblk2 V c 2 t : S128x128.Idx → EReal) (ix2 k (y 1)) = (V c main_arg5 : S128x128.Idx → EReal) (ix2 k ((((cfg2.win 3).blk t).view.emb y) 1)) := fun k => by
    show (V c main_arg5 : S128x128.Idx → EReal) (((cfg2.win 2).blk t).view.emb (ix2 k (y 1))) = _
    refine congrArg _ (funext fun a => Fin.ext ?_)
    match a with
    | ⟨0, _⟩ => show win2_2.index t (0 : Fin 2) * 128 + 1 * k.val = k.val; omega
    | ⟨1, _⟩ => show win2_2.index t (1 : Fin 2) * 128 + 1 * (y 1).val = win2_3.index t (1 : Fin 2) * 128 + 1 * (y 1).val; omega
  exact scaledDot_rows _ _ _ _ _ _ y _ hx hs hw

/-- Every row of the result lies in the block of its quotient by 2000. -/
theorem tiled2 (i : S100000x128.Idx) : ∃ t : Fin cfg2.N, (cfg2.win 3).flush t = true ∧ i ∈ ((cfg2.win 3).blk t).view.set := by
  have h0 : (i 0).val < 100000 := (i 0).isLt
  have h1 : (i 1).val < 128 := (i 1).isLt
  have hN : cfg2.N = 50 := N_2
  have ht : (i 0).val / 2000 < cfg2.N := by rw [hN]; omega
  obtain ⟨-, -, -, -, -, -, e30, e31⟩ := blockIdx2 ⟨(i 0).val / 2000, ht⟩
  refine ⟨⟨(i 0).val / 2000, ht⟩, flush2_3 _, ?_⟩
  show i ∈ ((View.whole main_v28).slice (win2_3.rect ⟨(i 0).val / 2000, ht⟩)).set
  rw [View.set_slice_whole, Rect.mem_set_unit]
  intro a
  match a with
  | ⟨0, _⟩ =>
    show win2_3.index ⟨(i 0).val / 2000, ht⟩ (0 : Fin 2) * 2000 ≤ (i 0).val ∧ (i 0).val < win2_3.index ⟨(i 0).val / 2000, ht⟩ (0 : Fin 2) * 2000 + 2000
    rw [e30]; show (i 0).val / 2000 * 2000 ≤ (i 0).val ∧ (i 0).val < (i 0).val / 2000 * 2000 + 2000; omega
  | ⟨1, _⟩ =>
    show win2_3.index ⟨(i 0).val / 2000, ht⟩ (1 : Fin 2) * 128 ≤ (i 1).val ∧ (i 1).val < win2_3.index ⟨(i 0).val / 2000, ht⟩ (1 : Fin 2) * 128 + 128
    rw [e31]; omega

/-- The result array after the launch: the layer's function of the arrays the launch found. -/
theorem array2 (c : Dev nD) : (dat2 V c).arrAt 3 cfg2.N = (scaledDot (V c main_v27 : S100000x128.Idx → EReal) (V c main_v13 : S100000x1.Idx → EReal) (V c main_arg5 : S128x128.Idx → EReal)) :=
  (dat2 V c).arrAt_eq_of_cover 3 _ (fun t _ => written2 V c t) (tiled2)

end Cert.KernelIdeal.Launches

end
-- ==== Proof.Launch3.lean ====
/-
  Kernel launch 3: the epilogue: main_v38 rescaled by the column main_v14, shifted by the row main_v39, then the leaky ramp.

  The launch walks 50 blocks of 2000 rows.  At block t the body reads rows 2000·t … 2000·t + 1999 of its first two
  operands and the whole of its third, and writes the same rows of the result.  Its arithmetic on a block is the
  layer's function at the block's extents, and that function reads one row of its first two operands per row of the
  result, so block t of the result is block t of the function of the whole arrays; the 50 blocks tile the 100000 rows
  (row r lies in block r / 2000), so the result array ends as that function of the arrays the launch found.
-/
import proofs.«118214_j76390288327751_1_alg».proof.Proof.Gen.KernelIdeal.Frame
import proofs.«118214_j76390288327751_1_alg».proof.Proof.LibLayer
import Idealize.ShloMosaic.Lib.Pipeline.Value

set_option maxRecDepth 16384

noncomputable section

namespace Cert.KernelIdeal.Launches

open Cert.KernelIdeal Cert.KernelIdeal.Gen Cert.Layer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOff3 : (![0, 0] : Fin 2 → Nat) = fun _ => 0 := funext fun a => by fin_cases a <;> rfl

/-- The block index maps over the grid: the row-blocked windows sit at block row t, column block 0; the third operand
    is one block. -/
theorem blockIdx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The body's arithmetic on a block is the layer's function at the block's extents. -/
theorem body3 (x0 : Vec Ideal S2000x128 .f32) (x1 : Vec Ideal S2000x1 .f32) (x2 : Vec Ideal S1x128 .f32) :
    k3_pay1 x0 x1 x2 = affineLeaky x0 x1 x2 := by
  unfold k3_pay1
  exact (leaky_body _).trans (funext fun j => congrArg leaky (congrFun (affine_body x0 x1 x2 _ _ _ _ _) j))

/-- What block t writes back is block t of the layer's function of the arrays the launch found. -/
theorem written3 (c : Dev nD) (t : Fin cfg3.N) :
    (dat3 V c).flushed 3 t = ((cfg3.win 3).blk t).view.read (Elt Ideal) (affineLeaky (V c main_v38 : S100000x128.Idx → EReal) (V c main_v14 : S100000x1.Idx → EReal) (V c main_v39 : S1x128.Idx → EReal)) := by
  show (cfg3.win 3).cut (grid3.coords t) ((dat3 V c).after 3 t) = _
  rw [after3_3]
  unfold out3_3
  rw [View.canon_unit_zero zeroOff3]
  simp only [View.ld_unit_zero (S := S2000x128) zeroOff3, View.ld_unit_zero (S := S2000x1) zeroOff3, View.ld_unit_zero (S := S1x128) zeroOff3]
  rw [body3]
  obtain ⟨e00, e01, e10, e11, e20, e21, e30, e31⟩ := blockIdx3 t
  funext y
  show affineLeaky (iblk3 V c 0 t : S2000x128.Idx → EReal) (iblk3 V c 1 t : S2000x1.Idx → EReal) (iblk3 V c 2 t : S1x128.Idx → EReal) y
    = (affineLeaky (V c main_v38 : S100000x128.Idx → EReal) (V c main_v14 : S100000x1.Idx → EReal) (V c main_v39 : S1x128.Idx → EReal)) (((cfg3.win 3).blk t).view.emb y)
  -- the block of main_v38 at y is the array's entry at the block's position
  have hx : (iblk3 V c 0 t : S2000x128.Idx → EReal) y = (V c main_v38 : S100000x128.Idx → EReal) (((cfg3.win 3).blk t).view.emb y) := by
    show (V c main_v38 : S100000x128.Idx → EReal) (((cfg3.win 0).blk t).view.emb y) = _
    refine congrArg _ (funext fun a => Fin.ext ?_)
    match a with
    | ⟨0, _⟩ => show win3_0.index t (0 : Fin 2) * 2000 + 1 * (y 0).val = win3_3.index t (0 : Fin 2) * 2000 + 1 * (y 0).val; omega
    | ⟨1, _⟩ => show win3_0.index t (1 : Fin 2) * 128 + 1 * (y 1).val = win3_3.index t (1 : Fin 2) * 128 + 1 * (y 1).val; omega
  have hs : (iblk3 V c 1 t : S2000x1.Idx → EReal) (ix2 (y 0) 0) = (V c main_v14 : S100000x1.Idx → EReal) (ix2 ((((cfg3.win 3).blk t).view.emb y) 0) 0) := by
    show (V c main_v14 : S100000x1.Idx → EReal) (((cfg3.win 1).blk t).view.emb (ix2 (y 0) 0)) = _
    refine congrArg _ (funext fun a => Fin.ext ?_)
    match a with
    | ⟨0, _⟩ => show win3_1.index t (0 : Fin 2) * 2000 + 1 * (y 0).val = win3_3.index t (0 : Fin 2) * 2000 + 1 * (y 0).val; omega
    | ⟨1, _⟩ => show win3_1.index t (1 : Fin 2) * 1 + 1 * 0 = 0; omega
  have hw : (iblk3 V c 2 t : S1x128.Idx → EReal) (ix2 0 (y 1)) = (V c main_v39 : S1x128.Idx → EReal) (ix2 0 ((((cfg3.win 3).blk t).view.emb y) 1)) := by
    show (V c main_v39 : S1x128.Idx → EReal) (((cfg3.win 2).blk t).view.emb (ix2 0 (y 1))) = _
    refine congrArg _ (funext fun a => Fin.ext ?_)
    match a with
    | ⟨0, _⟩ => show win3_2.index t (0 : Fin 2) * 1 + 1 * 0 = 0; omega
    | ⟨1, _⟩ => show win3_2.index t (1 : Fin 2) * 128 + 1 * (y 1).val = win3_3.index t (1 : Fin 2) * 128 + 1 * (y 1).val; omega
  exact congrArg leaky (affine_rows _ _ _ _ _ _ y _ hx hs hw)

/-- Every row of the result lies in the block of its quotient by 2000. -/
theorem tiled3 (i : S100000x128.Idx) : ∃ t : Fin cfg3.N, (cfg3.win 3).flush t = true ∧ i ∈ ((cfg3.win 3).blk t).view.set := by
  have h0 : (i 0).val < 100000 := (i 0).isLt
  have h1 : (i 1).val < 128 := (i 1).isLt
  have hN : cfg3.N = 50 := N_3
  have ht : (i 0).val / 2000 < cfg3.N := by rw [hN]; omega
  obtain ⟨-, -, -, -, -, -, e30, e31⟩ := blockIdx3 ⟨(i 0).val / 2000, ht⟩
  refine ⟨⟨(i 0).val / 2000, ht⟩, flush3_3 _, ?_⟩
  show i ∈ ((View.whole main_v40).slice (win3_3.rect ⟨(i 0).val / 2000, ht⟩)).set
  rw [View.set_slice_whole, Rect.mem_set_unit]
  intro a
  match a with
  | ⟨0, _⟩ =>
    show win3_3.index ⟨(i 0).val / 2000, ht⟩ (0 : Fin 2) * 2000 ≤ (i 0).val ∧ (i 0).val < win3_3.index ⟨(i 0).val / 2000, ht⟩ (0 : Fin 2) * 2000 + 2000
    rw [e30]; show (i 0).val / 2000 * 2000 ≤ (i 0).val ∧ (i 0).val < (i 0).val / 2000 * 2000 + 2000; omega
  | ⟨1, _⟩ =>
    show win3_3.index ⟨(i 0).val / 2000, ht⟩ (1 : Fin 2) * 128 ≤ (i 1).val ∧ (i 1).val < win3_3.index ⟨(i 0).val / 2000, ht⟩ (1 : Fin 2) * 128 + 128
    rw [e31]; omega

/-- The result array after the launch: the layer's function of the arrays the launch found. -/
theorem array3 (c : Dev nD) : (dat3 V c).arrAt 3 cfg3.N = (affineLeaky (V c main_v38 : S100000x128.Idx → EReal) (V c main_v14 : S100000x1.Idx → EReal) (V c main_v39 : S1x128.Idx → EReal)) :=
  (dat3 V c).arrAt_eq_of_cover 3 _ (fun t _ => written3 V c t) (tiled3)

end Cert.KernelIdeal.Launches

end
-- ==== Proof.Launch4.lean ====
/-
  Kernel launch 4: the degree-scaled product: rows of main_v40 scaled by the column main_v13, times the weights main_arg7.

  The launch walks 50 blocks of 2000 rows.  At block t the body reads rows 2000·t … 2000·t + 1999 of its first two
  operands and the whole of its third, and writes the same rows of the result.  Its arithmetic on a block is the
  layer's function at the block's extents, and that function reads one row of its first two operands per row of the
  result, so block t of the result is block t of the function of the whole arrays; the 50 blocks tile the 100000 rows
  (row r lies in block r / 2000), so the result array ends as that function of the arrays the launch found.
-/
import proofs.«118214_j76390288327751_1_alg».proof.Proof.Gen.KernelIdeal.Frame
import proofs.«118214_j76390288327751_1_alg».proof.Proof.LibLayer
import Idealize.ShloMosaic.Lib.Pipeline.Value

set_option maxRecDepth 16384

noncomputable section

namespace Cert.KernelIdeal.Launches

open Cert.KernelIdeal Cert.KernelIdeal.Gen Cert.Layer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOff4 : (![0, 0] : Fin 2 → Nat) = fun _ => 0 := funext fun a => by fin_cases a <;> rfl

/-- The block index maps over the grid: the row-blocked windows sit at block row t, column block 0; the third operand
    is one block. -/
theorem blockIdx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The body's arithmetic on a block is the layer's function at the block's extents. -/
theorem body4 (x0 : Vec Ideal S2000x128 .f32) (x1 : Vec Ideal S2000x1 .f32) (x2 : Vec Ideal S128x128 .f32) :
    k4_pay1 x0 x1 x2 = scaledDot x0 x1 x2 := by
  unfold k4_pay1
  exact scaledDot_body_cast (T := 2000) (K := 128) (M := 128) x0 x1 x2 shapeCasts_S2000x128_S2000x128 shapeCasts_S2000x1_S2000x1 broadcasts_S2000x1_S2000x128 bitsLt_bf16_f32

/-- What block t writes back is block t of the layer's function of the arrays the launch found. -/
theorem written4 (c : Dev nD) (t : Fin cfg4.N) :
    (dat4 V c).flushed 3 t = ((cfg4.win 3).blk t).view.read (Elt Ideal) (scaledDot (V c main_v40 : S100000x128.Idx → EReal) (V c main_v13 : S100000x1.Idx → EReal) (V c main_arg7 : S128x128.Idx → EReal)) := by
  show (cfg4.win 3).cut (grid4.coords t) ((dat4 V c).after 3 t) = _
  rw [after4_3]
  unfold out4_3
  rw [View.canon_unit_zero zeroOff4]
  simp only [View.ld_unit_zero (S := S2000x128) zeroOff4, View.ld_unit_zero (S := S2000x1) zeroOff4, View.ld_unit_zero (S := S128x128) zeroOff4]
  rw [body4]
  obtain ⟨e00, e01, e10, e11, e20, e21, e30, e31⟩ := blockIdx4 t
  funext y
  show scaledDot (iblk4 V c 0 t : S2000x128.Idx → EReal) (iblk4 V c 1 t : S2000x1.Idx → EReal) (iblk4 V c 2 t : S128x128.Idx → EReal) y
    = (scaledDot (V c main_v40 : S100000x128.Idx → EReal) (V c main_v13 : S100000x1.Idx → EReal) (V c main_arg7 : S128x128.Idx → EReal)) (((cfg4.win 3).blk t).view.emb y)
  -- the block of main_v40 at row y₀, column k, is the array's entry at the block's row, column k
  have hx : ∀ k : Fin 128, (iblk4 V c 0 t : S2000x128.Idx → EReal) (ix2 (y 0) k) = (V c main_v40 : S100000x128.Idx → EReal) (ix2 ((((cfg4.win 3).blk t).view.emb y) 0) k) := fun k => by
    show (V c main_v40 : S100000x128.Idx → EReal) (((cfg4.win 0).blk t).view.emb (ix2 (y 0) k)) = _
    refine congrArg _ (funext fun a => Fin.ext ?_)
    match a with
    | ⟨0, _⟩ => show win4_0.index t (0 : Fin 2) * 2000 + 1 * (y 0).val = win4_3.index t (0 : Fin 2) * 2000 + 1 * (y 0).val; omega
    | ⟨1, _⟩ => show win4_0.index t (1 : Fin 2) * 128 + 1 * k.val = k.val; omega
  have hs : (iblk4 V c 1 t : S2000x1.Idx → EReal) (ix2 (y 0) 0) = (V c main_v13 : S100000x1.Idx → EReal) (ix2 ((((cfg4.win 3).blk t).view.emb y) 0) 0) := by
    show (V c main_v13 : S100000x1.Idx → EReal) (((cfg4.win 1).blk t).view.emb (ix2 (y 0) 0)) = _
    refine congrArg _ (funext fun a => Fin.ext ?_)
    match a with
    | ⟨0, _⟩ => show win4_1.index t (0 : Fin 2) * 2000 + 1 * (y 0).val = win4_3.index t (0 : Fin 2) * 2000 + 1 * (y 0).val; omega
    | ⟨1, _⟩ => show win4_1.index t (1 : Fin 2) * 1 + 1 * 0 = 0; omega
  have hw : ∀ k : Fin 128, (iblk4 V c 2 t : S128x128.Idx → EReal) (ix2 k (y 1)) = (V c main_arg7 : S128x128.Idx → EReal) (ix2 k ((((cfg4.win 3).blk t).view.emb y) 1)) := fun k => by
    show (V c main_arg7 : S128x128.Idx → EReal) (((cfg4.win 2).blk t).view.emb (ix2 k (y 1))) = _
    refine congrArg _ (funext fun a => Fin.ext ?_)
    match a with
    | ⟨0, _⟩ => show win4_2.index t (0 : Fin 2) * 128 + 1 * k.val = k.val; omega
    | ⟨1, _⟩ => show win4_2.index t (1 : Fin 2) * 128 + 1 * (y 1).val = win4_3.index t (1 : Fin 2) * 128 + 1 * (y 1).val; omega
  exact scaledDot_rows _ _ _ _ _ _ y _ hx hs hw

/-- Every row of the result lies in the block of its quotient by 2000. -/
theorem tiled4 (i : S100000x128.Idx) : ∃ t : Fin cfg4.N, (cfg4.win 3).flush t = true ∧ i ∈ ((cfg4.win 3).blk t).view.set := by
  have h0 : (i 0).val < 100000 := (i 0).isLt
  have h1 : (i 1).val < 128 := (i 1).isLt
  have hN : cfg4.N = 50 := N_4
  have ht : (i 0).val / 2000 < cfg4.N := by rw [hN]; omega
  obtain ⟨-, -, -, -, -, -, e30, e31⟩ := blockIdx4 ⟨(i 0).val / 2000, ht⟩
  refine ⟨⟨(i 0).val / 2000, ht⟩, flush4_3 _, ?_⟩
  show i ∈ ((View.whole main_v41).slice (win4_3.rect ⟨(i 0).val / 2000, ht⟩)).set
  rw [View.set_slice_whole, Rect.mem_set_unit]
  intro a
  match a with
  | ⟨0, _⟩ =>
    show win4_3.index ⟨(i 0).val / 2000, ht⟩ (0 : Fin 2) * 2000 ≤ (i 0).val ∧ (i 0).val < win4_3.index ⟨(i 0).val / 2000, ht⟩ (0 : Fin 2) * 2000 + 2000
    rw [e30]; show (i 0).val / 2000 * 2000 ≤ (i 0).val ∧ (i 0).val < (i 0).val / 2000 * 2000 + 2000; omega
  | ⟨1, _⟩ =>
    show win4_3.index ⟨(i 0).val / 2000, ht⟩ (1 : Fin 2) * 128 ≤ (i 1).val ∧ (i 1).val < win4_3.index ⟨(i 0).val / 2000, ht⟩ (1 : Fin 2) * 128 + 128
    rw [e31]; omega

/-- The result array after the launch: the layer's function of the arrays the launch found. -/
theorem array4 (c : Dev nD) : (dat4 V c).arrAt 3 cfg4.N = (scaledDot (V c main_v40 : S100000x128.Idx → EReal) (V c main_v13 : S100000x1.Idx → EReal) (V c main_arg7 : S128x128.Idx → EReal)) :=
  (dat4 V c).arrAt_eq_of_cover 3 _ (fun t _ => written4 V c t) (tiled4)

end Cert.KernelIdeal.Launches

end
-- ==== Proof.Launch5.lean ====
/-
  Kernel launch 5: the epilogue: main_v51 rescaled by the column main_v14, shifted by the row main_v52, then the leaky ramp.

  The launch walks 50 blocks of 2000 rows.  At block t the body reads rows 2000·t … 2000·t + 1999 of its first two
  operands and the whole of its third, and writes the same rows of the result.  Its arithmetic on a block is the
  layer's function at the block's extents, and that function reads one row of its first two operands per row of the
  result, so block t of the result is block t of the function of the whole arrays; the 50 blocks tile the 100000 rows
  (row r lies in block r / 2000), so the result array ends as that function of the arrays the launch found.
-/
import proofs.«118214_j76390288327751_1_alg».proof.Proof.Gen.KernelIdeal.Frame
import proofs.«118214_j76390288327751_1_alg».proof.Proof.LibLayer
import Idealize.ShloMosaic.Lib.Pipeline.Value

set_option maxRecDepth 16384

noncomputable section

namespace Cert.KernelIdeal.Launches

open Cert.KernelIdeal Cert.KernelIdeal.Gen Cert.Layer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOff5 : (![0, 0] : Fin 2 → Nat) = fun _ => 0 := funext fun a => by fin_cases a <;> rfl

/-- The block index maps over the grid: the row-blocked windows sit at block row t, column block 0; the third operand
    is one block. -/
theorem blockIdx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The body's arithmetic on a block is the layer's function at the block's extents. -/
theorem body5 (x0 : Vec Ideal S2000x128 .f32) (x1 : Vec Ideal S2000x1 .f32) (x2 : Vec Ideal S1x128 .f32) :
    k5_pay1 x0 x1 x2 = affineLeaky x0 x1 x2 := by
  unfold k5_pay1
  exact (leaky_body _).trans (funext fun j => congrArg leaky (congrFun (affine_body x0 x1 x2 _ _ _ _ _) j))

/-- What block t writes back is block t of the layer's function of the arrays the launch found. -/
theorem written5 (c : Dev nD) (t : Fin cfg5.N) :
    (dat5 V c).flushed 3 t = ((cfg5.win 3).blk t).view.read (Elt Ideal) (affineLeaky (V c main_v51 : S100000x128.Idx → EReal) (V c main_v14 : S100000x1.Idx → EReal) (V c main_v52 : S1x128.Idx → EReal)) := by
  show (cfg5.win 3).cut (grid5.coords t) ((dat5 V c).after 3 t) = _
  rw [after5_3]
  unfold out5_3
  rw [View.canon_unit_zero zeroOff5]
  simp only [View.ld_unit_zero (S := S2000x128) zeroOff5, View.ld_unit_zero (S := S2000x1) zeroOff5, View.ld_unit_zero (S := S1x128) zeroOff5]
  rw [body5]
  obtain ⟨e00, e01, e10, e11, e20, e21, e30, e31⟩ := blockIdx5 t
  funext y
  show affineLeaky (iblk5 V c 0 t : S2000x128.Idx → EReal) (iblk5 V c 1 t : S2000x1.Idx → EReal) (iblk5 V c 2 t : S1x128.Idx → EReal) y
    = (affineLeaky (V c main_v51 : S100000x128.Idx → EReal) (V c main_v14 : S100000x1.Idx → EReal) (V c main_v52 : S1x128.Idx → EReal)) (((cfg5.win 3).blk t).view.emb y)
  -- the block of main_v51 at y is the array's entry at the block's position
  have hx : (iblk5 V c 0 t : S2000x128.Idx → EReal) y = (V c main_v51 : S100000x128.Idx → EReal) (((cfg5.win 3).blk t).view.emb y) := by
    show (V c main_v51 : S100000x128.Idx → EReal) (((cfg5.win 0).blk t).view.emb y) = _
    refine congrArg _ (funext fun a => Fin.ext ?_)
    match a with
    | ⟨0, _⟩ => show win5_0.index t (0 : Fin 2) * 2000 + 1 * (y 0).val = win5_3.index t (0 : Fin 2) * 2000 + 1 * (y 0).val; omega
    | ⟨1, _⟩ => show win5_0.index t (1 : Fin 2) * 128 + 1 * (y 1).val = win5_3.index t (1 : Fin 2) * 128 + 1 * (y 1).val; omega
  have hs : (iblk5 V c 1 t : S2000x1.Idx → EReal) (ix2 (y 0) 0) = (V c main_v14 : S100000x1.Idx → EReal) (ix2 ((((cfg5.win 3).blk t).view.emb y) 0) 0) := by
    show (V c main_v14 : S100000x1.Idx → EReal) (((cfg5.win 1).blk t).view.emb (ix2 (y 0) 0)) = _
    refine congrArg _ (funext fun a => Fin.ext ?_)
    match a with
    | ⟨0, _⟩ => show win5_1.index t (0 : Fin 2) * 2000 + 1 * (y 0).val = win5_3.index t (0 : Fin 2) * 2000 + 1 * (y 0).val; omega
    | ⟨1, _⟩ => show win5_1.index t (1 : Fin 2) * 1 + 1 * 0 = 0; omega
  have hw : (iblk5 V c 2 t : S1x128.Idx → EReal) (ix2 0 (y 1)) = (V c main_v52 : S1x128.Idx → EReal) (ix2 0 ((((cfg5.win 3).blk t).view.emb y) 1)) := by
    show (V c main_v52 : S1x128.Idx → EReal) (((cfg5.win 2).blk t).view.emb (ix2 0 (y 1))) = _
    refine congrArg _ (funext fun a => Fin.ext ?_)
    match a with
    | ⟨0, _⟩ => show win5_2.index t (0 : Fin 2) * 1 + 1 * 0 = 0; omega
    | ⟨1, _⟩ => show win5_2.index t (1 : Fin 2) * 128 + 1 * (y 1).val = win5_3.index t (1 : Fin 2) * 128 + 1 * (y 1).val; omega
  exact congrArg leaky (affine_rows _ _ _ _ _ _ y _ hx hs hw)

/-- Every row of the result lies in the block of its quotient by 2000. -/
theorem tiled5 (i : S100000x128.Idx) : ∃ t : Fin cfg5.N, (cfg5.win 3).flush t = true ∧ i ∈ ((cfg5.win 3).blk t).view.set := by
  have h0 : (i 0).val < 100000 := (i 0).isLt
  have h1 : (i 1).val < 128 := (i 1).isLt
  have hN : cfg5.N = 50 := N_5
  have ht : (i 0).val / 2000 < cfg5.N := by rw [hN]; omega
  obtain ⟨-, -, -, -, -, -, e30, e31⟩ := blockIdx5 ⟨(i 0).val / 2000, ht⟩
  refine ⟨⟨(i 0).val / 2000, ht⟩, flush5_3 _, ?_⟩
  show i ∈ ((View.whole main_v53).slice (win5_3.rect ⟨(i 0).val / 2000, ht⟩)).set
  rw [View.set_slice_whole, Rect.mem_set_unit]
  intro a
  match a with
  | ⟨0, _⟩ =>
    show win5_3.index ⟨(i 0).val / 2000, ht⟩ (0 : Fin 2) * 2000 ≤ (i 0).val ∧ (i 0).val < win5_3.index ⟨(i 0).val / 2000, ht⟩ (0 : Fin 2) * 2000 + 2000
    rw [e30]; show (i 0).val / 2000 * 2000 ≤ (i 0).val ∧ (i 0).val < (i 0).val / 2000 * 2000 + 2000; omega
  | ⟨1, _⟩ =>
    show win5_3.index ⟨(i 0).val / 2000, ht⟩ (1 : Fin 2) * 128 ≤ (i 1).val ∧ (i 1).val < win5_3.index ⟨(i 0).val / 2000, ht⟩ (1 : Fin 2) * 128 + 128
    rw [e31]; omega

/-- The result array after the launch: the layer's function of the arrays the launch found. -/
theorem array5 (c : Dev nD) : (dat5 V c).arrAt 3 cfg5.N = (affineLeaky (V c main_v51 : S100000x128.Idx → EReal) (V c main_v14 : S100000x1.Idx → EReal) (V c main_v52 : S1x128.Idx → EReal)) :=
  (dat5 V c).arrAt_eq_of_cover 3 _ (fun t _ => written5 V c t) (tiled5)

end Cert.KernelIdeal.Launches

end
-- ==== Proof.Launch6.lean ====
/-
  Kernel launch 6: the degree-scaled product: rows of main_v53 scaled by the column main_v13, times the weights main_arg9.

  The launch walks 50 blocks of 2000 rows.  At block t the body reads rows 2000·t … 2000·t + 1999 of its first two
  operands and the whole of its third, and writes the same rows of the result.  Its arithmetic on a block is the
  layer's function at the block's extents, and that function reads one row of its first two operands per row of the
  result, so block t of the result is block t of the function of the whole arrays; the 50 blocks tile the 100000 rows
  (row r lies in block r / 2000), so the result array ends as that function of the arrays the launch found.
-/
import proofs.«118214_j76390288327751_1_alg».proof.Proof.Gen.KernelIdeal.Frame
import proofs.«118214_j76390288327751_1_alg».proof.Proof.LibLayer
import Idealize.ShloMosaic.Lib.Pipeline.Value

set_option maxRecDepth 16384

noncomputable section

namespace Cert.KernelIdeal.Launches

open Cert.KernelIdeal Cert.KernelIdeal.Gen Cert.Layer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOff6 : (![0, 0] : Fin 2 → Nat) = fun _ => 0 := funext fun a => by fin_cases a <;> rfl

/-- The block index maps over the grid: the row-blocked windows sit at block row t, column block 0; the third operand
    is one block. -/
theorem blockIdx6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- The body's arithmetic on a block is the layer's function at the block's extents. -/
theorem body6 (x0 : Vec Ideal S2000x128 .f32) (x1 : Vec Ideal S2000x1 .f32) (x2 : Vec Ideal S128x128 .f32) :
    k6_pay1 x0 x1 x2 = scaledDot x0 x1 x2 := by
  unfold k6_pay1
  exact scaledDot_body_cast (T := 2000) (K := 128) (M := 128) x0 x1 x2 shapeCasts_S2000x128_S2000x128 shapeCasts_S2000x1_S2000x1 broadcasts_S2000x1_S2000x128 bitsLt_bf16_f32

/-- What block t writes back is block t of the layer's function of the arrays the launch found. -/
theorem written6 (c : Dev nD) (t : Fin cfg6.N) :
    (dat6 V c).flushed 3 t = ((cfg6.win 3).blk t).view.read (Elt Ideal) (scaledDot (V c main_v53 : S100000x128.Idx → EReal) (V c main_v13 : S100000x1.Idx → EReal) (V c main_arg9 : S128x128.Idx → EReal)) := by
  show (cfg6.win 3).cut (grid6.coords t) ((dat6 V c).after 3 t) = _
  rw [after6_3]
  unfold out6_3
  rw [View.canon_unit_zero zeroOff6]
  simp only [View.ld_unit_zero (S := S2000x128) zeroOff6, View.ld_unit_zero (S := S2000x1) zeroOff6, View.ld_unit_zero (S := S128x128) zeroOff6]
  rw [body6]
  obtain ⟨e00, e01, e10, e11, e20, e21, e30, e31⟩ := blockIdx6 t
  funext y
  show scaledDot (iblk6 V c 0 t : S2000x128.Idx → EReal) (iblk6 V c 1 t : S2000x1.Idx → EReal) (iblk6 V c 2 t : S128x128.Idx → EReal) y
    = (scaledDot (V c main_v53 : S100000x128.Idx → EReal) (V c main_v13 : S100000x1.Idx → EReal) (V c main_arg9 : S128x128.Idx → EReal)) (((cfg6.win 3).blk t).view.emb y)
  -- the block of main_v53 at row y₀, column k, is the array's entry at the block's row, column k
  have hx : ∀ k : Fin 128, (iblk6 V c 0 t : S2000x128.Idx → EReal) (ix2 (y 0) k) = (V c main_v53 : S100000x128.Idx → EReal) (ix2 ((((cfg6.win 3).blk t).view.emb y) 0) k) := fun k => by
    show (V c main_v53 : S100000x128.Idx → EReal) (((cfg6.win 0).blk t).view.emb (ix2 (y 0) k)) = _
    refine congrArg _ (funext fun a => Fin.ext ?_)
    match a with
    | ⟨0, _⟩ => show win6_0.index t (0 : Fin 2) * 2000 + 1 * (y 0).val = win6_3.index t (0 : Fin 2) * 2000 + 1 * (y 0).val; omega
    | ⟨1, _⟩ => show win6_0.index t (1 : Fin 2) * 128 + 1 * k.val = k.val; omega
  have hs : (iblk6 V c 1 t : S2000x1.Idx → EReal) (ix2 (y 0) 0) = (V c main_v13 : S100000x1.Idx → EReal) (ix2 ((((cfg6.win 3).blk t).view.emb y) 0) 0) := by
    show (V c main_v13 : S100000x1.Idx → EReal) (((cfg6.win 1).blk t).view.emb (ix2 (y 0) 0)) = _
    refine congrArg _ (funext fun a => Fin.ext ?_)
    match a with
    | ⟨0, _⟩ => show win6_1.index t (0 : Fin 2) * 2000 + 1 * (y 0).val = win6_3.index t (0 : Fin 2) * 2000 + 1 * (y 0).val; omega
    | ⟨1, _⟩ => show win6_1.index t (1 : Fin 2) * 1 + 1 * 0 = 0; omega
  have hw : ∀ k : Fin 128, (iblk6 V c 2 t : S128x128.Idx → EReal) (ix2 k (y 1)) = (V c main_arg9 : S128x128.Idx → EReal) (ix2 k ((((cfg6.win 3).blk t).view.emb y) 1)) := fun k => by
    show (V c main_arg9 : S128x128.Idx → EReal) (((cfg6.win 2).blk t).view.emb (ix2 k (y 1))) = _
    refine congrArg _ (funext fun a => Fin.ext ?_)
    match a with
    | ⟨0, _⟩ => show win6_2.index t (0 : Fin 2) * 128 + 1 * k.val = k.val; omega
    | ⟨1, _⟩ => show win6_2.index t (1 : Fin 2) * 128 + 1 * (y 1).val = win6_3.index t (1 : Fin 2) * 128 + 1 * (y 1).val; omega
  exact scaledDot_rows _ _ _ _ _ _ y _ hx hs hw

/-- Every row of the result lies in the block of its quotient by 2000. -/
theorem tiled6 (i : S100000x128.Idx) : ∃ t : Fin cfg6.N, (cfg6.win 3).flush t = true ∧ i ∈ ((cfg6.win 3).blk t).view.set := by
  have h0 : (i 0).val < 100000 := (i 0).isLt
  have h1 : (i 1).val < 128 := (i 1).isLt
  have hN : cfg6.N = 50 := N_6
  have ht : (i 0).val / 2000 < cfg6.N := by rw [hN]; omega
  obtain ⟨-, -, -, -, -, -, e30, e31⟩ := blockIdx6 ⟨(i 0).val / 2000, ht⟩
  refine ⟨⟨(i 0).val / 2000, ht⟩, flush6_3 _, ?_⟩
  show i ∈ ((View.whole main_v54).slice (win6_3.rect ⟨(i 0).val / 2000, ht⟩)).set
  rw [View.set_slice_whole, Rect.mem_set_unit]
  intro a
  match a with
  | ⟨0, _⟩ =>
    show win6_3.index ⟨(i 0).val / 2000, ht⟩ (0 : Fin 2) * 2000 ≤ (i 0).val ∧ (i 0).val < win6_3.index ⟨(i 0).val / 2000, ht⟩ (0 : Fin 2) * 2000 + 2000
    rw [e30]; show (i 0).val / 2000 * 2000 ≤ (i 0).val ∧ (i 0).val < (i 0).val / 2000 * 2000 + 2000; omega
  | ⟨1, _⟩ =>
    show win6_3.index ⟨(i 0).val / 2000, ht⟩ (1 : Fin 2) * 128 ≤ (i 1).val ∧ (i 1).val < win6_3.index ⟨(i 0).val / 2000, ht⟩ (1 : Fin 2) * 128 + 128
    rw [e31]; omega

/-- The result array after the launch: the layer's function of the arrays the launch found. -/
theorem array6 (c : Dev nD) : (dat6 V c).arrAt 3 cfg6.N = (scaledDot (V c main_v53 : S100000x128.Idx → EReal) (V c main_v13 : S100000x1.Idx → EReal) (V c main_arg9 : S128x128.Idx → EReal)) :=
  (dat6 V c).arrAt_eq_of_cover 3 _ (fun t _ => written6 V c t) (tiled6)

end Cert.KernelIdeal.Launches

end
-- ==== Proof.Launch7.lean ====
/-
  Kernel launch 7: the epilogue: main_v64 rescaled by the column main_v14, shifted by the row main_v65, then the leaky ramp.

  The launch walks 50 blocks of 2000 rows.  At block t the body reads rows 2000·t … 2000·t + 1999 of its first two
  operands and the whole of its third, and writes the same rows of the result.  Its arithmetic on a block is the
  layer's function at the block's extents, and that function reads one row of its first two operands per row of the
  result, so block t of the result is block t of the function of the whole arrays; the 50 blocks tile the 100000 rows
  (row r lies in block r / 2000), so the result array ends as that function of the arrays the launch found.
-/
import proofs.«118214_j76390288327751_1_alg».proof.Proof.Gen.KernelIdeal.Frame
import proofs.«118214_j76390288327751_1_alg».proof.Proof.LibLayer
import Idealize.ShloMosaic.Lib.Pipeline.Value

set_option maxRecDepth 16384

noncomputable section

namespace Cert.KernelIdeal.Launches

open Cert.KernelIdeal Cert.KernelIdeal.Gen Cert.Layer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOff7 : (![0, 0] : Fin 2 → Nat) = fun _ => 0 := funext fun a => by fin_cases a <;> rfl

/-- The block index maps over the grid: the row-blocked windows sit at block row t, column block 0; the third operand
    is one block. -/
theorem blockIdx7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- The body's arithmetic on a block is the layer's function at the block's extents. -/
theorem body7 (x0 : Vec Ideal S2000x128 .f32) (x1 : Vec Ideal S2000x1 .f32) (x2 : Vec Ideal S1x128 .f32) :
    k7_pay1 x0 x1 x2 = affineLeaky x0 x1 x2 := by
  unfold k7_pay1
  exact (leaky_body _).trans (funext fun j => congrArg leaky (congrFun (affine_body x0 x1 x2 _ _ _ _ _) j))

/-- What block t writes back is block t of the layer's function of the arrays the launch found. -/
theorem written7 (c : Dev nD) (t : Fin cfg7.N) :
    (dat7 V c).flushed 3 t = ((cfg7.win 3).blk t).view.read (Elt Ideal) (affineLeaky (V c main_v64 : S100000x128.Idx → EReal) (V c main_v14 : S100000x1.Idx → EReal) (V c main_v65 : S1x128.Idx → EReal)) := by
  show (cfg7.win 3).cut (grid7.coords t) ((dat7 V c).after 3 t) = _
  rw [after7_3]
  unfold out7_3
  rw [View.canon_unit_zero zeroOff7]
  simp only [View.ld_unit_zero (S := S2000x128) zeroOff7, View.ld_unit_zero (S := S2000x1) zeroOff7, View.ld_unit_zero (S := S1x128) zeroOff7]
  rw [body7]
  obtain ⟨e00, e01, e10, e11, e20, e21, e30, e31⟩ := blockIdx7 t
  funext y
  show affineLeaky (iblk7 V c 0 t : S2000x128.Idx → EReal) (iblk7 V c 1 t : S2000x1.Idx → EReal) (iblk7 V c 2 t : S1x128.Idx → EReal) y
    = (affineLeaky (V c main_v64 : S100000x128.Idx → EReal) (V c main_v14 : S100000x1.Idx → EReal) (V c main_v65 : S1x128.Idx → EReal)) (((cfg7.win 3).blk t).view.emb y)
  -- the block of main_v64 at y is the array's entry at the block's position
  have hx : (iblk7 V c 0 t : S2000x128.Idx → EReal) y = (V c main_v64 : S100000x128.Idx → EReal) (((cfg7.win 3).blk t).view.emb y) := by
    show (V c main_v64 : S100000x128.Idx → EReal) (((cfg7.win 0).blk t).view.emb y) = _
    refine congrArg _ (funext fun a => Fin.ext ?_)
    match a with
    | ⟨0, _⟩ => show win7_0.index t (0 : Fin 2) * 2000 + 1 * (y 0).val = win7_3.index t (0 : Fin 2) * 2000 + 1 * (y 0).val; omega
    | ⟨1, _⟩ => show win7_0.index t (1 : Fin 2) * 128 + 1 * (y 1).val = win7_3.index t (1 : Fin 2) * 128 + 1 * (y 1).val; omega
  have hs : (iblk7 V c 1 t : S2000x1.Idx → EReal) (ix2 (y 0) 0) = (V c main_v14 : S100000x1.Idx → EReal) (ix2 ((((cfg7.win 3).blk t).view.emb y) 0) 0) := by
    show (V c main_v14 : S100000x1.Idx → EReal) (((cfg7.win 1).blk t).view.emb (ix2 (y 0) 0)) = _
    refine congrArg _ (funext fun a => Fin.ext ?_)
    match a with
    | ⟨0, _⟩ => show win7_1.index t (0 : Fin 2) * 2000 + 1 * (y 0).val = win7_3.index t (0 : Fin 2) * 2000 + 1 * (y 0).val; omega
    | ⟨1, _⟩ => show win7_1.index t (1 : Fin 2) * 1 + 1 * 0 = 0; omega
  have hw : (iblk7 V c 2 t : S1x128.Idx → EReal) (ix2 0 (y 1)) = (V c main_v65 : S1x128.Idx → EReal) (ix2 0 ((((cfg7.win 3).blk t).view.emb y) 1)) := by
    show (V c main_v65 : S1x128.Idx → EReal) (((cfg7.win 2).blk t).view.emb (ix2 0 (y 1))) = _
    refine congrArg _ (funext fun a => Fin.ext ?_)
    match a with
    | ⟨0, _⟩ => show win7_2.index t (0 : Fin 2) * 1 + 1 * 0 = 0; omega
    | ⟨1, _⟩ => show win7_2.index t (1 : Fin 2) * 128 + 1 * (y 1).val = win7_3.index t (1 : Fin 2) * 128 + 1 * (y 1).val; omega
  exact congrArg leaky (affine_rows _ _ _ _ _ _ y _ hx hs hw)

/-- Every row of the result lies in the block of its quotient by 2000. -/
theorem tiled7 (i : S100000x128.Idx) : ∃ t : Fin cfg7.N, (cfg7.win 3).flush t = true ∧ i ∈ ((cfg7.win 3).blk t).view.set := by
  have h0 : (i 0).val < 100000 := (i 0).isLt
  have h1 : (i 1).val < 128 := (i 1).isLt
  have hN : cfg7.N = 50 := N_7
  have ht : (i 0).val / 2000 < cfg7.N := by rw [hN]; omega
  obtain ⟨-, -, -, -, -, -, e30, e31⟩ := blockIdx7 ⟨(i 0).val / 2000, ht⟩
  refine ⟨⟨(i 0).val / 2000, ht⟩, flush7_3 _, ?_⟩
  show i ∈ ((View.whole main_v66).slice (win7_3.rect ⟨(i 0).val / 2000, ht⟩)).set
  rw [View.set_slice_whole, Rect.mem_set_unit]
  intro a
  match a with
  | ⟨0, _⟩ =>
    show win7_3.index ⟨(i 0).val / 2000, ht⟩ (0 : Fin 2) * 2000 ≤ (i 0).val ∧ (i 0).val < win7_3.index ⟨(i 0).val / 2000, ht⟩ (0 : Fin 2) * 2000 + 2000
    rw [e30]; show (i 0).val / 2000 * 2000 ≤ (i 0).val ∧ (i 0).val < (i 0).val / 2000 * 2000 + 2000; omega
  | ⟨1, _⟩ =>
    show win7_3.index ⟨(i 0).val / 2000, ht⟩ (1 : Fin 2) * 128 ≤ (i 1).val ∧ (i 1).val < win7_3.index ⟨(i 0).val / 2000, ht⟩ (1 : Fin 2) * 128 + 128
    rw [e31]; omega

/-- The result array after the launch: the layer's function of the arrays the launch found. -/
theorem array7 (c : Dev nD) : (dat7 V c).arrAt 3 cfg7.N = (affineLeaky (V c main_v64 : S100000x128.Idx → EReal) (V c main_v14 : S100000x1.Idx → EReal) (V c main_v65 : S1x128.Idx → EReal)) :=
  (dat7 V c).arrAt_eq_of_cover 3 _ (fun t _ => written7 V c t) (tiled7)

end Cert.KernelIdeal.Launches

end
-- ==== Proof.Launch8.lean ====
/-
  Kernel launch 8: the degree-scaled product: rows of main_v66 scaled by the column main_v13, times the weights main_arg11.

  The launch walks 50 blocks of 2000 rows.  At block t the body reads rows 2000·t … 2000·t + 1999 of its first two
  operands and the whole of its third, and writes the same rows of the result.  Its arithmetic on a block is the
  layer's function at the block's extents, and that function reads one row of its first two operands per row of the
  result, so block t of the result is block t of the function of the whole arrays; the 50 blocks tile the 100000 rows
  (row r lies in block r / 2000), so the result array ends as that function of the arrays the launch found.
-/
import proofs.«118214_j76390288327751_1_alg».proof.Proof.Gen.KernelIdeal.Frame
import proofs.«118214_j76390288327751_1_alg».proof.Proof.LibLayer
import Idealize.ShloMosaic.Lib.Pipeline.Value

set_option maxRecDepth 16384

noncomputable section

namespace Cert.KernelIdeal.Launches

open Cert.KernelIdeal Cert.KernelIdeal.Gen Cert.Layer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOff8 : (![0, 0] : Fin 2 → Nat) = fun _ => 0 := funext fun a => by fin_cases a <;> rfl

/-- The block index maps over the grid: the row-blocked windows sit at block row t, column block 0; the third operand
    is one block. -/
theorem blockIdx8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- The body's arithmetic on a block is the layer's function at the block's extents. -/
theorem body8 (x0 : Vec Ideal S2000x128 .f32) (x1 : Vec Ideal S2000x1 .f32) (x2 : Vec Ideal S128x3 .f32) :
    k8_pay1 x0 x1 x2 = scaledDot x0 x1 x2 := by
  unfold k8_pay1
  exact scaledDot_body_cast (T := 2000) (K := 128) (M := 3) x0 x1 x2 shapeCasts_S2000x128_S2000x128 shapeCasts_S2000x1_S2000x1 broadcasts_S2000x1_S2000x128 bitsLt_bf16_f32

/-- What block t writes back is block t of the layer's function of the arrays the launch found. -/
theorem written8 (c : Dev nD) (t : Fin cfg8.N) :
    (dat8 V c).flushed 3 t = ((cfg8.win 3).blk t).view.read (Elt Ideal) (scaledDot (V c main_v66 : S100000x128.Idx → EReal) (V c main_v13 : S100000x1.Idx → EReal) (V c main_arg11 : S128x3.Idx → EReal)) := by
  show (cfg8.win 3).cut (grid8.coords t) ((dat8 V c).after 3 t) = _
  rw [after8_3]
  unfold out8_3
  rw [View.canon_unit_zero zeroOff8]
  simp only [View.ld_unit_zero (S := S2000x128) zeroOff8, View.ld_unit_zero (S := S2000x1) zeroOff8, View.ld_unit_zero (S := S128x3) zeroOff8]
  rw [body8]
  obtain ⟨e00, e01, e10, e11, e20, e21, e30, e31⟩ := blockIdx8 t
  funext y
  show scaledDot (iblk8 V c 0 t : S2000x128.Idx → EReal) (iblk8 V c 1 t : S2000x1.Idx → EReal) (iblk8 V c 2 t : S128x3.Idx → EReal) y
    = (scaledDot (V c main_v66 : S100000x128.Idx → EReal) (V c main_v13 : S100000x1.Idx → EReal) (V c main_arg11 : S128x3.Idx → EReal)) (((cfg8.win 3).blk t).view.emb y)
  -- the block of main_v66 at row y₀, column k, is the array's entry at the block's row, column k
  have hx : ∀ k : Fin 128, (iblk8 V c 0 t : S2000x128.Idx → EReal) (ix2 (y 0) k) = (V c main_v66 : S100000x128.Idx → EReal) (ix2 ((((cfg8.win 3).blk t).view.emb y) 0) k) := fun k => by
    show (V c main_v66 : S100000x128.Idx → EReal) (((cfg8.win 0).blk t).view.emb (ix2 (y 0) k)) = _
    refine congrArg _ (funext fun a => Fin.ext ?_)
    match a with
    | ⟨0, _⟩ => show win8_0.index t (0 : Fin 2) * 2000 + 1 * (y 0).val = win8_3.index t (0 : Fin 2) * 2000 + 1 * (y 0).val; omega
    | ⟨1, _⟩ => show win8_0.index t (1 : Fin 2) * 128 + 1 * k.val = k.val; omega
  have hs : (iblk8 V c 1 t : S2000x1.Idx → EReal) (ix2 (y 0) 0) = (V c main_v13 : S100000x1.Idx → EReal) (ix2 ((((cfg8.win 3).blk t).view.emb y) 0) 0) := by
    show (V c main_v13 : S100000x1.Idx → EReal) (((cfg8.win 1).blk t).view.emb (ix2 (y 0) 0)) = _
    refine congrArg _ (funext fun a => Fin.ext ?_)
    match a with
    | ⟨0, _⟩ => show win8_1.index t (0 : Fin 2) * 2000 + 1 * (y 0).val = win8_3.index t (0 : Fin 2) * 2000 + 1 * (y 0).val; omega
    | ⟨1, _⟩ => show win8_1.index t (1 : Fin 2) * 1 + 1 * 0 = 0; omega
  have hw : ∀ k : Fin 128, (iblk8 V c 2 t : S128x3.Idx → EReal) (ix2 k (y 1)) = (V c main_arg11 : S128x3.Idx → EReal) (ix2 k ((((cfg8.win 3).blk t).view.emb y) 1)) := fun k => by
    show (V c main_arg11 : S128x3.Idx → EReal) (((cfg8.win 2).blk t).view.emb (ix2 k (y 1))) = _
    refine congrArg _ (funext fun a => Fin.ext ?_)
    match a with
    | ⟨0, _⟩ => show win8_2.index t (0 : Fin 2) * 128 + 1 * k.val = k.val; omega
    | ⟨1, _⟩ => show win8_2.index t (1 : Fin 2) * 3 + 1 * (y 1).val = win8_3.index t (1 : Fin 2) * 3 + 1 * (y 1).val; omega
  exact scaledDot_rows _ _ _ _ _ _ y _ hx hs hw

/-- Every row of the result lies in the block of its quotient by 2000. -/
theorem tiled8 (i : S100000x3.Idx) : ∃ t : Fin cfg8.N, (cfg8.win 3).flush t = true ∧ i ∈ ((cfg8.win 3).blk t).view.set := by
  have h0 : (i 0).val < 100000 := (i 0).isLt
  have h1 : (i 1).val < 3 := (i 1).isLt
  have hN : cfg8.N = 50 := N_8
  have ht : (i 0).val / 2000 < cfg8.N := by rw [hN]; omega
  obtain ⟨-, -, -, -, -, -, e30, e31⟩ := blockIdx8 ⟨(i 0).val / 2000, ht⟩
  refine ⟨⟨(i 0).val / 2000, ht⟩, flush8_3 _, ?_⟩
  show i ∈ ((View.whole main_v67).slice (win8_3.rect ⟨(i 0).val / 2000, ht⟩)).set
  rw [View.set_slice_whole, Rect.mem_set_unit]
  intro a
  match a with
  | ⟨0, _⟩ =>
    show win8_3.index ⟨(i 0).val / 2000, ht⟩ (0 : Fin 2) * 2000 ≤ (i 0).val ∧ (i 0).val < win8_3.index ⟨(i 0).val / 2000, ht⟩ (0 : Fin 2) * 2000 + 2000
    rw [e30]; show (i 0).val / 2000 * 2000 ≤ (i 0).val ∧ (i 0).val < (i 0).val / 2000 * 2000 + 2000; omega
  | ⟨1, _⟩ =>
    show win8_3.index ⟨(i 0).val / 2000, ht⟩ (1 : Fin 2) * 3 ≤ (i 1).val ∧ (i 1).val < win8_3.index ⟨(i 0).val / 2000, ht⟩ (1 : Fin 2) * 3 + 3
    rw [e31]; omega

/-- The result array after the launch: the layer's function of the arrays the launch found. -/
theorem array8 (c : Dev nD) : (dat8 V c).arrAt 3 cfg8.N = (scaledDot (V c main_v66 : S100000x128.Idx → EReal) (V c main_v13 : S100000x1.Idx → EReal) (V c main_arg11 : S128x3.Idx → EReal)) :=
  (dat8 V c).arrAt_eq_of_cover 3 _ (fun t _ => written8 V c t) (tiled8)

end Cert.KernelIdeal.Launches

end
-- ==== Proof.Launch9.lean ====
/-
  Kernel launch 9: the epilogue: main_v77 rescaled by the column main_v14, shifted by the row main_v78.

  The launch walks 50 blocks of 2000 rows.  At block t the body reads rows 2000·t … 2000·t + 1999 of its first two
  operands and the whole of its third, and writes the same rows of the result.  Its arithmetic on a block is the
  layer's function at the block's extents, and that function reads one row of its first two operands per row of the
  result, so block t of the result is block t of the function of the whole arrays; the 50 blocks tile the 100000 rows
  (row r lies in block r / 2000), so the result array ends as that function of the arrays the launch found.
-/
import proofs.«118214_j76390288327751_1_alg».proof.Proof.Gen.KernelIdeal.Frame
import proofs.«118214_j76390288327751_1_alg».proof.Proof.LibLayer
import Idealize.ShloMosaic.Lib.Pipeline.Value

set_option maxRecDepth 16384

noncomputable section

namespace Cert.KernelIdeal.Launches

open Cert.KernelIdeal Cert.KernelIdeal.Gen Cert.Layer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOff9 : (![0, 0] : Fin 2 → Nat) = fun _ => 0 := funext fun a => by fin_cases a <;> rfl

/-- The block index maps over the grid: the row-blocked windows sit at block row t, column block 0; the third operand
    is one block. -/
theorem blockIdx9 : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- The body's arithmetic on a block is the layer's function at the block's extents. -/
theorem body9 (x0 : Vec Ideal S2000x3 .f32) (x1 : Vec Ideal S2000x1 .f32) (x2 : Vec Ideal S1x3 .f32) :
    k9_pay1 x0 x1 x2 = affine x0 x1 x2 := by
  unfold k9_pay1
  exact affine_body x0 x1 x2 _ _ _ _ _

/-- What block t writes back is block t of the layer's function of the arrays the launch found. -/
theorem written9 (c : Dev nD) (t : Fin cfg9.N) :
    (dat9 V c).flushed 3 t = ((cfg9.win 3).blk t).view.read (Elt Ideal) (affine (V c main_v77 : S100000x3.Idx → EReal) (V c main_v14 : S100000x1.Idx → EReal) (V c main_v78 : S1x3.Idx → EReal)) := by
  show (cfg9.win 3).cut (grid9.coords t) ((dat9 V c).after 3 t) = _
  rw [after9_3]
  unfold out9_3
  rw [View.canon_unit_zero zeroOff9]
  simp only [View.ld_unit_zero (S := S2000x3) zeroOff9, View.ld_unit_zero (S := S2000x1) zeroOff9, View.ld_unit_zero (S := S1x3) zeroOff9]
  rw [body9]
  obtain ⟨e00, e01, e10, e11, e20, e21, e30, e31⟩ := blockIdx9 t
  funext y
  show affine (iblk9 V c 0 t : S2000x3.Idx → EReal) (iblk9 V c 1 t : S2000x1.Idx → EReal) (iblk9 V c 2 t : S1x3.Idx → EReal) y
    = (affine (V c main_v77 : S100000x3.Idx → EReal) (V c main_v14 : S100000x1.Idx → EReal) (V c main_v78 : S1x3.Idx → EReal)) (((cfg9.win 3).blk t).view.emb y)
  -- the block of main_v77 at y is the array's entry at the block's position
  have hx : (iblk9 V c 0 t : S2000x3.Idx → EReal) y = (V c main_v77 : S100000x3.Idx → EReal) (((cfg9.win 3).blk t).view.emb y) := by
    show (V c main_v77 : S100000x3.Idx → EReal) (((cfg9.win 0).blk t).view.emb y) = _
    refine congrArg _ (funext fun a => Fin.ext ?_)
    match a with
    | ⟨0, _⟩ => show win9_0.index t (0 : Fin 2) * 2000 + 1 * (y 0).val = win9_3.index t (0 : Fin 2) * 2000 + 1 * (y 0).val; omega
    | ⟨1, _⟩ => show win9_0.index t (1 : Fin 2) * 3 + 1 * (y 1).val = win9_3.index t (1 : Fin 2) * 3 + 1 * (y 1).val; omega
  have hs : (iblk9 V c 1 t : S2000x1.Idx → EReal) (ix2 (y 0) 0) = (V c main_v14 : S100000x1.Idx → EReal) (ix2 ((((cfg9.win 3).blk t).view.emb y) 0) 0) := by
    show (V c main_v14 : S100000x1.Idx → EReal) (((cfg9.win 1).blk t).view.emb (ix2 (y 0) 0)) = _
    refine congrArg _ (funext fun a => Fin.ext ?_)
    match a with
    | ⟨0, _⟩ => show win9_1.index t (0 : Fin 2) * 2000 + 1 * (y 0).val = win9_3.index t (0 : Fin 2) * 2000 + 1 * (y 0).val; omega
    | ⟨1, _⟩ => show win9_1.index t (1 : Fin 2) * 1 + 1 * 0 = 0; omega
  have hw : (iblk9 V c 2 t : S1x3.Idx → EReal) (ix2 0 (y 1)) = (V c main_v78 : S1x3.Idx → EReal) (ix2 0 ((((cfg9.win 3).blk t).view.emb y) 1)) := by
    show (V c main_v78 : S1x3.Idx → EReal) (((cfg9.win 2).blk t).view.emb (ix2 0 (y 1))) = _
    refine congrArg _ (funext fun a => Fin.ext ?_)
    match a with
    | ⟨0, _⟩ => show win9_2.index t (0 : Fin 2) * 1 + 1 * 0 = 0; omega
    | ⟨1, _⟩ => show win9_2.index t (1 : Fin 2) * 3 + 1 * (y 1).val = win9_3.index t (1 : Fin 2) * 3 + 1 * (y 1).val; omega
  exact affine_rows _ _ _ _ _ _ y _ hx hs hw

/-- Every row of the result lies in the block of its quotient by 2000. -/
theorem tiled9 (i : S100000x3.Idx) : ∃ t : Fin cfg9.N, (cfg9.win 3).flush t = true ∧ i ∈ ((cfg9.win 3).blk t).view.set := by
  have h0 : (i 0).val < 100000 := (i 0).isLt
  have h1 : (i 1).val < 3 := (i 1).isLt
  have hN : cfg9.N = 50 := N_9
  have ht : (i 0).val / 2000 < cfg9.N := by rw [hN]; omega
  obtain ⟨-, -, -, -, -, -, e30, e31⟩ := blockIdx9 ⟨(i 0).val / 2000, ht⟩
  refine ⟨⟨(i 0).val / 2000, ht⟩, flush9_3 _, ?_⟩
  show i ∈ ((View.whole main_v79).slice (win9_3.rect ⟨(i 0).val / 2000, ht⟩)).set
  rw [View.set_slice_whole, Rect.mem_set_unit]
  intro a
  match a with
  | ⟨0, _⟩ =>
    show win9_3.index ⟨(i 0).val / 2000, ht⟩ (0 : Fin 2) * 2000 ≤ (i 0).val ∧ (i 0).val < win9_3.index ⟨(i 0).val / 2000, ht⟩ (0 : Fin 2) * 2000 + 2000
    rw [e30]; show (i 0).val / 2000 * 2000 ≤ (i 0).val ∧ (i 0).val < (i 0).val / 2000 * 2000 + 2000; omega
  | ⟨1, _⟩ =>
    show win9_3.index ⟨(i 0).val / 2000, ht⟩ (1 : Fin 2) * 3 ≤ (i 1).val ∧ (i 1).val < win9_3.index ⟨(i 0).val / 2000, ht⟩ (1 : Fin 2) * 3 + 3
    rw [e31]; omega

/-- The result array after the launch: the layer's function of the arrays the launch found. -/
theorem array9 (c : Dev nD) : (dat9 V c).arrAt 3 cfg9.N = (affine (V c main_v77 : S100000x3.Idx → EReal) (V c main_v14 : S100000x1.Idx → EReal) (V c main_v78 : S1x3.Idx → EReal)) :=
  (dat9 V c).arrAt_eq_of_cover 3 _ (fun t _ => written9 V c t) (tiled9)

end Cert.KernelIdeal.Launches

end
-- ==== Proof.Fold.lean ====
/-
  The idealized kernel's result buffer, read through the sixteen segments, is the network of the arguments.

  The segments are read in order.  The first host stretch leaves the two degree columns (the normalisations reshaped to
  columns).  Then, five times: a launch leaves the scaled product of the current features with the layer's weights; a host
  stretch gathers and scatter-adds it along the edges and reshapes the bias to a row; a launch leaves the rescaled,
  shifted and (but for the last) ramped result, the next layer's features.  The arguments and the degree columns are read
  at later boundaries through the segments that leave them alone.
-/
import proofs.«118214_j76390288327751_1_alg».proof.Proof.Gen.KernelIdeal.Frame
import proofs.«118214_j76390288327751_1_alg».proof.Proof.Kept
import proofs.«118214_j76390288327751_1_alg».proof.Proof.Network
import proofs.«118214_j76390288327751_1_alg».proof.Proof.Launch0
import proofs.«118214_j76390288327751_1_alg».proof.Proof.Launch1
import proofs.«118214_j76390288327751_1_alg».proof.Proof.Launch2
import proofs.«118214_j76390288327751_1_alg».proof.Proof.Launch3
import proofs.«118214_j76390288327751_1_alg».proof.Proof.Launch4
import proofs.«118214_j76390288327751_1_alg».proof.Proof.Launch5
import proofs.«118214_j76390288327751_1_alg».proof.Proof.Launch6
import proofs.«118214_j76390288327751_1_alg».proof.Proof.Launch7
import proofs.«118214_j76390288327751_1_alg».proof.Proof.Launch8
import proofs.«118214_j76390288327751_1_alg».proof.Proof.Launch9
import Idealize.ShloMosaic.Lib.StableHlo.Run

set_option maxRecDepth 16384

noncomputable section

namespace Cert.KernelIdeal.Fold

open Cert.KernelIdeal Cert.KernelIdeal.Gen Cert.KernelIdeal.Kept Cert.KernelIdeal.Launches Cert.KernelIdeal.Network Cert.Layer
open Idealize.ShloMosaic Idealize.ShloMosaic.TcCoe Idealize.SL.Sem Idealize.ShloMosaic.StableHlo

/-! ## The host stretches, from any contents at their entry -/

set_option maxHeartbeats 2000000 in
/-- The first stretch leaves the out-degree normalisation, reshaped to a column. -/
theorem host0_dout (Vv : Valuation τ sig (Elt Ideal)) :
    StableHlo.after hostOps0 Vv (Proc.devRef .tc main_v13)
      = shapeCast S100000x1 (invSqrtDeg (Vv (Proc.devRef .tc main_arg1))) shapeCasts_S100000_S100000x1 := by
  after_results_simp
  rfl

set_option maxHeartbeats 2000000 in
/-- … and the in-degree normalisation, reshaped to a column. -/
theorem host0_din (Vv : Valuation τ sig (Elt Ideal)) :
    StableHlo.after hostOps0 Vv (Proc.devRef .tc main_v14)
      = shapeCast S100000x1 (invSqrtDeg (Vv (Proc.devRef .tc main_arg2))) shapeCasts_S100000_S100000x1 := by
  after_results_simp
  rfl

set_option maxHeartbeats 2000000 in
/-- Stretch 1 aggregates the product the launch before it left, along the edges. -/
theorem host1_agg (Vv : Valuation τ sig (Elt Ideal)) :
    StableHlo.after hostOps1 Vv (Proc.devRef .tc main_v25)
      = aggregate128 (Vv (Proc.devRef .tc main_arg1)) (Vv (Proc.devRef .tc main_arg2)) (Vv (Proc.devRef .tc main_v15)) := by
  after_results_simp
  rfl

set_option maxHeartbeats 2000000 in
/-- … and reshapes the layer's bias to a row. -/
theorem host1_row (Vv : Valuation τ sig (Elt Ideal)) :
    StableHlo.after hostOps1 Vv (Proc.devRef .tc main_v26)
      = shapeCast S1x128 (Vv (Proc.devRef .tc main_arg4)) shapeCasts_S128_S1x128 := by
  after_results_simp
  rfl

set_option maxHeartbeats 2000000 in
/-- Stretch 3 aggregates the product the launch before it left, along the edges. -/
theorem host3_agg (Vv : Valuation τ sig (Elt Ideal)) :
    StableHlo.after hostOps3 Vv (Proc.devRef .tc main_v38)
      = aggregate128 (Vv (Proc.devRef .tc main_arg1)) (Vv (Proc.devRef .tc main_arg2)) (Vv (Proc.devRef .tc main_v28)) := by
  after_results_simp
  rfl

set_option maxHeartbeats 2000000 in
/-- … and reshapes the layer's bias to a row. -/
theorem host3_row (Vv : Valuation τ sig (Elt Ideal)) :
    StableHlo.after hostOps3 Vv (Proc.devRef .tc main_v39)
      = shapeCast S1x128 (Vv (Proc.devRef .tc main_arg6)) shapeCasts_S128_S1x128 := by
  after_results_simp
  rfl

set_option maxHeartbeats 2000000 in
/-- Stretch 5 aggregates the product the launch before it left, along the edges. -/
theorem host5_agg (Vv : Valuation τ sig (Elt Ideal)) :
    StableHlo.after hostOps5 Vv (Proc.devRef .tc main_v51)
      = aggregate128 (Vv (Proc.devRef .tc main_arg1)) (Vv (Proc.devRef .tc main_arg2)) (Vv (Proc.devRef .tc main_v41)) := by
  after_results_simp
  rfl

set_option maxHeartbeats 2000000 in
/-- … and reshapes the layer's bias to a row. -/
theorem host5_row (Vv : Valuation τ sig (Elt Ideal)) :
    StableHlo.after hostOps5 Vv (Proc.devRef .tc main_v52)
      = shapeCast S1x128 (Vv (Proc.devRef .tc main_arg8)) shapeCasts_S128_S1x128 := by
  after_results_simp
  rfl

set_option maxHeartbeats 2000000 in
/-- Stretch 7 aggregates the product the launch before it left, along the edges. -/
theorem host7_agg (Vv : Valuation τ sig (Elt Ideal)) :
    StableHlo.after hostOps7 Vv (Proc.devRef .tc main_v64)
      = aggregate128 (Vv (Proc.devRef .tc main_arg1)) (Vv (Proc.devRef .tc main_arg2)) (Vv (Proc.devRef .tc main_v54)) := by
  after_results_simp
  rfl

set_option maxHeartbeats 2000000 in
/-- … and reshapes the layer's bias to a row. -/
theorem host7_row (Vv : Valuation τ sig (Elt Ideal)) :
    StableHlo.after hostOps7 Vv (Proc.devRef .tc main_v65)
      = shapeCast S1x128 (Vv (Proc.devRef .tc main_arg10)) shapeCasts_S128_S1x128 := by
  after_results_simp
  rfl

set_option maxHeartbeats 2000000 in
/-- Stretch 9 aggregates the product the launch before it left, along the edges. -/
theorem host9_agg (Vv : Valuation τ sig (Elt Ideal)) :
    StableHlo.after hostOps9 Vv (Proc.devRef .tc main_v77)
      = aggregate3 (Vv (Proc.devRef .tc main_arg1)) (Vv (Proc.devRef .tc main_arg2)) (Vv (Proc.devRef .tc main_v67)) := by
  after_results_simp
  rfl

set_option maxHeartbeats 2000000 in
/-- … and reshapes the layer's bias to a row. -/
theorem host9_row (Vv : Valuation τ sig (Elt Ideal)) :
    StableHlo.after hostOps9 Vv (Proc.devRef .tc main_v78)
      = shapeCast S1x3 (Vv (Proc.devRef .tc main_arg12)) shapeCasts_S3_S1x3 := by
  after_results_simp
  rfl

variable (m : (ℓ : Loc nD τ sig) → Buf (Elt Ideal) ℓ) (ρ : Dev nD → PrngReg)

/-! ## The arguments and the degree columns at the first launch's entry -/

theorem entry_arg0 (c : Dev nD) : W1 m ρ c (Proc.devRef .tc main_arg0) = m ((c : Thread nD τ).loc main_arg0) :=
  kept_host0 m ρ c main_arg0 (by decide)
theorem entry_arg1 (c : Dev nD) : W1 m ρ c (Proc.devRef .tc main_arg1) = m ((c : Thread nD τ).loc main_arg1) :=
  kept_host0 m ρ c main_arg1 (by decide)
theorem entry_arg2 (c : Dev nD) : W1 m ρ c (Proc.devRef .tc main_arg2) = m ((c : Thread nD τ).loc main_arg2) :=
  kept_host0 m ρ c main_arg2 (by decide)
theorem entry_arg3 (c : Dev nD) : W1 m ρ c (Proc.devRef .tc main_arg3) = m ((c : Thread nD τ).loc main_arg3) :=
  kept_host0 m ρ c main_arg3 (by decide)
theorem entry_arg4 (c : Dev nD) : W1 m ρ c (Proc.devRef .tc main_arg4) = m ((c : Thread nD τ).loc main_arg4) :=
  kept_host0 m ρ c main_arg4 (by decide)
theorem entry_arg5 (c : Dev nD) : W1 m ρ c (Proc.devRef .tc main_arg5) = m ((c : Thread nD τ).loc main_arg5) :=
  kept_host0 m ρ c main_arg5 (by decide)
theorem entry_arg6 (c : Dev nD) : W1 m ρ c (Proc.devRef .tc main_arg6) = m ((c : Thread nD τ).loc main_arg6) :=
  kept_host0 m ρ c main_arg6 (by decide)
theorem entry_arg7 (c : Dev nD) : W1 m ρ c (Proc.devRef .tc main_arg7) = m ((c : Thread nD τ).loc main_arg7) :=
  kept_host0 m ρ c main_arg7 (by decide)
theorem entry_arg8 (c : Dev nD) : W1 m ρ c (Proc.devRef .tc main_arg8) = m ((c : Thread nD τ).loc main_arg8) :=
  kept_host0 m ρ c main_arg8 (by decide)
theorem entry_arg9 (c : Dev nD) : W1 m ρ c (Proc.devRef .tc main_arg9) = m ((c : Thread nD τ).loc main_arg9) :=
  kept_host0 m ρ c main_arg9 (by decide)
theorem entry_arg10 (c : Dev nD) : W1 m ρ c (Proc.devRef .tc main_arg10) = m ((c : Thread nD τ).loc main_arg10) :=
  kept_host0 m ρ c main_arg10 (by decide)
theorem entry_arg11 (c : Dev nD) : W1 m ρ c (Proc.devRef .tc main_arg11) = m ((c : Thread nD τ).loc main_arg11) :=
  kept_host0 m ρ c main_arg11 (by decide)
theorem entry_arg12 (c : Dev nD) : W1 m ρ c (Proc.devRef .tc main_arg12) = m ((c : Thread nD τ).loc main_arg12) :=
  kept_host0 m ρ c main_arg12 (by decide)

/-- The out-degree column at the first launch's entry. -/
theorem entry_dout (c : Dev nD) : W1 m ρ c (Proc.devRef .tc main_v13) = col (invSqrtDeg (m ((c : Thread nD τ).loc main_arg1))) :=
  (host0_dout (W0 m ρ c)).trans (reshape_col _ _)

/-- The in-degree column at the first launch's entry. -/
theorem entry_din (c : Dev nD) : W1 m ρ c (Proc.devRef .tc main_v14) = col (invSqrtDeg (m ((c : Thread nD τ).loc main_arg2))) :=
  (host0_din (W0 m ρ c)).trans (reshape_col _ _)

/-! ## The layers' values -/

/-- The input features. -/
def feat0 (c : Dev nD) : (⟨S100000x4, .f32⟩ : BufTy).Contents (Elt Ideal) := (m ((c : Thread nD τ).loc main_arg0))
/-- Layer 1's projected features. -/
def hid1 (c : Dev nD) : (⟨S100000x128, .f32⟩ : BufTy).Contents (Elt Ideal) := scaledDot (feat0 m c) (col (invSqrtDeg (m ((c : Thread nD τ).loc main_arg1)))) (m ((c : Thread nD τ).loc main_arg3))
/-- Layer 1's aggregated features. -/
def gat1 (c : Dev nD) : (⟨S100000x128, .f32⟩ : BufTy).Contents (Elt Ideal) := aggregate128 (m ((c : Thread nD τ).loc main_arg1)) (m ((c : Thread nD τ).loc main_arg2)) (hid1 m c)
/-- Layer 1's output. -/
def feat1 (c : Dev nD) : (⟨S100000x128, .f32⟩ : BufTy).Contents (Elt Ideal) := affineLeaky (gat1 m c) (col (invSqrtDeg (m ((c : Thread nD τ).loc main_arg2)))) (row (m ((c : Thread nD τ).loc main_arg4)))
/-- Layer 2's projected features. -/
def hid2 (c : Dev nD) : (⟨S100000x128, .f32⟩ : BufTy).Contents (Elt Ideal) := scaledDot (feat1 m c) (col (invSqrtDeg (m ((c : Thread nD τ).loc main_arg1)))) (m ((c : Thread nD τ).loc main_arg5))
/-- Layer 2's aggregated features. -/
def gat2 (c : Dev nD) : (⟨S100000x128, .f32⟩ : BufTy).Contents (Elt Ideal) := aggregate128 (m ((c : Thread nD τ).loc main_arg1)) (m ((c : Thread nD τ).loc main_arg2)) (hid2 m c)
/-- Layer 2's output. -/
def feat2 (c : Dev nD) : (⟨S100000x128, .f32⟩ : BufTy).Contents (Elt Ideal) := affineLeaky (gat2 m c) (col (invSqrtDeg (m ((c : Thread nD τ).loc main_arg2)))) (row (m ((c : Thread nD τ).loc main_arg6)))
/-- Layer 3's projected features. -/
def hid3 (c : Dev nD) : (⟨S100000x128, .f32⟩ : BufTy).Contents (Elt Ideal) := scaledDot (feat2 m c) (col (invSqrtDeg (m ((c : Thread nD τ).loc main_arg1)))) (m ((c : Thread nD τ).loc main_arg7))
/-- Layer 3's aggregated features. -/
def gat3 (c : Dev nD) : (⟨S100000x128, .f32⟩ : BufTy).Contents (Elt Ideal) := aggregate128 (m ((c : Thread nD τ).loc main_arg1)) (m ((c : Thread nD τ).loc main_arg2)) (hid3 m c)
/-- Layer 3's output. -/
def feat3 (c : Dev nD) : (⟨S100000x128, .f32⟩ : BufTy).Contents (Elt Ideal) := affineLeaky (gat3 m c) (col (invSqrtDeg (m ((c : Thread nD τ).loc main_arg2)))) (row (m ((c : Thread nD τ).loc main_arg8)))
/-- Layer 4's projected features. -/
def hid4 (c : Dev nD) : (⟨S100000x128, .f32⟩ : BufTy).Contents (Elt Ideal) := scaledDot (feat3 m c) (col (invSqrtDeg (m ((c : Thread nD τ).loc main_arg1)))) (m ((c : Thread nD τ).loc main_arg9))
/-- Layer 4's aggregated features. -/
def gat4 (c : Dev nD) : (⟨S100000x128, .f32⟩ : BufTy).Contents (Elt Ideal) := aggregate128 (m ((c : Thread nD τ).loc main_arg1)) (m ((c : Thread nD τ).loc main_arg2)) (hid4 m c)
/-- Layer 4's output. -/
def feat4 (c : Dev nD) : (⟨S100000x128, .f32⟩ : BufTy).Contents (Elt Ideal) := affineLeaky (gat4 m c) (col (invSqrtDeg (m ((c : Thread nD τ).loc main_arg2)))) (row (m ((c : Thread nD τ).loc main_arg10)))
/-- Layer 5's projected features. -/
def hid5 (c : Dev nD) : (⟨S100000x3, .f32⟩ : BufTy).Contents (Elt Ideal) := scaledDot (feat4 m c) (col (invSqrtDeg (m ((c : Thread nD τ).loc main_arg1)))) (m ((c : Thread nD τ).loc main_arg11))
/-- Layer 5's aggregated features. -/
def gat5 (c : Dev nD) : (⟨S100000x3, .f32⟩ : BufTy).Contents (Elt Ideal) := aggregate3 (m ((c : Thread nD τ).loc main_arg1)) (m ((c : Thread nD τ).loc main_arg2)) (hid5 m c)
/-- Layer 5's output. -/
def feat5 (c : Dev nD) : (⟨S100000x3, .f32⟩ : BufTy).Contents (Elt Ideal) := affine (gat5 m c) (col (invSqrtDeg (m ((c : Thread nD τ).loc main_arg2)))) (row (m ((c : Thread nD τ).loc main_arg12)))

/-- The last layer's output is the network of the arguments. -/
theorem feat5_eq (c : Dev nD) : feat5 m c = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := rfl

/-! ## The fold, a layer at a time -/

/-- Launch 0 leaves layer 1's projected features. -/
theorem proj1 (c : Dev nD) : W2 m ρ c (Proc.devRef .tc main_v15) = hid1 m c :=
  (W2_arr m ρ c 3).trans ((array0 (V1 m ρ) c).trans
    (congr (congr (congrArg (scaledDot (N := 100000) (K := 4) (M := 128)) (entry_arg0 m ρ c)) (entry_dout m ρ c)) (entry_arg3 m ρ c)))

/-- Host stretch 1 leaves layer 1's aggregated features … -/
theorem agg1 (c : Dev nD) : W3 m ρ c (Proc.devRef .tc main_v25) = gat1 m c :=
  (host1_agg (W2 m ρ c)).trans
    (congr (congr (congrArg aggregate128 ((stable2 m ρ c main_arg1 (by decide)).trans (entry_arg1 m ρ c))) ((stable2 m ρ c main_arg2 (by decide)).trans (entry_arg2 m ρ c))) (proj1 m ρ c))

/-- … and layer 1's bias as a row. -/
theorem bias1 (c : Dev nD) : W3 m ρ c (Proc.devRef .tc main_v26) = row (m ((c : Thread nD τ).loc main_arg4)) :=
  (host1_row (W2 m ρ c)).trans
    ((congrArg (fun v => shapeCast S1x128 v shapeCasts_S128_S1x128) ((stable2 m ρ c main_arg4 (by decide)).trans (entry_arg4 m ρ c))).trans (reshape_row _ _))

/-- Launch 1 leaves layer 1's output. -/
theorem out1 (c : Dev nD) : W4 m ρ c (Proc.devRef .tc main_v27) = feat1 m c :=
  (W4_arr m ρ c 3).trans ((array1 (V3 m ρ) c).trans
    (congr (congr (congrArg (affineLeaky (N := 100000) (M := 128)) (agg1 m ρ c)) ((stable3 m ρ c main_v14 (by decide)).trans (entry_din m ρ c))) (bias1 m ρ c)))

/-- Launch 2 leaves layer 2's projected features. -/
theorem proj2 (c : Dev nD) : W5 m ρ c (Proc.devRef .tc main_v28) = hid2 m c :=
  (W5_arr m ρ c 3).trans ((array2 (V4 m ρ) c).trans
    (congr (congr (congrArg (scaledDot (N := 100000) (K := 128) (M := 128)) (out1 m ρ c)) ((stable4 m ρ c main_v13 (by decide)).trans (entry_dout m ρ c))) ((stable4 m ρ c main_arg5 (by decide)).trans (entry_arg5 m ρ c))))

/-- Host stretch 3 leaves layer 2's aggregated features … -/
theorem agg2 (c : Dev nD) : W6 m ρ c (Proc.devRef .tc main_v38) = gat2 m c :=
  (host3_agg (W5 m ρ c)).trans
    (congr (congr (congrArg aggregate128 ((stable5 m ρ c main_arg1 (by decide)).trans (entry_arg1 m ρ c))) ((stable5 m ρ c main_arg2 (by decide)).trans (entry_arg2 m ρ c))) (proj2 m ρ c))

/-- … and layer 2's bias as a row. -/
theorem bias2 (c : Dev nD) : W6 m ρ c (Proc.devRef .tc main_v39) = row (m ((c : Thread nD τ).loc main_arg6)) :=
  (host3_row (W5 m ρ c)).trans
    ((congrArg (fun v => shapeCast S1x128 v shapeCasts_S128_S1x128) ((stable5 m ρ c main_arg6 (by decide)).trans (entry_arg6 m ρ c))).trans (reshape_row _ _))

/-- Launch 3 leaves layer 2's output. -/
theorem out2 (c : Dev nD) : W7 m ρ c (Proc.devRef .tc main_v40) = feat2 m c :=
  (W7_arr m ρ c 3).trans ((array3 (V6 m ρ) c).trans
    (congr (congr (congrArg (affineLeaky (N := 100000) (M := 128)) (agg2 m ρ c)) ((stable6 m ρ c main_v14 (by decide)).trans (entry_din m ρ c))) (bias2 m ρ c)))

/-- Launch 4 leaves layer 3's projected features. -/
theorem proj3 (c : Dev nD) : W8 m ρ c (Proc.devRef .tc main_v41) = hid3 m c :=
  (W8_arr m ρ c 3).trans ((array4 (V7 m ρ) c).trans
    (congr (congr (congrArg (scaledDot (N := 100000) (K := 128) (M := 128)) (out2 m ρ c)) ((stable7 m ρ c main_v13 (by decide)).trans (entry_dout m ρ c))) ((stable7 m ρ c main_arg7 (by decide)).trans (entry_arg7 m ρ c))))

/-- Host stretch 5 leaves layer 3's aggregated features … -/
theorem agg3 (c : Dev nD) : W9 m ρ c (Proc.devRef .tc main_v51) = gat3 m c :=
  (host5_agg (W8 m ρ c)).trans
    (congr (congr (congrArg aggregate128 ((stable8 m ρ c main_arg1 (by decide)).trans (entry_arg1 m ρ c))) ((stable8 m ρ c main_arg2 (by decide)).trans (entry_arg2 m ρ c))) (proj3 m ρ c))

/-- … and layer 3's bias as a row. -/
theorem bias3 (c : Dev nD) : W9 m ρ c (Proc.devRef .tc main_v52) = row (m ((c : Thread nD τ).loc main_arg8)) :=
  (host5_row (W8 m ρ c)).trans
    ((congrArg (fun v => shapeCast S1x128 v shapeCasts_S128_S1x128) ((stable8 m ρ c main_arg8 (by decide)).trans (entry_arg8 m ρ c))).trans (reshape_row _ _))

/-- Launch 5 leaves layer 3's output. -/
theorem out3 (c : Dev nD) : W10 m ρ c (Proc.devRef .tc main_v53) = feat3 m c :=
  (W10_arr m ρ c 3).trans ((array5 (V9 m ρ) c).trans
    (congr (congr (congrArg (affineLeaky (N := 100000) (M := 128)) (agg3 m ρ c)) ((stable9 m ρ c main_v14 (by decide)).trans (entry_din m ρ c))) (bias3 m ρ c)))

/-- Launch 6 leaves layer 4's projected features. -/
theorem proj4 (c : Dev nD) : W11 m ρ c (Proc.devRef .tc main_v54) = hid4 m c :=
  (W11_arr m ρ c 3).trans ((array6 (V10 m ρ) c).trans
    (congr (congr (congrArg (scaledDot (N := 100000) (K := 128) (M := 128)) (out3 m ρ c)) ((stable10 m ρ c main_v13 (by decide)).trans (entry_dout m ρ c))) ((stable10 m ρ c main_arg9 (by decide)).trans (entry_arg9 m ρ c))))

/-- Host stretch 7 leaves layer 4's aggregated features … -/
theorem agg4 (c : Dev nD) : W12 m ρ c (Proc.devRef .tc main_v64) = gat4 m c :=
  (host7_agg (W11 m ρ c)).trans
    (congr (congr (congrArg aggregate128 ((stable11 m ρ c main_arg1 (by decide)).trans (entry_arg1 m ρ c))) ((stable11 m ρ c main_arg2 (by decide)).trans (entry_arg2 m ρ c))) (proj4 m ρ c))

/-- … and layer 4's bias as a row. -/
theorem bias4 (c : Dev nD) : W12 m ρ c (Proc.devRef .tc main_v65) = row (m ((c : Thread nD τ).loc main_arg10)) :=
  (host7_row (W11 m ρ c)).trans
    ((congrArg (fun v => shapeCast S1x128 v shapeCasts_S128_S1x128) ((stable11 m ρ c main_arg10 (by decide)).trans (entry_arg10 m ρ c))).trans (reshape_row _ _))

/-- Launch 7 leaves layer 4's output. -/
theorem out4 (c : Dev nD) : W13 m ρ c (Proc.devRef .tc main_v66) = feat4 m c :=
  (W13_arr m ρ c 3).trans ((array7 (V12 m ρ) c).trans
    (congr (congr (congrArg (affineLeaky (N := 100000) (M := 128)) (agg4 m ρ c)) ((stable12 m ρ c main_v14 (by decide)).trans (entry_din m ρ c))) (bias4 m ρ c)))

/-- Launch 8 leaves layer 5's projected features. -/
theorem proj5 (c : Dev nD) : W14 m ρ c (Proc.devRef .tc main_v67) = hid5 m c :=
  (W14_arr m ρ c 3).trans ((array8 (V13 m ρ) c).trans
    (congr (congr (congrArg (scaledDot (N := 100000) (K := 128) (M := 3)) (out4 m ρ c)) ((stable13 m ρ c main_v13 (by decide)).trans (entry_dout m ρ c))) ((stable13 m ρ c main_arg11 (by decide)).trans (entry_arg11 m ρ c))))

/-- Host stretch 9 leaves layer 5's aggregated features … -/
theorem agg5 (c : Dev nD) : W15 m ρ c (Proc.devRef .tc main_v77) = gat5 m c :=
  (host9_agg (W14 m ρ c)).trans
    (congr (congr (congrArg aggregate3 ((stable14 m ρ c main_arg1 (by decide)).trans (entry_arg1 m ρ c))) ((stable14 m ρ c main_arg2 (by decide)).trans (entry_arg2 m ρ c))) (proj5 m ρ c))

/-- … and layer 5's bias as a row. -/
theorem bias5 (c : Dev nD) : W15 m ρ c (Proc.devRef .tc main_v78) = row (m ((c : Thread nD τ).loc main_arg12)) :=
  (host9_row (W14 m ρ c)).trans
    ((congrArg (fun v => shapeCast S1x3 v shapeCasts_S3_S1x3) ((stable14 m ρ c main_arg12 (by decide)).trans (entry_arg12 m ρ c))).trans (reshape_row _ _))

/-- Launch 9 leaves layer 5's output. -/
theorem out5 (c : Dev nD) : W16 m ρ c (Proc.devRef .tc main_v79) = feat5 m c :=
  (W16_arr m ρ c 3).trans ((array9 (V15 m ρ) c).trans
    (congr (congr (congrArg (affine (N := 100000) (M := 3)) (agg5 m ρ c)) ((stable15 m ρ c main_v14 (by decide)).trans (entry_din m ρ c))) (bias5 m ρ c)))

/-- The result buffer at the end of the fold is the network of the arguments. -/
theorem result (c : Dev nD) : W16 m ρ c (Proc.devRef .tc main_v79)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (out5 m ρ c).trans (feat5_eq m c)

end Cert.KernelIdeal.Fold

end
-- ==== Proof.RefValue.lean ====
/-
  The reference program's result is the network of its arguments.

  The reference is one straight line of host operations, read here a layer at a time.  In each layer: the product of the
  features, scaled by the out-degree column broadcast over the columns, with the weights is the layer's scaled product;
  the gather along the sources and the scatter-add into the destinations are the aggregation, as spelled; the rescale by the
  broadcast in-degree column plus the broadcast bias row, and the comparison and selection after it, are the affine map
  and the leaky ramp.  The two programs' dimension records for the gather and the scatter-add carry the same numbers, so
  the reference's and the network's aggregations are one term.
-/
import proofs.«118214_j76390288327751_1_alg».proof.Proof.Gen.ReferenceIdeal.Read
import proofs.«118214_j76390288327751_1_alg».proof.Proof.Network

noncomputable section

namespace Cert.ReferenceIdeal.RefValue

open Cert.ReferenceIdeal Cert.ReferenceIdeal.Gen Cert.ReferenceIdeal.Read
open Cert.Layer Cert.KernelIdeal.Network
open Idealize.ShloMosaic Idealize.ShloMosaic.TcCoe

/-- The reference's out-degree normalisation is the network's. -/
theorem degOut (x1 : (⟨S1600000, .i32⟩ : BufTy).Contents (Elt Ideal)) : val_main_v9 (F := Ideal) x1 = invSqrtDeg x1 := rfl

/-- The reference's in-degree normalisation is the network's. -/
theorem degIn (x2 : (⟨S1600000, .i32⟩ : BufTy).Contents (Elt Ideal)) : val_main_v12 (F := Ideal) x2 = invSqrtDeg x2 := rfl

/-- Layer 1: the product of the scaled features with the weights. -/
theorem proj1 (x0 : (⟨S100000x4, .f32⟩ : BufTy).Contents (Elt Ideal)) (x1 : (⟨S1600000, .i32⟩ : BufTy).Contents (Elt Ideal)) (x3 : (⟨S4x128, .f32⟩ : BufTy).Contents (Elt Ideal)) :
    val_main_v16 (F := Ideal) x0 x1 x3 = scaledDot x0 (col (invSqrtDeg x1)) x3 := by
  unfold val_main_v16 val_main_v15 val_main_v14 val_main_v13
  rw [bcast_col]
  exact scaledDot_host (N := 100000) (K := 4) (M := 128) x0 (col (val_main_v9 (F := Ideal) x1)) x3 bcast_S100000x1_S100000x4_0_1

/-- Layer 1: the gather and the scatter-add are the aggregation. -/
theorem agg1 (x0 : (⟨S100000x4, .f32⟩ : BufTy).Contents (Elt Ideal)) (x1 : (⟨S1600000, .i32⟩ : BufTy).Contents (Elt Ideal)) (x2 : (⟨S1600000, .i32⟩ : BufTy).Contents (Elt Ideal)) (x3 : (⟨S4x128, .f32⟩ : BufTy).Contents (Elt Ideal)) :
    val_main_v26 (F := Ideal) x0 x1 x2 x3 = aggregate128 x1 x2 (val_main_v16 (F := Ideal) x0 x1 x3) := rfl

/-- Layer 1: the rescale, the shift and the ramp. -/
theorem out1 (x0 : (⟨S100000x4, .f32⟩ : BufTy).Contents (Elt Ideal)) (x1 : (⟨S1600000, .i32⟩ : BufTy).Contents (Elt Ideal)) (x2 : (⟨S1600000, .i32⟩ : BufTy).Contents (Elt Ideal)) (x3 : (⟨S4x128, .f32⟩ : BufTy).Contents (Elt Ideal)) (x4 : (⟨S128, .f32⟩ : BufTy).Contents (Elt Ideal)) :
    val_main_v37 (F := Ideal) x0 x1 x2 x3 x4 = affineLeaky (val_main_v26 (F := Ideal) x0 x1 x2 x3) (col (invSqrtDeg x2)) (row x4) := by
  unfold val_main_v37 val_main_v36 val_main_v35 val_main_cst_7 val_main_v34 val_main_v33 val_main_cst_6 val_main_v32 val_main_v31 val_main_v30 val_main_v29 val_main_v28 val_main_v27
  rw [bcast_col, bcast_row]
  exact (leaky_host _ _).trans (funext fun j => congrArg leaky (congrFun
    (affine_host (N := 100000) (M := 128) (val_main_v26 (F := Ideal) x0 x1 x2 x3) (col (val_main_v12 (F := Ideal) x2)) (row x4) bcast_S100000x1_S100000x128_0_1 bcast_S1x128_S100000x128_0_1) j))

/-- Layer 2: the product of the scaled features with the weights. -/
theorem proj2 (x0 : (⟨S100000x4, .f32⟩ : BufTy).Contents (Elt Ideal)) (x1 : (⟨S1600000, .i32⟩ : BufTy).Contents (Elt Ideal)) (x2 : (⟨S1600000, .i32⟩ : BufTy).Contents (Elt Ideal)) (x3 : (⟨S4x128, .f32⟩ : BufTy).Contents (Elt Ideal)) (x4 : (⟨S128, .f32⟩ : BufTy).Contents (Elt Ideal)) (x5 : (⟨S128x128, .f32⟩ : BufTy).Contents (Elt Ideal)) :
    val_main_v41 (F := Ideal) x0 x1 x2 x3 x4 x5 = scaledDot (val_main_v37 (F := Ideal) x0 x1 x2 x3 x4) (col (invSqrtDeg x1)) x5 := by
  unfold val_main_v41 val_main_v40 val_main_v39 val_main_v38
  rw [bcast_col]
  exact scaledDot_host (N := 100000) (K := 128) (M := 128) (val_main_v37 (F := Ideal) x0 x1 x2 x3 x4) (col (val_main_v9 (F := Ideal) x1)) x5 bcast_S100000x1_S100000x128_0_1

/-- Layer 2: the gather and the scatter-add are the aggregation. -/
theorem agg2 (x0 : (⟨S100000x4, .f32⟩ : BufTy).Contents (Elt Ideal)) (x1 : (⟨S1600000, .i32⟩ : BufTy).Contents (Elt Ideal)) (x2 : (⟨S1600000, .i32⟩ : BufTy).Contents (Elt Ideal)) (x3 : (⟨S4x128, .f32⟩ : BufTy).Contents (Elt Ideal)) (x4 : (⟨S128, .f32⟩ : BufTy).Contents (Elt Ideal)) (x5 : (⟨S128x128, .f32⟩ : BufTy).Contents (Elt Ideal)) :
    val_main_v51 (F := Ideal) x0 x1 x2 x3 x4 x5 = aggregate128 x1 x2 (val_main_v41 (F := Ideal) x0 x1 x2 x3 x4 x5) := rfl

/-- Layer 2: the rescale, the shift and the ramp. -/
theorem out2 (x0 : (⟨S100000x4, .f32⟩ : BufTy).Contents (Elt Ideal)) (x1 : (⟨S1600000, .i32⟩ : BufTy).Contents (Elt Ideal)) (x2 : (⟨S1600000, .i32⟩ : BufTy).Contents (Elt Ideal)) (x3 : (⟨S4x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v62 (F := Ideal) x0 x1 x2 x3 x4 x5 x6 = affineLeaky (val_main_v51 (F := Ideal) x0 x1 x2 x3 x4 x5) (col (invSqrtDeg x2)) (row x6) := by
  unfold val_main_v62 val_main_v61 val_main_v60 val_main_cst_12 val_main_v59 val_main_v58 val_main_cst_11 val_main_v57 val_main_v56 val_main_v55 val_main_v54 val_main_v53 val_main_v52
  rw [bcast_col, bcast_row]
  exact (leaky_host _ _).trans (funext fun j => congrArg leaky (congrFun
    (affine_host (N := 100000) (M := 128) (val_main_v51 (F := Ideal) x0 x1 x2 x3 x4 x5) (col (val_main_v12 (F := Ideal) x2)) (row x6) bcast_S100000x1_S100000x128_0_1 bcast_S1x128_S100000x128_0_1) j))

/-- Layer 3: the product of the scaled features with the weights. -/
theorem proj3 (x0 : (⟨S100000x4, .f32⟩ : BufTy).Contents (Elt Ideal)) (x1 : (⟨S1600000, .i32⟩ : BufTy).Contents (Elt Ideal)) (x2 : (⟨S1600000, .i32⟩ : BufTy).Contents (Elt Ideal)) (x3 : (⟨S4x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v66 (F := Ideal) x0 x1 x2 x3 x4 x5 x6 x7 = scaledDot (val_main_v62 (F := Ideal) x0 x1 x2 x3 x4 x5 x6) (col (invSqrtDeg x1)) x7 := by
  unfold val_main_v66 val_main_v65 val_main_v64 val_main_v63
  rw [bcast_col]
  exact scaledDot_host (N := 100000) (K := 128) (M := 128) (val_main_v62 (F := Ideal) x0 x1 x2 x3 x4 x5 x6) (col (val_main_v9 (F := Ideal) x1)) x7 bcast_S100000x1_S100000x128_0_1

/-- Layer 3: the gather and the scatter-add are the aggregation. -/
theorem agg3 (x0 : (⟨S100000x4, .f32⟩ : BufTy).Contents (Elt Ideal)) (x1 : (⟨S1600000, .i32⟩ : BufTy).Contents (Elt Ideal)) (x2 : (⟨S1600000, .i32⟩ : BufTy).Contents (Elt Ideal)) (x3 : (⟨S4x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v76 (F := Ideal) x0 x1 x2 x3 x4 x5 x6 x7 = aggregate128 x1 x2 (val_main_v66 (F := Ideal) x0 x1 x2 x3 x4 x5 x6 x7) := rfl

/-- Layer 3: the rescale, the shift and the ramp. -/
theorem out3 (x0 : (⟨S100000x4, .f32⟩ : BufTy).Contents (Elt Ideal)) (x1 : (⟨S1600000, .i32⟩ : BufTy).Contents (Elt Ideal)) (x2 : (⟨S1600000, .i32⟩ : BufTy).Contents (Elt Ideal)) (x3 : (⟨S4x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) :
    val_main_v87 (F := Ideal) x0 x1 x2 x3 x4 x5 x6 x7 x8 = affineLeaky (val_main_v76 (F := Ideal) x0 x1 x2 x3 x4 x5 x6 x7) (col (invSqrtDeg x2)) (row x8) := by
  unfold val_main_v87 val_main_v86 val_main_v85 val_main_cst_17 val_main_v84 val_main_v83 val_main_cst_16 val_main_v82 val_main_v81 val_main_v80 val_main_v79 val_main_v78 val_main_v77
  rw [bcast_col, bcast_row]
  exact (leaky_host _ _).trans (funext fun j => congrArg leaky (congrFun
    (affine_host (N := 100000) (M := 128) (val_main_v76 (F := Ideal) x0 x1 x2 x3 x4 x5 x6 x7) (col (val_main_v12 (F := Ideal) x2)) (row x8) bcast_S100000x1_S100000x128_0_1 bcast_S1x128_S100000x128_0_1) j))

/-- Layer 4: the product of the scaled features with the weights. -/
theorem proj4 (x0 : (⟨S100000x4, .f32⟩ : BufTy).Contents (Elt Ideal)) (x1 : (⟨S1600000, .i32⟩ : BufTy).Contents (Elt Ideal)) (x2 : (⟨S1600000, .i32⟩ : BufTy).Contents (Elt Ideal)) (x3 : (⟨S4x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) :
    val_main_v91 (F := Ideal) x0 x1 x2 x3 x4 x5 x6 x7 x8 x9 = scaledDot (val_main_v87 (F := Ideal) x0 x1 x2 x3 x4 x5 x6 x7 x8) (col (invSqrtDeg x1)) x9 := by
  unfold val_main_v91 val_main_v90 val_main_v89 val_main_v88
  rw [bcast_col]
  exact scaledDot_host (N := 100000) (K := 128) (M := 128) (val_main_v87 (F := Ideal) x0 x1 x2 x3 x4 x5 x6 x7 x8) (col (val_main_v9 (F := Ideal) x1)) x9 bcast_S100000x1_S100000x128_0_1

/-- Layer 4: the gather and the scatter-add are the aggregation. -/
theorem agg4 (x0 : (⟨S100000x4, .f32⟩ : BufTy).Contents (Elt Ideal)) (x1 : (⟨S1600000, .i32⟩ : BufTy).Contents (Elt Ideal)) (x2 : (⟨S1600000, .i32⟩ : BufTy).Contents (Elt Ideal)) (x3 : (⟨S4x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) :
    val_main_v101 (F := Ideal) x0 x1 x2 x3 x4 x5 x6 x7 x8 x9 = aggregate128 x1 x2 (val_main_v91 (F := Ideal) x0 x1 x2 x3 x4 x5 x6 x7 x8 x9) := rfl

/-- Layer 4: the rescale, the shift and the ramp. -/
theorem out4 (x0 : (⟨S100000x4, .f32⟩ : BufTy).Contents (Elt Ideal)) (x1 : (⟨S1600000, .i32⟩ : BufTy).Contents (Elt Ideal)) (x2 : (⟨S1600000, .i32⟩ : BufTy).Contents (Elt Ideal)) (x3 : (⟨S4x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    val_main_v112 (F := Ideal) x0 x1 x2 x3 x4 x5 x6 x7 x8 x9 x10 = affineLeaky (val_main_v101 (F := Ideal) x0 x1 x2 x3 x4 x5 x6 x7 x8 x9) (col (invSqrtDeg x2)) (row x10) := by
  unfold val_main_v112 val_main_v111 val_main_v110 val_main_cst_22 val_main_v109 val_main_v108 val_main_cst_21 val_main_v107 val_main_v106 val_main_v105 val_main_v104 val_main_v103 val_main_v102
  rw [bcast_col, bcast_row]
  exact (leaky_host _ _).trans (funext fun j => congrArg leaky (congrFun
    (affine_host (N := 100000) (M := 128) (val_main_v101 (F := Ideal) x0 x1 x2 x3 x4 x5 x6 x7 x8 x9) (col (val_main_v12 (F := Ideal) x2)) (row x10) bcast_S100000x1_S100000x128_0_1 bcast_S1x128_S100000x128_0_1) j))

/-- Layer 5: the product of the scaled features with the weights. -/
theorem proj5 (x0 : (⟨S100000x4, .f32⟩ : BufTy).Contents (Elt Ideal)) (x1 : (⟨S1600000, .i32⟩ : BufTy).Contents (Elt Ideal)) (x2 : (⟨S1600000, .i32⟩ : BufTy).Contents (Elt Ideal)) (x3 : (⟨S4x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x3, .f32⟩ : BufTy).Contents (Elt Ideal)) :
    val_main_v116 (F := Ideal) x0 x1 x2 x3 x4 x5 x6 x7 x8 x9 x10 x11 = scaledDot (val_main_v112 (F := Ideal) x0 x1 x2 x3 x4 x5 x6 x7 x8 x9 x10) (col (invSqrtDeg x1)) x11 := by
  unfold val_main_v116 val_main_v115 val_main_v114 val_main_v113
  rw [bcast_col]
  exact scaledDot_host (N := 100000) (K := 128) (M := 3) (val_main_v112 (F := Ideal) x0 x1 x2 x3 x4 x5 x6 x7 x8 x9 x10) (col (val_main_v9 (F := Ideal) x1)) x11 bcast_S100000x1_S100000x128_0_1

/-- Layer 5: the gather and the scatter-add are the aggregation. -/
theorem agg5 (x0 : (⟨S100000x4, .f32⟩ : BufTy).Contents (Elt Ideal)) (x1 : (⟨S1600000, .i32⟩ : BufTy).Contents (Elt Ideal)) (x2 : (⟨S1600000, .i32⟩ : BufTy).Contents (Elt Ideal)) (x3 : (⟨S4x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x3, .f32⟩ : BufTy).Contents (Elt Ideal)) :
    val_main_v126 (F := Ideal) x0 x1 x2 x3 x4 x5 x6 x7 x8 x9 x10 x11 = aggregate3 x1 x2 (val_main_v116 (F := Ideal) x0 x1 x2 x3 x4 x5 x6 x7 x8 x9 x10 x11) := rfl

/-- Layer 5: the rescale and the shift (no ramp after the last layer). -/
theorem out5 (x0 : (⟨S100000x4, .f32⟩ : BufTy).Contents (Elt Ideal)) (x1 : (⟨S1600000, .i32⟩ : BufTy).Contents (Elt Ideal)) (x2 : (⟨S1600000, .i32⟩ : BufTy).Contents (Elt Ideal)) (x3 : (⟨S4x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x3, .f32⟩ : BufTy).Contents (Elt Ideal)) (x12 : (⟨S3, .f32⟩ : BufTy).Contents (Elt Ideal)) :
    val_main_v132 (F := Ideal) x0 x1 x2 x3 x4 x5 x6 x7 x8 x9 x10 x11 x12 = affine (val_main_v126 (F := Ideal) x0 x1 x2 x3 x4 x5 x6 x7 x8 x9 x10 x11) (col (invSqrtDeg x2)) (row x12) := by
  unfold val_main_v132 val_main_v131 val_main_v130 val_main_v129 val_main_v128 val_main_v127
  rw [bcast_col, bcast_row]
  exact affine_host (N := 100000) (M := 3) (val_main_v126 (F := Ideal) x0 x1 x2 x3 x4 x5 x6 x7 x8 x9 x10 x11) (col (val_main_v12 (F := Ideal) x2)) (row x12) bcast_S100000x1_S100000x3_0_1 bcast_S1x3_S100000x3_0_1

/-- The reference's result, layer by layer, is the network. -/
theorem result_eq (x0 : (⟨S100000x4, .f32⟩ : BufTy).Contents (Elt Ideal)) (x1 : (⟨S1600000, .i32⟩ : BufTy).Contents (Elt Ideal)) (x2 : (⟨S1600000, .i32⟩ : BufTy).Contents (Elt Ideal)) (x3 : (⟨S4x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x3, .f32⟩ : BufTy).Contents (Elt Ideal)) (x12 : (⟨S3, .f32⟩ : BufTy).Contents (Elt Ideal)) :
    val_main_v132 (F := Ideal) x0 x1 x2 x3 x4 x5 x6 x7 x8 x9 x10 x11 x12 = network x0 x1 x2 x3 x4 x5 x6 x7 x8 x9 x10 x11 x12 := by
  rw [out5, agg5, proj5,
    out4, agg4, proj4,
    out3, agg3, proj3,
    out2, agg2, proj2,
    out1, agg1, proj1]
  rfl

end Cert.ReferenceIdeal.RefValue

end
-- ==== Proof.lean ====
/-
  A five-layer graph convolution (100000 nodes, 1600000 edges, widths 4 → 128 → 128 → 128 → 128 → 3) computed by ten
  kernel launches among host operations, against the same network written as one line of host operations.

  Each layer is   x ↦ ramp( aggregate( (x · dout) @ W ) · din + b )   with dout, din the inverse square roots of the
  clamped out- and in-degrees, aggregate the gather along the edges' sources followed by the scatter-add into their
  destinations, and ramp the leaky ramp (absent after the last layer).  The kernel computes the product and the
  rescale-shift-ramp block of 2000 rows by block of 2000 rows, narrowing the product's operands; over the extended reals
  the narrowing is the identity, a product into a zero accumulator and the host's product are the same sum over the
  contracted axis, and both functions read one row of their operands per row of their result, so the blocks assemble
  into the whole-array functions.  The degree normalisations, the gather and the scatter-add are the same host
  operations in both programs, applied to equal operands.  No algebraic law beyond that is used, so the inputs'
  finiteness is never needed.

  Modules: LibLayer (the layer's two functions, and the kernel's and the host's spellings of them), LibRowDot (a plain
  matrix product at an entry), Network (the whole network as one term), Launch0 … Launch9 (each launch's result array),
  Kept (which buffers each segment leaves alone), RunBuffers (the kernel's run with its final memory read), Fold (the
  kernel's result buffer is the network), RefValue (the reference's result is the network).
-/
import proofs.«118214_j76390288327751_1_alg».proof.Defs
import proofs.«118214_j76390288327751_1_alg».proof.Proof.Gen.Kernel
import proofs.«118214_j76390288327751_1_alg».proof.Proof.Gen.Kernel.Frame
import proofs.«118214_j76390288327751_1_alg».proof.Proof.Gen.KernelIdeal
import proofs.«118214_j76390288327751_1_alg».proof.Proof.Gen.KernelIdeal.Frame
import proofs.«118214_j76390288327751_1_alg».proof.Proof.Gen.ReferenceIdeal
import proofs.«118214_j76390288327751_1_alg».proof.Proof.Gen.ReferenceIdeal.Run
import proofs.«118214_j76390288327751_1_alg».proof.Proof.Gen.ReferenceIdeal.Read
import proofs.«118214_j76390288327751_1_alg».proof.Proof.Gen.Pre_finite_inputs
import proofs.«118214_j76390288327751_1_alg».proof.Proof.RunBuffers
import proofs.«118214_j76390288327751_1_alg».proof.Proof.Fold
import proofs.«118214_j76390288327751_1_alg».proof.Proof.RefValue
import Idealize.ShloMosaic.Adequacy
import Idealize.ShloMosaic.Init

set_option maxRecDepth 16384

noncomputable section

namespace Cert.Proof

open Idealize.ShloMosaic Idealize.SL.Sem

/-- The kernel as printed runs, and its arguments end unchanged. -/
theorem frame_kernel : Cert.frame_Kernel := fun m ρ _ => Cert.Kernel.Gen.frame m ρ

/-- The idealized kernel runs, and its arguments end unchanged. -/
theorem frame_kernelIdeal : Cert.frame_KernelIdeal := fun m ρ _ => Cert.KernelIdeal.Gen.frame m ρ

/-- The idealized reference runs, and its arguments end unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the network of the (agreeing) arguments in their result buffers. -/
theorem algebraic : Cert.algebraic_KernelIdeal_ReferenceIdeal := by
  intro m ρ m' ρ' _ hagree
  refine ⟨fun c => Cert.KernelIdeal.Network.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Fold.result m ρ c), (h c).2⟩)
      (Cert.KernelIdeal.RunBuffers.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v132_eq, Cert.ReferenceIdeal.RefValue.result_eq]
    obtain ⟨h0, h1, h2, h3, h4, h5, h6, h7, h8, h9, h10, h11, h12⟩ := hagree c
    rw [h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
